-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000x3 : Shape := ⟨2, ![1600000, 3]⟩
abbrev S100000x64 : Shape := ⟨2, ![100000, 64]⟩
abbrev S64x64 : Shape := ⟨2, ![64, 64]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : IVec S1600000x3 32) (main_arg1 : FVec F S100000x64 .f32) (main_arg2 : FVec F S64x64 .f32) (main_arg3 : FVec F S64 .f32) (main_arg4 : FVec F S1x64 .f32) (main_arg5 : FVec F S1 .f32) : IVec S_ 1 :=
  let main_v0 : FVec F S100000x64 .f32 := Host.absf main_arg1
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1x64 .f32 := Host.absf main_arg4
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg5 main_v13 main_v16
-- ==== Kernel.lean ====
abbrev S1600000x3 : Shape := ⟨2, ![1600000, 3]⟩
abbrev S100000x64 : Shape := ⟨2, ![100000, 64]⟩
abbrev S64x64 : Shape := ⟨2, ![64, 64]⟩
abbrev S64 : Shape := ⟨1, ![64]⟩
abbrev S1x64 : Shape := ⟨2, ![1, 64]⟩
abbrev S1 : Shape := ⟨1, ![1]⟩
abbrev S1600000x1 : Shape := ⟨2, ![1600000, 1]⟩
abbrev S1600000 : Shape := ⟨1, ![1600000]⟩
abbrev S_ : Shape := ⟨0, ![]⟩
abbrev S1600000x64 : Shape := ⟨2, ![1600000, 64]⟩
abbrev S1x1 : Shape := ⟨2, ![1, 1]⟩
abbrev S1600000x65 : Shape := ⟨2, ![1600000, 65]⟩
abbrev S4000x64 : Shape := ⟨2, ![4000, 64]⟩
abbrev S4000x65 : Shape := ⟨2, ![4000, 65]⟩
abbrev S4000 : Shape := ⟨1, ![4000]⟩
abbrev S4000x1 : Shape := ⟨2, ![4000, 1]⟩
abbrev S100000x65 : Shape := ⟨2, ![100000, 65]⟩
abbrev S100000x1 : Shape := ⟨2, ![100000, 1]⟩

abbrev nBuf : Space → Nat
  | .hbm => 39
  | .vmem => 8
  | .smem => 0
  | _ => 0

abbrev bufTy : (tb : Table) → Fin (tcTables nBuf tb) → BufTy
  | .hbm, ⟨0, _⟩ => ⟨S1600000x3, .i32⟩
  | .hbm, ⟨1, _⟩ => ⟨S100000x64, .f32⟩
  | .hbm, ⟨2, _⟩ => ⟨S64x64, .f32⟩
  | .hbm, ⟨3, _⟩ => ⟨S64, .f32⟩
  | .hbm, ⟨4, _⟩ => ⟨S1x64, .f32⟩
  | .hbm, ⟨5, _⟩ => ⟨S1, .f32⟩
  | .hbm, ⟨6, _⟩ => ⟨S1600000x1, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S64x64, .f32⟩
  | .hbm, ⟨18, _⟩ => ⟨S1x64, .f32⟩
  | .hbm, ⟨19, _⟩ => ⟨S1x1, .f32⟩
  | .hbm, ⟨20, _⟩ => ⟨S1600000x65, .f32⟩
  | .hbm, ⟨21, _⟩ => ⟨S_, .f32⟩
  | .hbm, ⟨22, _⟩ => ⟨S100000x65, .f32⟩
  | .hbm, ⟨23, _⟩ => ⟨S1600000x1, .i32⟩
  | .hbm, ⟨24, _⟩ => ⟨S100000x65, .f32⟩
  | .hbm, ⟨25, _⟩ => ⟨S100000x1, .f32⟩
  | .hbm, ⟨26, _⟩ => ⟨S100000x64, .f32⟩
  | .hbm, ⟨27, _⟩ => ⟨S_, .f32⟩
  | .hbm, ⟨28, _⟩ => ⟨S100000x1, .f32⟩
  | .hbm, ⟨29, _⟩ => ⟨S100000x1, .i1⟩
  | .hbm, ⟨30, _⟩ => ⟨S_, .f32⟩
  | .hbm, ⟨31, _⟩ => ⟨S_, .f32⟩
  | .hbm, ⟨32, _⟩ => ⟨S100000x1, .f32⟩
  | .hbm, ⟨33, _⟩ => ⟨S100000x1, .f32⟩
  | .hbm, ⟨34, _⟩ => ⟨S100000x64, .f32⟩
  | .hbm, ⟨35, _⟩ => ⟨S100000x64, .f32⟩
  | .hbm, ⟨36, _⟩ => ⟨S_, .f32⟩
  | .hbm, ⟨37, _⟩ => ⟨S100000x64, .f32⟩
  | .hbm, ⟨38, _⟩ => ⟨S100000x64, .f32⟩
  | .local _ .vmem, ⟨0, _⟩ => ⟨S4000x64, .f32⟩
  | .local _ .vmem, ⟨1, _⟩ => ⟨S4000x64, .f32⟩
  | .local _ .vmem, ⟨2, _⟩ => ⟨S64x64, .f32⟩
  | .local _ .vmem, ⟨3, _⟩ => ⟨S1x64, .f32⟩
  | .local _ .vmem, ⟨4, _⟩ => ⟨S1x64, .f32⟩
  | .local _ .vmem, ⟨5, _⟩ => ⟨S1x1, .f32⟩
  | .local _ .vmem, ⟨6, _⟩ => ⟨S4000x65, .f32⟩
  | .local _ .vmem, ⟨7, _⟩ => ⟨S4000x65, .f32⟩
  | _, _ => ⟨S1600000x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call1_cst : Ref sig .tc := ⟨.hbm, 36, rfl⟩
abbrev main_call1_v0 : Ref sig .tc := ⟨.hbm, 37, rfl⟩
abbrev main_v23 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x65 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S1600000x3_S1600000x1_0_0 : S1600000x3.Slices ![0, 0] S1600000x1
  shapeCasts_S1600000x1_S1600000 : S1600000x1.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  transposes_S64x64_S64x64_1_0 : S64x64.Transposes [1, 0] S64x64
  shapeCasts_S64_S1x64 : S64.ShapeCasts S1x64
  shapeCasts_S1_S1x1 : S1.ShapeCasts S1x1
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  reduces_S4000x64_S4000 : S4000x64.Reduces [1] S4000
  shapeCasts_S4000_S4000x1 : S4000.ShapeCasts S4000x1
  broadcasts_S4000x1_S4000x64 : S4000x1.Broadcasts S4000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  concatenates_S4000x1_S4000x64_S4000x65_d1 : Shape.Concatenates [S4000x1, S4000x64] S4000x65 1
  inb_S4000x65_S4000x65_0_0 : ∀ a, (![0, 0] : Fin 2 → Nat) a + S4000x65.size a ≤ S4000x65.size a
  h_S4000x65 : 0 < S4000x65.numel
  bcast_S_S100000x65 : S_.BroadcastsInDim S100000x65 (![] : Fin 0 → Fin S100000x65.rank)
  slices_S100000x65_S100000x1_0_0 : S100000x65.Slices ![0, 0] S100000x1
  slices_S100000x65_S100000x64_0_1 : S100000x65.Slices ![0, 1] S100000x64
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  gather_S100000x64_S1600000x1_S1600000x64_1_0_n_n_0_1_164_wf : GatherDims.WF S100000x64 S1600000x1 S1600000x64 [1] [0] [] [0] [] 1 ![1, 64]
  dot_S4000x64_S64x64_S4000x64_1_0_0_1_n_n_wf : DotDims.WF S4000x64 S64x64 S4000x64 [1] [0] [0] [1] [] []
  scatter_S100000x65_S1600000x1_S1600000x65_1_0_0_1_wf : ScatterDims.WF S100000x65 S1600000x1 S1600000x65 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S1600000x64.size a
  hwx0_0 : ∀ i : grid0.Coords, EltTy.bits .f32 = 32 ∨ (Rect.block (s := S1600000x64) S4000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x65.size a ≤ S1600000x65.size a
  hwx0_5 : ∀ i : grid0.Coords, EltTy.bits .f32 = 32 ∨ (Rect.block (s := S1600000x65) S4000x65.size (cc0_transform_5 i) (hinb0_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def scatter_S100000x65_S1600000x1_S1600000x65_1_0_0_1 : ScatterDims S100000x65 S1600000x1 S1600000x65 where
  updateWindowDims := [1]
  insertedWindowDims := [0]
  scatterDimsToOperandDims := [0]
  indexVectorDim := 1
  wf := scatter_S100000x65_S1600000x1_S1600000x65_1_0_0_1_wf

abbrev win0_0 : Pipeline.Window sig grid0 :=
  Pipeline.Window.ofSpec (Memref.whole main_v8) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S4000x65.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1600000x3 : Shape := ⟨2, ![1600000, 3]⟩
abbrev S100000x64 : Shape := ⟨2, ![100000, 64]⟩
abbrev S64x64 : Shape := ⟨2, ![64, 64]⟩
abbrev S64 : Shape := ⟨1, ![64]⟩
abbrev S1x64 : Shape := ⟨2, ![1, 64]⟩
abbrev S1 : Shape := ⟨1, ![1]⟩
abbrev S1600000x1 : Shape := ⟨2, ![1600000, 1]⟩
abbrev S1600000 : Shape := ⟨1, ![1600000]⟩
abbrev S_ : Shape := ⟨0, ![]⟩
abbrev S1600000x64 : Shape := ⟨2, ![1600000, 64]⟩
abbrev S64x1 : Shape := ⟨2, ![64, 1]⟩
abbrev S1x1 : Shape := ⟨2, ![1, 1]⟩
abbrev S100000x1 : Shape := ⟨2, ![100000, 1]⟩

abbrev nBuf : Space → Nat
  | .hbm => 74
  | .vmem => 0
  | .smem => 0
  | _ => 0

abbrev bufTy : (tb : Table) → Fin (tcTables nBuf tb) → BufTy
  | .hbm, ⟨0, _⟩ => ⟨S1600000x3, .i32⟩
  | .hbm, ⟨1, _⟩ => ⟨S100000x64, .f32⟩
  | .hbm, ⟨2, _⟩ => ⟨S64x64, .f32⟩
  | .hbm, ⟨3, _⟩ => ⟨S64, .f32⟩
  | .hbm, ⟨4, _⟩ => ⟨S1x64, .f32⟩
  | .hbm, ⟨5, _⟩ => ⟨S1, .f32⟩
  | .hbm, ⟨6, _⟩ => ⟨S1600000x1, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S1600000x64, .f32⟩
  | .hbm, ⟨18, _⟩ => ⟨S_, .f32⟩
  | .hbm, ⟨19, _⟩ => ⟨S1600000, .f32⟩
  | .hbm, ⟨20, _⟩ => ⟨S1600000x1, .f32⟩
  | .hbm, ⟨21, _⟩ => ⟨S1600000x1, .f32⟩
  | .hbm, ⟨22, _⟩ => ⟨S_, .f32⟩
  | .hbm, ⟨23, _⟩ => ⟨S1600000x1, .f32⟩
  | .hbm, ⟨24, _⟩ => ⟨S1600000x1, .f32⟩
  | .hbm, ⟨25, _⟩ => ⟨S_, .f32⟩
  | .hbm, ⟨26, _⟩ => ⟨S1600000x1, .f32⟩
  | .hbm, ⟨27, _⟩ => ⟨S1600000x1, .f32⟩
  | .hbm, ⟨28, _⟩ => ⟨S_, .f32⟩
  | .hbm, ⟨29, _⟩ => ⟨S1600000x1, .f32⟩
  | .hbm, ⟨30, _⟩ => ⟨S1600000x1, .f32⟩
  | .hbm, ⟨31, _⟩ => ⟨S1600000x64, .f32⟩
  | .hbm, ⟨32, _⟩ => ⟨S1600000x64, .f32⟩
  | .hbm, ⟨33, _⟩ => ⟨S64x64, .f32⟩
  | .hbm, ⟨34, _⟩ => ⟨S1600000x64, .f32⟩
  | .hbm, ⟨35, _⟩ => ⟨S1x64, .f32⟩
  | .hbm, ⟨36, _⟩ => ⟨S1600000x64, .f32⟩
  | .hbm, ⟨37, _⟩ => ⟨S1600000x64, .f32⟩
  | .hbm, ⟨38, _⟩ => ⟨S64x1, .f32⟩
  | .hbm, ⟨39, _⟩ => ⟨S1600000x1, .f32⟩
  | .hbm, ⟨40, _⟩ => ⟨S1x1, .f32⟩
  | .hbm, ⟨41, _⟩ => ⟨S1600000x1, .f32⟩
  | .hbm, ⟨42, _⟩ => ⟨S1600000x1, .f32⟩
  | .hbm, ⟨43, _⟩ => ⟨S_, .f32⟩
  | .hbm, ⟨44, _⟩ => ⟨S1600000x1, .f32⟩
  | .hbm, ⟨45, _⟩ => ⟨S1600000x1, .i1⟩
  | .hbm, ⟨46, _⟩ => ⟨S_, .f32⟩
  | .hbm, ⟨47, _⟩ => ⟨S1600000x1, .f32⟩
  | .hbm, ⟨48, _⟩ => ⟨S1600000x1, .f32⟩
  | .hbm, ⟨49, _⟩ => ⟨S1600000x1, .f32⟩
  | .hbm, ⟨50, _⟩ => ⟨S1600000x1, .f32⟩
  | .hbm, ⟨51, _⟩ => ⟨S1600000x1, .f32⟩
  | .hbm, ⟨52, _⟩ => ⟨S_, .f32⟩
  | .hbm, ⟨53, _⟩ => ⟨S100000x1, .f32⟩
  | .hbm, ⟨54, _⟩ => ⟨S1600000x1, .i32⟩
  | .hbm, ⟨55, _⟩ => ⟨S100000x1, .f32⟩
  | .hbm, ⟨56, _⟩ => ⟨S1600000x64, .f32⟩
  | .hbm, ⟨57, _⟩ => ⟨S1600000x64, .f32⟩
  | .hbm, ⟨58, _⟩ => ⟨S_, .f32⟩
  | .hbm, ⟨59, _⟩ => ⟨S100000x64, .f32⟩
  | .hbm, ⟨60, _⟩ => ⟨S1600000x1, .i32⟩
  | .hbm, ⟨61, _⟩ => ⟨S100000x64, .f32⟩
  | .hbm, ⟨62, _⟩ => ⟨S_, .f32⟩
  | .hbm, ⟨63, _⟩ => ⟨S100000x1, .f32⟩
  | .hbm, ⟨64, _⟩ => ⟨S100000x1, .i1⟩
  | .hbm, ⟨65, _⟩ => ⟨S_, .f32⟩
  | .hbm, ⟨66, _⟩ => ⟨S_, .f32⟩
  | .hbm, ⟨67, _⟩ => ⟨S100000x1, .f32⟩
  | .hbm, ⟨68, _⟩ => ⟨S100000x1, .f32⟩
  | .hbm, ⟨69, _⟩ => ⟨S100000x64, .f32⟩
  | .hbm, ⟨70, _⟩ => ⟨S100000x64, .f32⟩
  | .hbm, ⟨71, _⟩ => ⟨S_, .f32⟩
  | .hbm, ⟨72, _⟩ => ⟨S100000x64, .f32⟩
  | .hbm, ⟨73, _⟩ => ⟨S100000x64, .f32⟩
  | _, _ => ⟨S1600000x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_call0_v2 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call1_cst : Ref sig .tc := ⟨.hbm, 43, rfl⟩
abbrev main_call1_v0 : Ref sig .tc := ⟨.hbm, 44, rfl⟩
abbrev main_call1_v1 : Ref sig .tc := ⟨.hbm, 45, rfl⟩
abbrev main_call1_cst_0 : Ref sig .tc := ⟨.hbm, 46, rfl⟩
abbrev main_call1_v2 : Ref sig .tc := ⟨.hbm, 47, rfl⟩
abbrev main_call1_v3 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_3 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_4 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_5 : Ref sig .tc := ⟨.hbm, 62, rfl⟩
abbrev main_v39 : Ref sig .tc := ⟨.hbm, 63, rfl⟩
abbrev main_v40 : Ref sig .tc := ⟨.hbm, 64, rfl⟩
abbrev main_cst_6 : Ref sig .tc := ⟨.hbm, 65, rfl⟩
abbrev main_call2_v0 : Ref sig .tc := ⟨.hbm, 66, rfl⟩
abbrev main_call2_v1 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_call3_cst : Ref sig .tc := ⟨.hbm, 71, rfl⟩
abbrev main_call3_v0 : Ref sig .tc := ⟨.hbm, 72, rfl⟩
abbrev main_v44 : Ref sig .tc := ⟨.hbm, 73, rfl⟩

abbrev nD : Nat := 1
abbrev τ : Topo := Topo.v7x

variable {F : FTy → Type} [FloatOps F]

class Facts₀ : Prop where
  slices_S1600000x3_S1600000x1_0_0 : S1600000x3.Slices ![0, 0] S1600000x1
  shapeCasts_S1600000x1_S1600000 : S1600000x1.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x64_S1600000_d1 : S1600000x64.ReducesTo [1] S1600000
  h_S_ : 0 < S_.numel
  bcast_S_S1600000x1 : S_.BroadcastsInDim S1600000x1 (![] : Fin 0 → Fin S1600000x1.rank)
  bcast_S1600000x1_S1600000x64_0_1 : S1600000x1.BroadcastsInDim S1600000x64 (![0, 1] : Fin 2 → Fin S1600000x64.rank)
  transposes_S64x64_S64x64_1_0 : S64x64.Transposes [1, 0] S64x64
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  transposes_S1x64_S64x1_1_0 : S1x64.Transposes [1, 0] S64x1
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  bcast_S_S100000x1 : S_.BroadcastsInDim S100000x1 (![] : Fin 0 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  dot_S1600000x64_S64x64_S1600000x64_1_0_0_1_n_n_wf : DotDims.WF S1600000x64 S64x64 S1600000x64 [1] [0] [0] [1] [] []
  dot_S1600000x64_S64x1_S1600000x1_1_0_0_1_n_n_wf : DotDims.WF S1600000x64 S64x1 S1600000x1 [1] [0] [0] [1] [] []
  scatter_S100000x1_S1600000x1_S1600000x1_1_0_0_1_wf : ScatterDims.WF S100000x1 S1600000x1 S1600000x1 [1] [0] [0] 1
  scatter_S100000x64_S1600000x1_S1600000x64_1_0_0_1_wf : ScatterDims.WF S100000x64 S1600000x1 S1600000x64 [1] [0] [0] 1

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def dot_S1600000x64_S64x1_S1600000x1_1_0_0_1_n_n : DotDims S1600000x64 S64x1 S1600000x1 where
  lhsContracting := [1]
  rhsContracting := [0]
  lhsNonContracting := [0]
  rhsNonContracting := [1]
  lhsBatch := []
  rhsBatch := []
  wf := dot_S1600000x64_S64x1_S1600000x1_1_0_0_1_n_n_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KerStages.lean ====
/-
  The kernel program's host operations around its one region, grouped into stages. Before the region: the source ids
  `src`, the gather's start indices `gidx`, the gathered rows `rows` (the region's first operand), the transposed
  weight matrix `wT`, the first bias as a one-row array `bRow`, the second bias as a one-by-one array `b2`. After the
  region, from its result `comb` (one row of 65 per edge: the weight, then the weighted features): the segment sum
  `agg`, its first column `den` and its other 64 columns `num`, and the normalised, rectified output `fin`.
-/
import proofs.«157317_j77704548319854_2_alg».proof.KernelIdeal
import Idealize.ShloMosaic.PureOps.Ideal

noncomputable section

namespace Cert.KerStage

open Idealize.ShloMosaic
open Cert.KernelIdeal Cert.KernelIdeal.Facts₀

variable [Cert.KernelIdeal.Facts]

/-- Integer and float arrays of a shape, at the exact instance. -/
abbrev I32 (s : Shape) := IVec s 32
abbrev F32 (s : Shape) := FVec Ideal s .f32

/-- The scalar float constant of a bit pattern, broadcast to a shape. -/
abbrev splat (t : Shape) (h : S_.BroadcastsInDim t (![] : Fin 0 → Fin t.rank)) (bits : BitVec 32) : F32 t :=
  broadcastInDim t ![] h (constant (F := Ideal) S_ .f32 bits)

/-- The source id of every edge: column 0 of the triplets. -/
def src (a0 : I32 S1600000x3) : I32 S1600000 :=
  shapeCast S1600000 (extractStridedSlice S1600000x1 ![0, 0] a0 slices_S1600000x3_S1600000x1_0_0) shapeCasts_S1600000x1_S1600000

/-- The gather's start indices: a negative id has the table's height added. -/
def gidx (a0 : I32 S1600000x3) : I32 S1600000x1 :=
  broadcastInDim S1600000x1 ![0] bcast_S1600000_S1600000x1_0
    (select (cmpi .slt (src a0) (broadcastInDim S1600000 ![] bcast_S_S1600000 (constantI S_ 32 0#32)))
      (addi (src a0) (broadcastInDim S1600000 ![] bcast_S_S1600000 (constantI S_ 32 100000#32)))
      (src a0))

/-- The gathered embedding rows, one per edge. -/
def rows (a0 : I32 S1600000x3) (a1 : F32 S100000x64) : F32 S1600000x64 :=
  Host.gather gather_S100000x64_S1600000x1_S1600000x64_1_0_n_n_0_1_164 a1 (gidx a0)

/-- The weight matrix transposed. -/
def wT (a2 : F32 S64x64) : F32 S64x64 := transpose S64x64 [1, 0] a2 transposes_S64x64_S64x64_1_0

/-- The first bias as a one-row array. -/
def bRow (a3 : F32 S64) : F32 S1x64 := shapeCast S1x64 a3 shapeCasts_S64_S1x64

/-- The second bias as a one-by-one array. -/
def b2 (a5 : F32 S1) : F32 S1x1 := shapeCast S1x1 a5 shapeCasts_S1_S1x1

/-- The scatter indices: the source ids as a column. -/
def sidx (a0 : I32 S1600000x3) : I32 S1600000x1 :=
  broadcastInDim S1600000x1 ![0] bcast_S1600000_S1600000x1_0 (src a0)

/-- Per node, the sum of its edges' rows of 65. -/
def agg (a0 : I32 S1600000x3) (comb : F32 S1600000x65) : F32 S100000x65 :=
  Host.scatterAdd scatter_S100000x65_S1600000x1_S1600000x65_1_0_0_1 (splat S100000x65 bcast_S_S100000x65 0x00000000#32) (sidx a0) comb

/-- The summed weights: column 0. -/
def den (ag : F32 S100000x65) : F32 S100000x1 :=
  extractStridedSlice S100000x1 ![0, 0] ag slices_S100000x65_S100000x1_0_0

/-- The weighted sums of features: columns 1 to 64. -/
def num (ag : F32 S100000x65) : F32 S100000x64 :=
  extractStridedSlice S100000x64 ![0, 1] ag slices_S100000x65_S100000x64_0_1

/-- The weighted sums divided by the sums of weights (a zero sum replaced by the tiny constant), capped below at zero. -/
def fin (den : F32 S100000x1) (num : F32 S100000x64) : F32 S100000x64 :=
  maximumf (Host.divf num (broadcastInDim S100000x64 ![0, 1] bcast_S100000x1_S100000x64_0_1
      (select (cmpf .oeq den (splat S100000x1 bcast_S_S100000x1 0x00000000#32))
        (broadcastInDim S100000x1 ![] bcast_S_S100000x1 (id (constant (F := Ideal) S_ .f32 0x2B8CBCCC#32)))
        den)))
    (splat S100000x64 bcast_S_S100000x64 0x00000000#32)

/-- The operations after the region as one function of the source ids and the region's result. -/
def tail (a0 : I32 S1600000x3) (comb : F32 S1600000x65) : F32 S100000x64 :=
  fin (den (agg a0 comb)) (num (agg a0 comb))

end Cert.KerStage

end
-- ==== Proof.Spec.lean ====
/-
  One attention edge, and one node's normalised sum, over the extended reals.

  An edge reads the embedding row `ρ` of its source node. The row is rescaled to norm at most one
  (`scale ρ = min 1 (1 / (‖ρ‖ + ε))`), sent through a dense layer (`crow`: 64 features), and scored by a
  second layer of width one (`srow`). The edge's weight is `exp` of minus the leaky rectification of
  the score; one of the two programs also caps the exponent at 80 (`wCap`), the other does not (`wPlain`).
  A node's output feature is the weighted sum of its edges' features divided by the sum of their
  weights (a sum of weights that is zero is replaced by a tiny constant), capped below at zero
  (`nodeOut`). Every edge of a node reads the same row, so whatever positive real weight the edges carry,
  the quotient is the feature itself: `closed` is that closed form.
-/
import Idealize.ShloMosaic.PureOps
import Idealize.ShloMosaic.PureOps.Ideal
import Idealize.ShloMosaic.Lib.ValueIdx

noncomputable section

open scoped BigOperators

namespace Cert.Attn

open Idealize.ShloMosaic Idealize.ShloMosaic.ValueIdx

/-- The literal constants of the two programs, as extended reals: 0, 1, the single-precision neighbours of 10⁻⁷,
    10⁻² and 10⁻¹², and 80. -/
def c0 : EReal := Ideal.ofBits .f32 0x00000000#32
def c1 : EReal := Ideal.ofBits .f32 0x3F800000#32
def cEps : EReal := Ideal.ofBits .f32 0x33D6BF95#32
def cSlope : EReal := Ideal.ofBits .f32 0x3C23D70A#32
def cTiny : EReal := Ideal.ofBits .f32 0x2B8CBCCC#32
def c80 : EReal := Ideal.ofBits .f32 0x42A00000#32

/-- The sum of a row's squares. -/
def ssq (ρ : Fin 64 → EReal) : EReal := ∑ k : Fin 64, ρ k * ρ k

/-- The factor that brings a row's norm down to at most one. -/
def scale (ρ : Fin 64 → EReal) : EReal := min c1 (Ideal.div c1 (Ideal.sqrt (ssq ρ) + cEps))

/-- The rescaled row. -/
def hid (ρ : Fin 64 → EReal) : Fin 64 → EReal := fun k => ρ k * scale ρ

/-- The dense layer on the rescaled row: `W k q` is the weight from input feature `k` to output feature `q`. -/
def crow (W : Fin 64 → Fin 64 → EReal) (b : Fin 64 → EReal) (ρ : Fin 64 → EReal) : Fin 64 → EReal :=
  fun q => (∑ k : Fin 64, hid ρ k * W k q) + b q

/-- The score: the second layer, of width one. -/
def srow (W : Fin 64 → Fin 64 → EReal) (b : Fin 64 → EReal) (w2 : Fin 64 → EReal) (b2 : EReal) (ρ : Fin 64 → EReal) : EReal :=
  (∑ q : Fin 64, crow W b ρ q * w2 q) + b2

/-- The leaky rectification, decided by `s > 0`. -/
def lreluGt (s : EReal) : EReal := if Ideal.cmp .ogt s c0 = 1#1 then s else cSlope * s

/-- The leaky rectification, decided by `s ≥ 0`. -/
def lreluGe (s : EReal) : EReal := if Ideal.cmp .oge s c0 = 1#1 then s else cSlope * s

/-- The edge weight with the exponent capped at 80. -/
def wCap (s : EReal) : EReal := Ideal.exp (min (c0 - lreluGt s) c80)

/-- The edge weight, uncapped. -/
def wPlain (s : EReal) : EReal := Ideal.exp (-(lreluGe s))

/-- A node's output feature from the sum `den` of its edges' weights and the weighted sum `num` of their features. -/
def nodeOut (den num : EReal) : EReal :=
  max (Ideal.div num (if Ideal.cmp .oeq den c0 = 1#1 then cTiny else den)) c0

/-- The edges of node `n`: those whose source id, read as a signed integer, is `n`. -/
def edgesOf (tri : IVec ⟨2, ![1600000, 3]⟩ 32) (n : Fin 100000) : Finset (Fin 1600000) :=
  Finset.univ.filter fun e : Fin 1600000 => (tri (ix2 e (0 : Fin 3))).toInt = (n.val : Int)

/-- THE CLOSED FORM of output feature `j` of node `n`: with no edge, what the quotient of two empty sums gives; with
    at least one, the dense layer's feature of the node's own row, capped below at zero. -/
def closed (tri : IVec ⟨2, ![1600000, 3]⟩ 32) (emb : (⟨2, ![100000, 64]⟩ : Shape).Idx → EReal)
    (W : Fin 64 → Fin 64 → EReal) (b : Fin 64 → EReal) (n : Fin 100000) (j : Fin 64) : EReal :=
  if (edgesOf tri n).Nonempty then max (crow W b (fun k => emb (ix2 n k)) j) c0 else nodeOut (c0 + 0) (c0 + 0)

end Cert.Attn

end
-- ==== Proof.LibDotSum.lean ====
/-
  A matrix product's sum over the contraction index, re-indexed over the contracted extent: for the plain dimension numbers
  (left operand contracted on its columns, right operand on its rows, no batch axes) the sum over the one-axis contraction
  shape of the operands' products at the dot's operand indices is the sum over `kk : Fin K` of the left operand at
  (row of the output index, `kk`) times the right operand at (`kk`, column of the output index).
-/
import Idealize.ShloMosaic.Lib.ValueIdx
import Idealize.ShloMosaic.PureOps.Ideal.Laws

namespace Cert.Lib.DotSum

open Idealize.ShloMosaic Idealize.ShloMosaic.ValueIdx

variable {M K N : Nat} (d : DotDims ⟨2, ![M, K]⟩ ⟨2, ![K, N]⟩ ⟨2, ![M, N]⟩)

/-- The contraction shape has one axis, -/
theorem contr_rank (hlc : d.lhsContracting = [1]) : d.contr.rank = 1 := by
  rw [d.rank_contr, hlc]; rfl

/-- of the contracted extent. -/
theorem contr_size (hlc : d.lhsContracting = [1]) :
    d.contr.size ⟨0, by rw [contr_rank d hlc]; exact Nat.one_pos⟩ = K := by
  have h := d.size_contr 0 (by rw [hlc]; exact Nat.one_pos)
  rw [h, List.getElem_of_eq hlc]; rfl

/-- A coordinate of an output index depends on the axis's number only. -/
theorem out_coord (j : (⟨2, ![M, N]⟩ : Shape).Idx) (p q : Nat) (hp : p < 2) (hq : q < 2) (h : p = q) :
    (j ⟨p, hp⟩).val = (j ⟨q, hq⟩).val := by subst h; rfl

/-- The left operand's index reads the output's row on its rows, -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact out_coord j _ _ _ _ (by rw [hlb, hln]; rfl)

/-- the right operand's the output's column on its columns. -/
theorem rhs_col (hln : d.lhsNonContracting = [0]) (hrn : d.rhsNonContracting = [1]) (hlb : d.lhsBatch = []) (hrb : d.rhsBatch = [])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact out_coord j _ _ _ _ (by rw [hlb, hln, hrn]; rfl)

/-- THE SUM, RE-INDEXED: over the contracted extent, the left operand along the output's row times the right operand down the
    output's column. -/
theorem dot_sum (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (j : (⟨2, ![M, N]⟩ : Shape).Idx) :
    (∑ k : d.contr.Idx, l (d.lhsIdx j k) * r (d.rhsIdx j k)) = ∑ kk : Fin K, l (ix2 (j 0) kk) * r (ix2 kk (j 1)) := by
  have hr := contr_rank d hlc
  have hs := contr_size d hlc
  rw [← Equiv.sum_comp (contrEquiv1 d K hr hs).symm]
  refine Finset.sum_congr rfl fun kk _ => ?_
  have hk := contrEquiv1_symm_val d K hr hs kk
  have el : d.lhsIdx j ((contrEquiv1 d K hr hs).symm kk) = ix2 (j 0) kk := funext fun a => Fin.ext (by
    match a with
    | ⟨0, _⟩ => exact lhs_row d hln hlb j _
    | ⟨1, _⟩ => exact (d.lhsIdx_val_of_single hlc j _).trans hk)
  have er : d.rhsIdx j ((contrEquiv1 d K hr hs).symm kk) = ix2 kk (j 1) := funext fun a => Fin.ext (by
    match a with
    | ⟨0, _⟩ => exact (d.rhsIdx_val_of_single hrc j _).trans hk
    | ⟨1, _⟩ => exact rhs_col d hln hrn hlb hrb j _)
  rw [el, er]; rfl

end Cert.Lib.DotSum
-- ==== Proof.LibDot2.lean ====
/-
  The two matrix products read at an index as a sum over the contracted extent, for the plain dimension numbers (left
  operand contracted on its columns, right operand on its rows, no batch axes): the kernel's product into a zero
  accumulator and the host's product are both the sum over `kk` of left (row, kk) times right (kk, column).
-/
import proofs.«157317_j77704548319854_2_alg».proof.Proof.LibDotSum

namespace Cert.Lib.DotSum

open Idealize.ShloMosaic Idealize.ShloMosaic.ValueIdx

variable {M K N : Nat} (d : DotDims ⟨2, ![M, K]⟩ ⟨2, ![K, N]⟩ ⟨2, ![M, N]⟩)

/-- The kernel's matrix product into a zero accumulator. -/
theorem matmul_zero_at (hlc : d.lhsContracting = [1]) (hrc : d.rhsContracting = [0]) (hln : d.lhsNonContracting = [0])
    (hrn : d.rhsNonContracting = [1]) (hlb : d.lhsBatch = []) (hrb : d.rhsBatch = []) {φ₁ φ₂ : FTy} (prec : Option ContractPrecision)
    (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ kk : Fin K, l (ix2 p kk) * r (ix2 kk q) :=
  (Ideal.matmul_constant_zero_apply d prec l r (ix2 p q)).trans (dot_sum d hlc hrc hln hrn hlb hrb l r (ix2 p q))

/-- The host's matrix product. -/
theorem dotGeneral_at (hlc : d.lhsContracting = [1]) (hrc : d.rhsContracting = [0]) (hln : d.lhsNonContracting = [0])
    (hrn : d.rhsNonContracting = [1]) (hlb : d.lhsBatch = []) (hrb : d.rhsBatch = []) {φ₁ φ₂ : FTy} (prec : Option ContractPrecision)
    (sched : HostSchedule) (l : FVec Ideal ⟨2, ![M, K]⟩ φ₁) (r : FVec Ideal ⟨2, ![K, N]⟩ φ₂) (p : Fin M) (q : Fin N) :
    FloatOps.dotGeneral d prec sched l r (ix2 p q) = ∑ kk : Fin K, l (ix2 p kk) * r (ix2 kk q) :=
  (Ideal.dotGeneral_apply d prec sched l r (ix2 p q)).trans (dot_sum d hlc hrc hln hrn hlb hrb l r (ix2 p q))

end Cert.Lib.DotSum
-- ==== Proof.LibRows.lean ====
/-
  Rows and scalars laid under a matrix, read at an index (generic in the extents): a one-row array broadcast down the
  rows reads its row; a vector re-laid as a one-row array reads the vector; a vector broadcast first to a row and then
  down the rows reads the vector at the column; a scalar constant broadcast to any shape reads the constant.
-/
import Idealize.ShloMosaic.Lib.ValueIdx
import Idealize.ShloMosaic.Lib.Pipeline.Value
import Idealize.ShloMosaic.PureOps.Ideal.Laws

namespace Cert.Lib.Rows

open Idealize.ShloMosaic Idealize.ShloMosaic.ValueIdx

variable {α : Type}

/-- A one-row array broadcast down `m` rows reads its row. -/
theorem broadcastTo_row_apply {m n : Nat} (x : (⟨2, ![1, n]⟩ : Shape).Idx → α)
    (h : (⟨2, ![1, n]⟩ : Shape).Broadcasts ⟨2, ![m, n]⟩) (p : Fin m) (q : Fin n) :
    broadcastTo ⟨2, ![m, n]⟩ x h (ix2 p q) = x (ix2 0 q) := by
  refine broadcastTo_apply x h (ix2 p q) (ix2 0 q) fun a => ?_
  match a with
  | ⟨0, _⟩ => exact (if_pos rfl).symm
  | ⟨1, _⟩ =>
    show q.val = if n = 1 then 0 else q.val
    split
    · have := q.isLt; omega
    · rfl

/-- A vector re-laid as a one-row array reads the vector. -/
theorem shapeCast_row_apply {n : Nat} (b : (⟨1, ![n]⟩ : Shape).Idx → α)
    (h : (⟨1, ![n]⟩ : Shape).ShapeCasts ⟨2, ![1, n]⟩) (q : Fin n) :
    shapeCast ⟨2, ![1, n]⟩ b h (ix2 0 q) = b (ix1 q) := by
  refine shapeCast_apply b h (ix2 0 q) (ix1 q) ?_
  rw [Shape.rowMajor_val_one, Shape.rowMajor_val_two]
  show q.val = 0 * n + q.val
  omega

/-- A vector broadcast to a row, then down the rows, reads the vector at the column. -/
theorem rows_apply {m n : Nat} (b : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (p : Fin m) (q : Fin n) :
    broadcastInDim ⟨2, ![m, n]⟩ ![0, 1] h2 (broadcastInDim ⟨2, ![1, n]⟩ ![1] h1 b) (ix2 p q) = b (ix1 q) := by
  rw [broadcastInDim_apply ![0, 1] h2 _ (ix2 p q) (ix2 0 q) (fun a => by
    match a with
    | ⟨0, _⟩ => exact (if_pos rfl).symm
    | ⟨1, _⟩ =>
      show q.val = if n = 1 then 0 else q.val
      split
      · have := q.isLt; omega
      · rfl)]
  exact broadcastInDim_apply ![1] h1 b (ix2 0 q) (ix1 q) (fun a => by
    match a with
    | ⟨0, _⟩ =>
      show q.val = if n = 1 then 0 else q.val
      split
      · have := q.isLt; omega
      · rfl)

/-- A scalar broadcast to any shape reads the scalar. -/
theorem scalar_apply {t : Shape} (x : (⟨0, ![]⟩ : Shape).Idx → α) (h : (⟨0, ![]⟩ : Shape).BroadcastsInDim t ![]) (j : t.Idx) :
    broadcastInDim t ![] h x j = x ix0 :=
  broadcastInDim_apply ![] h x j ix0 (fun a => a.elim0)

end Cert.Lib.Rows
-- ==== Proof.LibColumn.lean ====
/-
  A column of per-row statistics, in the two layout forms a `keepdims` reduction leaves it in.

  A reduction along the last axis of an `[a, b]` array gives an `[a]` vector; kept as a column it is re-laid as `[a, 1]`, and to
  combine it with the array again it is broadcast back to `[a, b]`. Read at an index: the column at `(i, u)` is the vector at
  `i` whatever the unit coordinate, and the broadcast column at `(p, c)` is the column at `(p, 0)`. Generic in the extents;
  stated at indices built from literal coordinates (`ix1`, `ix2`), the form in which they rewrite.
-/
import Idealize.ShloMosaic.Lib.Pipeline.Value
import Idealize.ShloMosaic.Lib.ValueIdx

namespace Cert.Lib.Column

open Idealize.ShloMosaic Idealize.ShloMosaic.ValueIdx

variable {α : Type}

/-- An `[a]` vector re-laid as an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.KerPayload.lean ====
/-
  What the kernel body leaves in its output block, read at an index, over the extended reals.

  The body reads a block of 4000 edge rows (64 entries each), the dense layer's weights and bias, the second layer's
  weights and its bias, and writes ONE block of 4000 rows and 65 columns. For the edge row `ρ` in row `r`:

  * the row's squares are summed along the lanes, the square root of that sum plus a small constant divides one, and the
    smaller of that quotient and one multiplies the row (`scale`, `hid`);
  * the rescaled row goes through the matrix product with the weights (a product into a zero accumulator is the sum over
    the contracted index; a change of float format is the identity here) and the bias row is added: feature `j` is `crow … j`;
  * the features times the second layer's weights are summed along the lanes and the second bias added: the score `srow …`;
  * the score is rectified (itself where positive, a small multiple of itself elsewhere), subtracted from zero, capped at
    80 and exponentiated: the weight `wCap (srow …)`;
  * column 0 of the output row is the weight, and column `j + 1` is the weight times feature `j` (a one-column array and
    a 64-column array joined along the columns).

  Each step is read at an index: a pointwise operation reads its operands at the same index, a splat reads its scalar, a
  lane sum at row `r` is the sum over the row, a column re-laid from a vector or broadcast along the columns reads the
  vector at the row, a row broadcast down the rows reads the row at the column, and a join along the columns reads the
  first piece left of its width and the second piece from there on.
-/
import proofs.«157317_j77704548319854_2_alg».proof.Proof.Gen.KernelIdeal.Frame
import proofs.«157317_j77704548319854_2_alg».proof.Proof.Spec
import proofs.«157317_j77704548319854_2_alg».proof.Proof.LibDot2
import proofs.«157317_j77704548319854_2_alg».proof.Proof.LibRows
import proofs.«157317_j77704548319854_2_alg».proof.Proof.LibColumn

noncomputable section

open scoped BigOperators

namespace Cert.KerPayload

open Idealize.ShloMosaic Idealize.ShloMosaic.ValueIdx Cert.KernelIdeal Cert.KernelIdeal.Gen Cert.Attn

theorem hz : (![0, 0] : Fin 2 → Nat) = fun _ => 0 := funext fun a => by fin_cases a <;> rfl

/-- The lane sum of a [4000, 64] array, read at row r: the sum of the row's entries. -/
theorem lane_sum (v : FVec Ideal S4000x64 .f32) (h : S4000x64.Reduces [1] S4000) (hφ : FKind.Formats .f32)
    (hacc : (0x00000000#32 : BitVec 32) = FKind.add.neutral .f32 hφ) (r : Fin 4000) :
    multiReduction .add [1] S4000 v 0x00000000#32 h hφ hacc (ix1 r) = ∑ k : Fin 64, v (ix2 r k) := by
  refine (Ideal.multiReduction_add_single v 0x00000000#32 h hφ hacc (ix1 r)).trans ?_
  refine Finset.sum_congr rfl fun k _ => congrArg v ?_
  funext a; apply Fin.ext
  match a with
  | ⟨0, _⟩ => rfl
  | ⟨1, _⟩ => rfl

/-- The column of rescaling factors at row r: the factor of the row. -/
theorem scale_at (x0 : FVec Ideal S4000x64 .f32) (h1 : S4000x64.ShapeCasts S4000x64) (h2 : S4000x64.Reduces [1] S4000)
    (hφ : FKind.Formats .f32) (hacc : (0x00000000#32 : BitVec 32) = FKind.add.neutral .f32 hφ)
    (h3 : S4000.ShapeCasts S4000x1) (r : Fin 4000) (u : Fin 1) :
    minimumf (broadcast S4000x1 (FloatOps.ofBits (F := Ideal) .f32 0x3F800000#32))
        (divf (broadcast S4000x1 (FloatOps.ofBits (F := Ideal) .f32 0x3F800000#32))
          (addf (sqrt (shapeCast S4000x1
              (multiReduction .add [1] S4000 (mulf (shapeCast S4000x64 x0 h1) (shapeCast S4000x64 x0 h1)) 0x00000000#32 h2 hφ hacc) h3))
            (broadcast S4000x1 (FloatOps.ofBits (F := Ideal) .f32 0x33D6BF95#32)))) (ix2 r u)
      = scale (fun k => x0 (ix2 r k)) := by
  refine (minimumf_apply _ _ _).trans ?_
  refine congrArg₂ min rfl ?_
  refine (divf_apply _ _ _).trans ?_
  refine congrArg₂ Ideal.div rfl ?_
  refine (addf_apply _ _ _).trans ?_
  refine congrArg₂ (· + ·) ?_ rfl
  refine congrArg Ideal.sqrt ?_
  refine (Cert.Lib.Column.shapeCast_a_a1_apply _ h3 r u).trans ?_
  refine (lane_sum _ h2 hφ hacc r).trans ?_
  refine Finset.sum_congr rfl fun k _ => ?_
  refine (mulf_apply _ _ _).trans ?_
  rw [shapeCast_self]

/-- The dense layer's block at (r, j): feature j of the dense layer on the rescaled row r. -/
theorem pay2_at (x0 : Vec Ideal S4000x64 .f32) (x1 : Vec Ideal S64x64 .f32) (x2 : Vec Ideal S1x64 .f32) (r : Fin 4000) (j : Fin 64) :
    Gen.k0_pay2 (F := Ideal) x0 x1 x2 (ix2 r j)
      = crow (fun k q => x1 (ix2 k q)) (fun q => x2 (ix2 (0 : Fin 1) q)) (fun k => x0 (ix2 r k)) j := by
  unfold Gen.k0_pay2
  dsimp only
  refine (addf_apply _ _ _).trans ?_
  refine congrArg₂ (· + ·) ?_ ?_
  · refine (Cert.Lib.DotSum.matmul_zero_at dot_S4000x64_S64x64_S4000x64_1_0_0_1_n_n rfl rfl rfl rfl rfl rfl none _ _ r j).trans ?_
    refine Finset.sum_congr rfl fun k _ => congrArg₂ (· * ·) ?_ ?_
    · refine (truncf_apply (ψ := .bf16) (φ := .f32) _ bitsLt_bf16_f32 _).trans ?_
      refine (mulf_apply _ _ _).trans ?_
      refine congrArg₂ (· * ·) (congrFun (shapeCast_self x0 _) _) ?_
      refine (Cert.Lib.Column.broadcastTo_a1_ab_apply _ _ r k).trans ?_
      exact scale_at x0 _ _ _ _ _ r 0
    · refine (truncf_apply (ψ := .bf16) (φ := .f32) _ bitsLt_bf16_f32 _).trans ?_
      exact congrFun (shapeCast_self x1 _) _
  · refine (Cert.Lib.Rows.broadcastTo_row_apply _ _ r j).trans ?_
    rw [shapeCast_self, shapeCast_self]

/-- The body's one store covers the whole output block and its loads read whole blocks, so the block it leaves is the
    stored payload of the input blocks. -/
theorem out_eq (x0 : Vec Ideal S4000x64 .f32) (x1 : Vec Ideal S64x64 .f32) (x2 x3 : Vec Ideal S1x64 .f32) (x4 : Vec Ideal S1x1 .f32) :
    Gen.out0_5 (F := Ideal) x0 x1 x2 x3 x4
      = Gen.k0_pay1 (Gen.k0_pay2 x0 x1 x2) (Gen.k0_pay3 x0 x1 x2 x3 x4) (Gen.k0_pay4 (F := Ideal)) := by
  unfold Gen.out0_5
  rw [View.canon_unit_zero hz]
  simp only [View.ld_unit_zero (S := S4000x64) hz, View.ld_unit_zero (S := S64x64) hz, View.ld_unit_zero (S := S1x64) hz, View.ld_unit_zero (S := S1x1) hz]

/-- The leaky rectification, as the kernel selects it, at an index where the score is s. -/
theorem lrelu_at (v : FVec Ideal S4000x1 .f32) (i : S4000x1.Idx) (s : EReal) (hs : v i = s) :
    select (cmpf .ogt v (broadcast S4000x1 (FloatOps.ofBits (F := Ideal) .f32 0x00000000#32))) v
        (mulf (broadcast S4000x1 (FloatOps.ofBits (F := Ideal) .f32 0x3C23D70A#32)) v) i = lreluGt s := by
  subst hs; rfl

/-- The entry (0, 0) of a [1, 1] array, as the kernel extracts it. -/
theorem extract_at (x4 : Vec Ideal S1x1 .f32) (h : ∀ a, (![0, 0] : Fin 2 → Nat) a < S1x1.size a) :
    extractAt ![0, 0] x4 h = x4 (ix2 (0 : Fin 1) (0 : Fin 1)) := by
  unfold extractAt
  refine congrArg x4 ?_
  funext a; apply Fin.ext
  match a with
  | ⟨0, _⟩ => rfl
  | ⟨1, _⟩ => rfl

/-- The column of rectified scores at row r: the leaky rectification of the row's score. -/
theorem pay3_at (x0 : Vec Ideal S4000x64 .f32) (x1 : Vec Ideal S64x64 .f32) (x2 x3 : Vec Ideal S1x64 .f32) (x4 : Vec Ideal S1x1 .f32)
    (r : Fin 4000) (u : Fin 1) :
    Gen.k0_pay3 (F := Ideal) x0 x1 x2 x3 x4 (ix2 r u)
      = lreluGt (srow (fun k q => x1 (ix2 k q)) (fun q => x2 (ix2 (0 : Fin 1) q)) (fun q => x3 (ix2 (0 : Fin 1) q))
          (x4 (ix2 (0 : Fin 1) (0 : Fin 1))) (fun k => x0 (ix2 r k))) := by
  unfold Gen.k0_pay3
  dsimp only
  refine lrelu_at _ _ _ ?_
  refine (addf_apply _ _ _).trans ?_
  refine congrArg₂ (· + ·) ?_ ?_
  · refine (Cert.Lib.Column.shapeCast_a_a1_apply _ _ r u).trans ?_
    refine (lane_sum _ _ _ _ r).trans ?_
    refine Finset.sum_congr rfl fun q _ => ?_
    refine (mulf_apply _ _ _).trans ?_
    refine congrArg₂ (· * ·) (pay2_at x0 x1 x2 r q) ?_
    refine (Cert.Lib.Rows.broadcastTo_row_apply _ _ r q).trans ?_
    rw [shapeCast_self]
  · exact extract_at x4 _

/-- The capped weight at an index where the rectified score and the zero column are known. -/
theorem weight_at (v38 v39 : FVec Ideal S4000x1 .f32) (i : S4000x1.Idx) (s : EReal) (h38 : v38 i = lreluGt s) (h39 : v39 i = c0) :
    exp (minimumf (subf v39 v38) (broadcast S4000x1 (FloatOps.ofBits (F := Ideal) .f32 0x42A00000#32))) i = wCap s := by
  show Ideal.exp (min (v39 i - v38 i) c80) = wCap s
  rw [h38, h39]; rfl

/-- Column 0 of the kernel's output block at row r: the capped weight of the row's score. -/
theorem out_col0 (x0 : Vec Ideal S4000x64 .f32) (x1 : Vec Ideal S64x64 .f32) (x2 x3 : Vec Ideal S1x64 .f32) (x4 : Vec Ideal S1x1 .f32) (r : Fin 4000) :
    Gen.out0_5 (F := Ideal) x0 x1 x2 x3 x4 (ix2 r (0 : Fin 65))
      = wCap (srow (fun k q => x1 (ix2 k q)) (fun q => x2 (ix2 (0 : Fin 1) q)) (fun q => x3 (ix2 (0 : Fin 1) q))
          (x4 (ix2 (0 : Fin 1) (0 : Fin 1))) (fun k => x0 (ix2 r k))) := by
  rw [out_eq]
  unfold Gen.k0_pay1
  refine (concatenate_pair_apply_left (t := S4000x65) (s₁ := S4000x1) (s₂ := S4000x64) 1 _ _ _ (ix2 r (0 : Fin 65)) rfl (ix2 r (0 : Fin 1)) (fun b => by
    match b with
    | ⟨0, _⟩ => rfl
    | ⟨1, _⟩ => rfl)).trans ?_
  exact weight_at _ _ _ _ (pay3_at x0 x1 x2 x3 x4 r 0) rfl

/-- Column j + 1 of the kernel's output block at row r: the capped weight times feature j of the dense layer. -/
theorem out_colj (x0 : Vec Ideal S4000x64 .f32) (x1 : Vec Ideal S64x64 .f32) (x2 x3 : Vec Ideal S1x64 .f32) (x4 : Vec Ideal S1x1 .f32) (r : Fin 4000) (j : Fin 64) :
    Gen.out0_5 (F := Ideal) x0 x1 x2 x3 x4 (ix2 r (⟨j.val + 1, by omega⟩ : Fin 65))
      = wCap (srow (fun k q => x1 (ix2 k q)) (fun q => x2 (ix2 (0 : Fin 1) q)) (fun q => x3 (ix2 (0 : Fin 1) q))
          (x4 (ix2 (0 : Fin 1) (0 : Fin 1))) (fun k => x0 (ix2 r k)))
        * crow (fun k q => x1 (ix2 k q)) (fun q => x2 (ix2 (0 : Fin 1) q)) (fun k => x0 (ix2 r k)) j := by
  rw [out_eq]
  unfold Gen.k0_pay1
  refine (concatenate_pair_apply_right (t := S4000x65) (s₁ := S4000x1) (s₂ := S4000x64) 1 _ _ _ (ix2 r (⟨j.val + 1, by omega⟩ : Fin 65)) rfl rfl (ix2 r j) (fun b hb => by
    match b with
    | ⟨0, _⟩ => rfl
    | ⟨1, _⟩ => exact absurd rfl hb) rfl).trans ?_
  refine (mulf_apply _ _ _).trans ?_
  refine congrArg₂ (· * ·) ?_ (pay2_at x0 x1 x2 r j)
  refine (Cert.Lib.Column.broadcastTo_a1_ab_apply _ _ r j).trans ?_
  exact weight_at _ _ _ _ (pay3_at x0 x1 x2 x3 x4 r 0) rfl

end Cert.KerPayload

end
-- ==== Proof.KerArray.lean ====
/-
  The region's result array. Each grid point stages one block of 4000 gathered edge rows and the whole weight and bias
  arrays, and writes back one block of 4000 rows of 65: row `r` of point `t` is edge `t · 4000 + r`. Read through the
  blocks, the array after the run is ONE function of the arrays the region reads (`comb`): edge `e`'s row holds the
  capped weight of the edge and that weight times each of its 64 dense-layer features. The blocks tile the array, the point
  covering edge `e` being `e / 4000`.
-/
import proofs.«157317_j77704548319854_2_alg».proof.Proof.Gen.KernelIdeal.Frame
import proofs.«157317_j77704548319854_2_alg».proof.Proof.KerStages
import proofs.«157317_j77704548319854_2_alg».proof.Proof.Spec
import proofs.«157317_j77704548319854_2_alg».proof.Proof.KerPayload
import Idealize.ShloMosaic.Lib.Pipeline.Value
import Idealize.ShloMosaic.Lib.StableHlo.Run

noncomputable section

namespace Cert.KerArray

open Idealize.ShloMosaic Idealize.ShloMosaic.TcCoe Idealize.SL.Sem Idealize.ShloMosaic.ValueIdx
open Cert.KernelIdeal Cert.KernelIdeal.Gen Cert.Attn

variable (m : (ℓ : Loc nD τ sig) → Buf (Elt Ideal) ℓ) (ρ : Dev nD → PrngReg)

/-- The region's first operand, as the region finds it, is the gathered rows. -/
theorem V_rows (c : Dev nD) : (V m c main_v8 : S1600000x64.Idx → EReal)
    = Cert.KerStage.rows (m ((c : Thread nD τ).loc main_arg0)) (m ((c : Thread nD τ).loc main_arg1)) := by
  show StableHlo.after hostOps0 (fun b => m (c, b)) (Proc.devRef .tc main_v8) = _
  after_results
  rfl

/-- Its second operand is the transposed weight matrix. -/
theorem V_wT (c : Dev nD) : (V m c main_v9 : S64x64.Idx → EReal)
    = Cert.KerStage.wT (m ((c : Thread nD τ).loc main_arg2)) := by
  show StableHlo.after hostOps0 (fun b => m (c, b)) (Proc.devRef .tc main_v9) = _
  after_results
  rfl

/-- Its third operand is the first bias as a one-row array. -/
theorem V_bRow (c : Dev nD) : (V m c main_v10 : S1x64.Idx → EReal)
    = Cert.KerStage.bRow (m ((c : Thread nD τ).loc main_arg3)) := by
  show StableHlo.after hostOps0 (fun b => m (c, b)) (Proc.devRef .tc main_v10) = _
  after_results
  rfl

/-- Its fifth operand is the second bias as a one-by-one array. -/
theorem V_b2 (c : Dev nD) : (V m c main_v11 : S1x1.Idx → EReal)
    = Cert.KerStage.b2 (m ((c : Thread nD τ).loc main_arg5)) := by
  show StableHlo.after hostOps0 (fun b => m (c, b)) (Proc.devRef .tc main_v11) = _
  after_results
  rfl

/-- The printed index maps, decided over the grid: the edge rows and the result move one block of 4000 rows per point;
    the weights and biases stay at block zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The one row of 65 the region leaves for edge `e`, from the arrays the region reads: the capped weight, then the
    weight times each of the 64 features. -/
def comb (X : S1600000x64.Idx → EReal) (Wm : S64x64.Idx → EReal) (b w2 : S1x64.Idx → EReal) (bb : S1x1.Idx → EReal) :
    S1600000x65.Idx → EReal := fun i =>
  if h : (i 1).val = 0 then
    wCap (srow (fun k q => Wm (ix2 k q)) (fun q => b (ix2 (0 : Fin 1) q)) (fun q => w2 (ix2 (0 : Fin 1) q))
      (bb (ix2 (0 : Fin 1) (0 : Fin 1))) (fun k => X (ix2 (⟨(i 0).val, idx2_lt0 i⟩ : Fin 1600000) k)))
  else
    wCap (srow (fun k q => Wm (ix2 k q)) (fun q => b (ix2 (0 : Fin 1) q)) (fun q => w2 (ix2 (0 : Fin 1) q))
      (bb (ix2 (0 : Fin 1) (0 : Fin 1))) (fun k => X (ix2 (⟨(i 0).val, idx2_lt0 i⟩ : Fin 1600000) k)))
    * crow (fun k q => Wm (ix2 k q)) (fun q => b (ix2 (0 : Fin 1) q))
        (fun k => X (ix2 (⟨(i 0).val, idx2_lt0 i⟩ : Fin 1600000) k)) (⟨(i 1).val - 1, by have := idx2_lt1 i; omega⟩ : Fin 64)

/-- A block of 4000 edge rows gives the block of rows of `comb`: stated over a block `x0` whose row `r` is row
    `T · 4000 + r` of the array. -/
theorem comb_block (X : S1600000x64.Idx → EReal) (Wm : S64x64.Idx → EReal) (b w2 : S1x64.Idx → EReal) (bb : S1x1.Idx → EReal)
    (x0 : Vec Ideal S4000x64 .f32) (T : Nat)
    (hx0 : ∀ (r : Fin 4000) (k : Fin 64) (e : Fin 1600000), e.val = T * 4000 + r.val → x0 (ix2 r k) = X (ix2 e k))
    (y : S4000x65.Idx) (i : S1600000x65.Idx) (hi0 : (i 0).val = T * 4000 + (y 0).val) (hi1 : (i 1).val = (y 1).val) :
    Gen.out0_5 (F := Ideal) x0 Wm b w2 bb y = comb X Wm b w2 bb i := by
  obtain ⟨r, q, rfl⟩ : ∃ (r : Fin 4000) (q : Fin 65), y = ix2 r q := ⟨y 0, y 1, eq_ix2 y⟩
  have hrow : (fun k => x0 (ix2 r k)) = fun k => X (ix2 (⟨(i 0).val, idx2_lt0 i⟩ : Fin 1600000) k) :=
    funext fun k => hx0 r k _ hi0
  unfold comb
  by_cases hq : q.val = 0
  · have hq' : q = (0 : Fin 65) := Fin.ext hq
    subst hq'
    rw [dif_pos (by rw [hi1]; rfl), ← hrow]
    exact Cert.KerPayload.out_col0 x0 Wm b w2 bb r
  · have hi1' : ¬ (i 1).val = 0 := by rw [hi1]; exact hq
    rw [dif_neg hi1', ← hrow]
    have hj : (q.val - 1) < 64 := by have := q.isLt; omega
    have hq' : q = (⟨(⟨q.val - 1, hj⟩ : Fin 64).val + 1, by omega⟩ : Fin 65) := Fin.ext (by show q.val = q.val - 1 + 1; omega)
    have hj' : (⟨(i 1).val - 1, by have := idx2_lt1 i; omega⟩ : Fin 64) = ⟨q.val - 1, hj⟩ := Fin.ext (by show (i 1).val - 1 = q.val - 1; rw [hi1])
    rw [hj']
    exact (congrArg (Gen.out0_5 (F := Ideal) x0 Wm b w2 bb) (congrArg (ix2 r) hq')).trans
      (Cert.KerPayload.out_colj x0 Wm b w2 bb r ⟨q.val - 1, hj⟩)

/-- The weights and biases are staged whole: their block at any point is the array. -/
theorem iblk1_eq (c : Dev nD) (t : Fin cfg0.N) : (iblk m c 1 t : S64x64.Idx → EReal) = V m c main_v9 := by
  funext y
  show V m c main_v9 (((cfg0.win 1).blk t).view.emb y) = V m c main_v9 y
  refine congrArg _ (funext fun a => Fin.ext ?_)
  obtain ⟨-, -, e2, e3, -⟩ := idx_facts t
  match a with
  | ⟨0, _⟩ => show win0_1.index t (0 : Fin 2) * 64 + 1 * (y 0).val = (y 0).val; omega
  | ⟨1, _⟩ => show win0_1.index t (1 : Fin 2) * 64 + 1 * (y 1).val = (y 1).val; omega

theorem iblk2_eq (c : Dev nD) (t : Fin cfg0.N) : (iblk m c 2 t : S1x64.Idx → EReal) = V m c main_v10 := by
  funext y
  show V m c main_v10 (((cfg0.win 2).blk t).view.emb y) = V m c main_v10 y
  refine congrArg _ (funext fun a => Fin.ext ?_)
  obtain ⟨-, -, -, -, e4, e5, -⟩ := idx_facts t
  match a with
  | ⟨0, _⟩ => show win0_2.index t (0 : Fin 2) * 1 + 1 * (y 0).val = (y 0).val; omega
  | ⟨1, _⟩ => show win0_2.index t (1 : Fin 2) * 64 + 1 * (y 1).val = (y 1).val; omega

theorem iblk3_eq (c : Dev nD) (t : Fin cfg0.N) : (iblk m c 3 t : S1x64.Idx → EReal) = V m c main_arg4 := by
  funext y
  show V m c main_arg4 (((cfg0.win 3).blk t).view.emb y) = V m c main_arg4 y
  refine congrArg _ (funext fun a => Fin.ext ?_)
  obtain ⟨-, -, -, -, -, -, e6, e7, -⟩ := idx_facts t
  match a with
  | ⟨0, _⟩ => show win0_3.index t (0 : Fin 2) * 1 + 1 * (y 0).val = (y 0).val; omega
  | ⟨1, _⟩ => show win0_3.index t (1 : Fin 2) * 64 + 1 * (y 1).val = (y 1).val; omega

theorem iblk4_eq (c : Dev nD) (t : Fin cfg0.N) : (iblk m c 4 t : S1x1.Idx → EReal) = V m c main_v11 := by
  funext y
  show V m c main_v11 (((cfg0.win 4).blk t).view.emb y) = V m c main_v11 y
  refine congrArg _ (funext fun a => Fin.ext ?_)
  obtain ⟨-, -, -, -, -, -, -, -, e8, e9, -⟩ := idx_facts t
  match a with
  | ⟨0, _⟩ => show win0_4.index t (0 : Fin 2) * 1 + 1 * (y 0).val = (y 0).val; omega
  | ⟨1, _⟩ => show win0_4.index t (1 : Fin 2) * 1 + 1 * (y 1).val = (y 1).val; omega

/-- The region's result as one function of the arrays the region reads. -/
abbrev combV (c : Dev nD) : S1600000x65.Idx → EReal :=
  comb (V m c main_v8) (V m c main_v9) (V m c main_v10) (V m c main_arg4) (V m c main_v11)

/-- WHAT POINT `t` WRITES BACK is block `t` of `combV`. -/
theorem flushed5_eq (c : Dev nD) (t : Fin cfg0.N) :
    (dats m 0 c).flushed 5 t = ((cfg0.win 5).blk t).view.read (Elt Ideal) (combV m c) := by
  show (cfg0.win 5).cut (grid0.coords t) ((dats m 0 c).after 5 t) = _
  rw [after0_5]
  funext y
  obtain ⟨e0, e1, -, -, -, -, -, -, -, -, e10, e11⟩ := idx_facts t
  show Gen.out0_5 (F := Ideal) (iblk m c 0 t) (iblk m c 1 t) (iblk m c 2 t) (iblk m c 3 t) (iblk m c 4 t) y
    = combV m c (((cfg0.win 5).blk t).view.emb y)
  rw [iblk1_eq, iblk2_eq, iblk3_eq, iblk4_eq]
  refine comb_block (V m c main_v8) _ _ _ _ (iblk m c 0 t) t.val (fun r k e he => ?_) y _ ?_ ?_
  · show V m c main_v8 (((cfg0.win 0).blk t).view.emb (ix2 r k)) = V m c main_v8 (ix2 e k)
    refine congrArg _ (funext fun a => Fin.ext ?_)
    match a with
    | ⟨0, _⟩ => show win0_0.index t (0 : Fin 2) * 4000 + 1 * r.val = e.val; omega
    | ⟨1, _⟩ => show win0_0.index t (1 : Fin 2) * 64 + 1 * k.val = k.val; omega
  · show win0_5.index t (0 : Fin 2) * 4000 + 1 * (y 0).val = t.val * 4000 + (y 0).val; omega
  · show win0_5.index t (1 : Fin 2) * 65 + 1 * (y 1).val = (y 1).val; omega

/-- An index of the result array is in point `t`'s block iff each coordinate is in the block's range on its axis. -/
theorem mem_blk5 (t : Fin cfg0.N) (i : S1600000x65.Idx) :
    i ∈ ((cfg0.win 5).blk t).view.set ↔ ∀ a : Fin 2, win0_5.index t a * S4000x65.size a ≤ (i a).val ∧ (i a).val < win0_5.index t a * S4000x65.size a + S4000x65.size a := by
  show i ∈ ((View.whole main_v12).slice (win0_5.rect t)).set ↔ _
  rw [View.set_slice_whole, Rect.mem_set_unit]
  exact Iff.rfl

/-- Every row of the result array is in the block of the point that is its number divided by 4000. -/
theorem cover5 (i : S1600000x65.Idx) :
    ∃ t : Fin cfg0.N, (cfg0.win 5).flush t = true ∧ i ∈ ((cfg0.win 5).blk t).view.set := by
  have hN : cfg0.N = 400 := N_0
  have h0 : (i 0).val < 1600000 := idx2_lt0 i
  have h1 : (i 1).val < 65 := idx2_lt1 i
  have ht : (i 0).val / 4000 < cfg0.N := by rw [hN]; omega
  refine ⟨⟨(i 0).val / 4000, ht⟩, flush0_5 _, ?_⟩
  rw [mem_blk5]
  obtain ⟨-, -, -, -, -, -, -, -, -, -, e10, e11⟩ := idx_facts ⟨(i 0).val / 4000, ht⟩
  intro a
  match a with
  | ⟨0, _⟩ =>
    show win0_5.index ⟨(i 0).val / 4000, ht⟩ (0 : Fin 2) * 4000 ≤ (i 0).val ∧ (i 0).val < win0_5.index ⟨(i 0).val / 4000, ht⟩ (0 : Fin 2) * 4000 + 4000
    rw [e10]
    show (i 0).val / 4000 * 4000 ≤ (i 0).val ∧ (i 0).val < (i 0).val / 4000 * 4000 + 4000
    omega
  | ⟨1, _⟩ =>
    show win0_5.index ⟨(i 0).val / 4000, ht⟩ (1 : Fin 2) * 65 ≤ (i 1).val ∧ (i 1).val < win0_5.index ⟨(i 0).val / 4000, ht⟩ (1 : Fin 2) * 65 + 65
    rw [e11]
    omega

/-- THE RESULT ARRAY of the region after the run. -/
theorem final5 (c : Dev nD) : (dats m 0 c).arrAt 5 cfg0.N = combV m c :=
  (dats m 0 c).arrAt_eq_of_cover 5 (combV m c) (fun t _ => flushed5_eq m c t) cover5

end Cert.KerArray

end
-- ==== Proof.LibStages.lean ====
/-
  Reading a long line of host operations in stretches.

  What a line of operations leaves in a buffer is a fold over the line (`StableHlo.after`). Read in one piece, the
  fold's term repeats every shared intermediate result once per use and its evaluation compares every buffer with
  every operation. Cut into stretches the fold is read stretch by stretch: a stretch's results as functions of what
  an ARBITRARY valuation holds in the buffers the stretch reads, and the buffers a stretch does not write kept as
  they were. The whole line's results are then the stretches' functions composed.
  `after_append`, `after_take_drop`: the fold over a line cut in two. `reads_stretch`: a stretch's result read off
  (the literal list computed, each operation's result rewritten once, the rest by unfolding). `keeps_stretch`: a buffer no
  operation of a stretch writes is kept (the references' inequalities decided one by one).
-/
import Idealize.ShloMosaic.Lib.StableHlo.Run

noncomputable section

namespace Cert.LibStages

open Idealize.ShloMosaic Idealize.ShloMosaic.StableHlo

variable {τ : Topo} {sig : RefSig} {Val : EltTy → Type}

/-- Two stretches run one after the other: the second from what the first leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A line cut after its first `k` operations. -/
theorem after_take_drop (k : Nat) (l : List (HloOp τ sig Val)) (V : Valuation τ sig Val) :
    after l V = after (l.drop k) (after (l.take k) V) := by
  rw [← after_append, List.take_append_drop]

/-- `reads_stretch [defs]`: closes `after ‹literal stretch› W ↑b = ‹the stretch's function of W's contents›`. -/
syntax "reads_stretch" "[" Lean.Parser.Tactic.simpLemma,* "]" : tactic
macro_rules
  | `(tactic| reads_stretch [$defs,*]) => `(tactic| (
      simp only [$defs,*, List.take_succ_cons, List.take_zero, List.drop_succ_cons, List.drop_zero,
        List.flatten_cons, List.flatten_nil, List.append_nil, List.cons_append, List.nil_append]
      after_results_simp
      rfl))

/-- `keeps_stretch [defs]`: closes `after ‹literal stretch› W ↑r = W ↑r` when no operation of the stretch writes `r`. -/
syntax "keeps_stretch" "[" Lean.Parser.Tactic.simpLemma,* "]" : tactic
macro_rules
  | `(tactic| keeps_stretch [$defs,*]) => `(tactic| (
      refine StableHlo.after_of_forall_not_mem _ _ (List.forall_iff_forall_mem.mp ?_)
      simp only [$defs,*, List.take_succ_cons, List.take_zero, List.drop_succ_cons, List.drop_zero,
        List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, StableHlo.nary_writes,
        Finset.mem_singleton]
      repeat' apply And.intro
      all_goals exact StableHlo.devRef_ne_of_ne (by decide)))

end Cert.LibStages

end
-- ==== Proof.KerTail.lean ====
/-
  The program's result from the region's result. After the region the program sums the rows of 65 over the edges of each
  node (a scatter-add at the source ids), splits the sums into the summed weight (column 0) and the weighted feature sums
  (columns 1 to 64), replaces a zero summed weight by a tiny constant, divides, and caps below at zero. The operations are
  read stretch by stretch over arbitrary buffer contents and composed; the region's result array and the source ids are
  then what the run left in their buffers.
-/
import proofs.«157317_j77704548319854_2_alg».proof.Proof.Gen.KernelIdeal.Frame
import proofs.«157317_j77704548319854_2_alg».proof.Proof.KerStages
import proofs.«157317_j77704548319854_2_alg».proof.Proof.Spec
import proofs.«157317_j77704548319854_2_alg».proof.Proof.KerArray
import proofs.«157317_j77704548319854_2_alg».proof.Proof.LibStages
import Idealize.ShloMosaic.Lib.Pipeline.Value
import Idealize.ShloMosaic.Lib.StableHlo.Run

noncomputable section

namespace Cert.KerArray

open Idealize.ShloMosaic Idealize.ShloMosaic.TcCoe Idealize.SL.Sem Idealize.ShloMosaic.ValueIdx Idealize.ShloMosaic.StableHlo
open Cert.KernelIdeal Cert.KernelIdeal.Gen Cert.Attn

variable (m : (ℓ : Loc nD τ sig) → Buf (Elt Ideal) ℓ) (ρ : Dev nD → PrngReg)

/-- The source ids, as the region finds them. -/
theorem V_src (c : Dev nD) : (V m c main_v1 : S1600000.Idx → BitVec 32)
    = Cert.KerStage.src (m ((c : Thread nD τ).loc main_arg0)) := by
  show StableHlo.after hostOps0 (fun b => m (c, b)) (Proc.devRef .tc main_v1) = _
  after_results
  rfl

/-- The segment sum of the region's result, from the source ids as a vector. -/
def aggS (s : IVec S1600000 32) (comb : FVec Ideal S1600000x65 .f32) : FVec Ideal S100000x65 .f32 :=
  Host.scatterAdd scatter_S100000x65_S1600000x1_S1600000x65_1_0_0_1
    (Cert.KerStage.splat S100000x65 Facts₀.bcast_S_S100000x65 0x00000000#32)
    (broadcastInDim S1600000x1 ![0] Facts₀.bcast_S1600000_S1600000x1_0 s) comb

theorem aggS_src (a0 : IVec S1600000x3 32) (comb : FVec Ideal S1600000x65 .f32) :
    aggS (Cert.KerStage.src a0) comb = Cert.KerStage.agg a0 comb := rfl

section Stretches

variable (W : Valuation τ sig (Elt Ideal))

/-- First stretch after the region: the segment sum, its two slices, the test "the summed weight is zero", the tiny constant. -/
theorem s1_v16 : (StableHlo.after hostOps1 W (Proc.devRef .tc main_v16) : S100000x1.Idx → EReal)
    = Cert.KerStage.den (aggS (W (Proc.devRef .tc main_v1)) (W (Proc.devRef .tc main_v12))) := by
  after_results_simp
  rfl
theorem s1_v17 : (StableHlo.after hostOps1 W (Proc.devRef .tc main_v17) : S100000x64.Idx → EReal)
    = Cert.KerStage.num (aggS (W (Proc.devRef .tc main_v1)) (W (Proc.devRef .tc main_v12))) := by
  after_results_simp
  rfl
theorem s1_v19 : (StableHlo.after hostOps1 W (Proc.devRef .tc main_v19) : S100000x1.Idx → BitVec 1)
    = cmpf .oeq (Cert.KerStage.den (aggS (W (Proc.devRef .tc main_v1)) (W (Proc.devRef .tc main_v12))))
        (Cert.KerStage.splat S100000x1 Facts₀.bcast_S_S100000x1 0x00000000#32) := by
  after_results_simp
  rfl
theorem s1_cst2 : (StableHlo.after hostOps1 W (Proc.devRef .tc main_cst_2) : S_.Idx → EReal)
    = constant (F := Ideal) S_ .f32 0x2B8CBCCC#32 := by
  after_results_simp

/-- Second stretch: the selection of the tiny constant where the summed weight is zero. -/
theorem s2_v20 : (StableHlo.after hostOps1_1 W (Proc.devRef .tc main_v20) : S100000x1.Idx → EReal)
    = (select (W (Proc.devRef .tc main_v19) : S100000x1.Idx → BitVec 1)
        (broadcastInDim S100000x1 ![] Facts₀.bcast_S_S100000x1 (id (W (Proc.devRef .tc main_cst_2) : S_.Idx → EReal)))
        (W (Proc.devRef .tc main_v16) : S100000x1.Idx → EReal) : S100000x1.Idx → EReal) := by
  after_results_simp
  rfl
theorem s2_v17 : StableHlo.after hostOps1_1 W (Proc.devRef .tc main_v17) = W (Proc.devRef .tc main_v17) := by
  after_results_simp

/-- Third stretch: the quotient. -/
theorem s3_v22 : (StableHlo.after hostOps1_2 W (Proc.devRef .tc main_v22) : S100000x64.Idx → EReal)
    = (Host.divf (F := Ideal) (φ := .f32) (W (Proc.devRef .tc main_v17) : S100000x64.Idx → EReal)
        (broadcastInDim S100000x64 ![0, 1] Facts₀.bcast_S100000x1_S100000x64_0_1 (W (Proc.devRef .tc main_v20) : S100000x1.Idx → EReal)) : S100000x64.Idx → EReal) := by
  after_results_simp

/-- Fourth stretch: the cap below at zero. -/
theorem s4_v23 : (StableHlo.after hostOps1_3 W (Proc.devRef .tc main_v23) : S100000x64.Idx → EReal)
    = (maximumf (F := Ideal) (φ := .f32) (W (Proc.devRef .tc main_v22) : S100000x64.Idx → EReal)
        (Cert.KerStage.splat S100000x64 Facts₀.bcast_S_S100000x64 0x00000000#32) : S100000x64.Idx → EReal) := by
  after_results_simp
  rfl

end Stretches

/-- The operations after the region, folded over ANY contents of the buffers: the result buffer ends at the stages'
    function of the source-id buffer and the region's result buffer. -/
theorem tail_fold (W : Valuation τ sig (Elt Ideal)) :
    (StableHlo.after (List.flatten [hostOps1, hostOps1_1, hostOps1_2, hostOps1_3]) W (Proc.devRef .tc main_v23) : S100000x64.Idx → EReal)
      = Cert.KerStage.fin (Cert.KerStage.den (aggS (W (Proc.devRef .tc main_v1)) (W (Proc.devRef .tc main_v12))))
          (Cert.KerStage.num (aggS (W (Proc.devRef .tc main_v1)) (W (Proc.devRef .tc main_v12)))) := by
  have hfl : List.flatten [(hostOps1 : List (HloOp τ sig (Elt Ideal))), hostOps1_1, hostOps1_2, hostOps1_3]
      = hostOps1 ++ (hostOps1_1 ++ (hostOps1_2 ++ hostOps1_3)) := by
    rw [List.flatten_cons, List.flatten_cons, List.flatten_cons, List.flatten_cons, List.flatten_nil, List.append_nil]
  rw [hfl, Cert.LibStages.after_append, Cert.LibStages.after_append, Cert.LibStages.after_append]
  rw [s4_v23, s3_v22, s2_v17, s2_v20, s1_v17, s1_v19, s1_cst2, s1_v16]
  rfl

/-- THE PROGRAM'S RESULT after the operations that follow the region: the stages after the region applied to the source
    ids and the region's result array. -/
theorem tail_eq (c : Dev nD) :
    Pipeline.afterTail₀ cfgs (dats m) 0 (V0 m) [hostOps1, hostOps1_1, hostOps1_2, hostOps1_3] c main_v23
      = Cert.KerStage.tail (m ((c : Thread nD τ).loc main_arg0)) ((dats m 0 c).arrAt 5 cfg0.N) := by
  unfold Pipeline.afterTail₀
  refine (tail_fold _).trans ?_
  rw [Pipeline.withArrays_arr spec0 launch0.win.arr_inj c _ _ 5,
    Pipeline.withArrays_of_ne _ c (V0 m c) _ main_v1 (by exact (by decide : ∀ w, Pipeline.arrRef spec0 w ≠ main_v1))]
  have hs := V_src m c
  show Cert.KerStage.fin (Cert.KerStage.den (aggS (V m c main_v1) _)) (Cert.KerStage.num (aggS (V m c main_v1) _)) = _
  rw [hs]
  rfl

/-- The region's result as a function of the program's arguments. -/
abbrev combArgs (a0 : IVec S1600000x3 32) (a1 : FVec Ideal S100000x64 .f32) (a2 : FVec Ideal S64x64 .f32) (a3 : FVec Ideal S64 .f32)
    (a4 : FVec Ideal S1x64 .f32) (a5 : FVec Ideal S1 .f32) : S1600000x65.Idx → EReal :=
  comb (Cert.KerStage.rows a0 a1) (Cert.KerStage.wT a2) (Cert.KerStage.bRow a3) a4 (Cert.KerStage.b2 a5)

theorem combV_eq (c : Dev nD) : combV m c
    = combArgs (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  unfold combV combArgs
  rw [V_rows, V_wT, V_bRow, V_b2, V_main_arg4]

/-- THE RUN, READ: every weakly fair execution of the program terminates with its result buffer at the stages after
    the region applied to the region's result, and its arguments unchanged. -/
theorem run : θ_run defs (onTc (τ := τ) (main (F := Ideal))) ⟨m, fun _ => 0, ρ⟩ fun r => ∀ c : Dev nD,
      r.2.mem ((c.tc : Thread nD τ).loc main_v23)
        = Cert.KerStage.tail (m ((c.tc : Thread nD τ).loc main_arg0))
            (combArgs (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v23 (Pipeline.mem_restRefs_of main_v23 (by decide) (by decide))).trans
        ((tail_eq m c).trans (by rw [final5, combV_eq])),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 3).trans (((dats m 0 c).arrAt_in 3 rfl _).trans ((A_eq m c 3).trans (V_main_arg4 m c))),
      (((h c).2 main_arg5 (Pipeline.mem_restRefs_of main_arg5 (by decide) (by decide))).trans (W_main_arg5 m (dats m) c))⟩)
    (run_main m ρ)

end Cert.KerArray

end
-- ==== Proof.LibScatterGather.lean ====
/-
  A gather of ROWS and a scatter of ROWS, read at an index.

  `stablehlo.gather` of a rank-2 operand [H, W] at start indices [N, 1] with the row axis collapsed and named by the
  start index and the column axis kept whole (offset_dims [1], collapsed_slice_dims [0], start_index_map [0],
  index_vector_dim 1, slice sizes [1, W]) gives [N, W]: result element (e, q) is the operand at (row, q), the row being
  start index e read as a signed integer and clamped into the axis.

  `stablehlo.scatter` of updates [N, W] into an operand [H, W] at scatter indices [N, 1] (update_window_dims [1],
  inserted_window_dims [0], scatter_dims_to_operand_dims [0], index_vector_dim 1): update element (e, q) lands at
  (row, q), the row being scatter index e read as a signed integer and NOT clamped; an update whose row is outside the
  operand is dropped. With an addition as the body, at the extended reals, element (r, c) of the result is the
  operand's plus the sum over the e whose scatter index is r of update (e, c).

  Generic in the extents; the records' conditions `wf` are decided on literal shapes.
-/
import Idealize.ShloMosaic.PureOps
import Idealize.ShloMosaic.Lib.ValueIdx

noncomputable section

open scoped BigOperators

namespace Cert.LibScatterGather

open Idealize.ShloMosaic Idealize.ShloMosaic.ValueIdx

variable {α : Type}

/-! ## The row gather -/

/-- The dimension numbers of a row gather from `[H, W]` at start indices `[N, 1]` into `[N, W]`. -/
abbrev rowGatherDims (H W N : Nat)
    (wf : GatherDims.WF ⟨2, ![H, W]⟩ ⟨2, ![N, 1]⟩ ⟨2, ![N, W]⟩ [1] [0] [] [0] [] 1 ![1, W]) :
    GatherDims ⟨2, ![H, W]⟩ ⟨2, ![N, 1]⟩ ⟨2, ![N, W]⟩ where
  offsetDims := [1]
  collapsedSliceDims := [0]
  operandBatchingDims := []
  startIndicesBatchingDims := []
  startIndexMap := [0]
  indexVectorDim := 1
  sliceSizes := ![1, W]
  wf := wf

section Gather
variable {H W N w : Nat}
  (wf : GatherDims.WF ⟨2, ![H, W]⟩ ⟨2, ![N, 1]⟩ ⟨2, ![N, W]⟩ [1] [0] [] [0] [] 1 ![1, W])
  (idx : IVec ⟨2, ![N, 1]⟩ w) (e : Fin N) (q : Fin W)

/-- The operand row a result element reads: its start index, signed, clamped. -/
theorem gather_row : ((rowGatherDims H W N wf).operandIdx (ix2 e q) idx (0 : Fin 2)).val
    = min (idx (ix2 e (0 : Fin 1))).toInt.toNat (H - 1) := by
  show (rowGatherDims H W N wf).start (ix2 e q) idx 0 + (rowGatherDims H W N wf).batchCoord (ix2 e q) 0
      + (rowGatherDims H W N wf).offCoord (ix2 e q) 0 = _
  rw [GatherDims.batchCoord_eq_zero _ _ _ List.not_mem_nil,
    GatherDims.offCoord_eq_zero _ _ _ (fun h => ((GatherDims.mem_sKept _ _).mp h).1 List.mem_cons_self)]
  simp only [Nat.add_zero]
  unfold GatherDims.start
  rw [dif_pos (show (0 : Fin 2) ∈ (rowGatherDims H W N wf).startIndexMap from List.mem_cons_self)]
  have hsi : (rowGatherDims H W N wf).siIdx (ix2 e q) ⟨List.idxOf (0 : Fin 2) (rowGatherDims H W N wf).startIndexMap,
      List.idxOf_lt_length_iff.2 List.mem_cons_self⟩ = ix2 e (0 : Fin 1) := by
    funext b; refine Fin.ext ?_
    match b with
    | ⟨0, _⟩ => rfl
    | ⟨1, _⟩ => rfl
  rw [hsi]
  rfl

/-- On the kept column axis a result element reads its own column. -/
theorem gather_col : ((rowGatherDims H W N wf).operandIdx (ix2 e q) idx (1 : Fin 2)).val = q.val := by
  show (rowGatherDims H W N wf).start (ix2 e q) idx 1 + (rowGatherDims H W N wf).batchCoord (ix2 e q) 1
      + (rowGatherDims H W N wf).offCoord (ix2 e q) 1 = _
  rw [GatherDims.batchCoord_eq_zero _ _ _ List.not_mem_nil]
  have hnot : (1 : Fin 2) ∉ (rowGatherDims H W N wf).startIndexMap :=
    (by decide : (1 : Fin 2) ∉ ([0] : List (Fin 2)))
  have hk : (1 : Fin 2) ∈ (rowGatherDims H W N wf).sKept :=
    (GatherDims.mem_sKept _ _).mpr ⟨(by decide : (1 : Fin 2) ∉ ([0] : List (Fin 2))), List.not_mem_nil⟩
  unfold GatherDims.start GatherDims.offCoord
  rw [dif_neg hnot, dif_pos hk]
  simp only [Nat.add_zero, Nat.zero_add]
  rfl

/-- THE ROW GATHER READ AT `(e, q)`: the operand at (row, q), the row being start index `e` read signed and clamped
    into the axis. -/
theorem gather_rows_apply (hH : 0 < H) (x : (⟨2, ![H, W]⟩ : Shape).Idx → α) :
    Host.gather (rowGatherDims H W N wf) x idx (ix2 e q)
      = x (ix2 ⟨min (idx (ix2 e (0 : Fin 1))).toInt.toNat (H - 1), by omega⟩ q) := by
  unfold Host.gather
  refine congrArg x (funext fun a => Fin.ext ?_)
  match a with
  | ⟨0, _⟩ => exact gather_row wf idx e q
  | ⟨1, _⟩ => exact gather_col wf idx e q

end Gather

/-! ## The row scatter -/

/-- The dimension numbers of a row scatter of updates `[N, W]` into `[H, W]` at scatter indices `[N, 1]`. -/
abbrev rowScatterDims (H W N : Nat)
    (wf : ScatterDims.WF ⟨2, ![H, W]⟩ ⟨2, ![N, 1]⟩ ⟨2, ![N, W]⟩ [1] [0] [0] 1) :
    ScatterDims ⟨2, ![H, W]⟩ ⟨2, ![N, 1]⟩ ⟨2, ![N, W]⟩ where
  updateWindowDims := [1]
  insertedWindowDims := [0]
  scatterDimsToOperandDims := [0]
  indexVectorDim := 1
  wf := wf

section Scatter
variable {H W N w : Nat}
  (wf : ScatterDims.WF ⟨2, ![H, W]⟩ ⟨2, ![N, 1]⟩ ⟨2, ![N, W]⟩ [1] [0] [0] 1)
  (idx : IVec ⟨2, ![N, 1]⟩ w) (e : Fin N) (q : Fin W)

/-- The window's start on the row axis: scatter index `e`, read signed. -/
theorem scatter_start0 : (rowScatterDims H W N wf).start (ix2 e q) idx (0 : Fin 2) = (idx (ix2 e (0 : Fin 1))).toInt := by
  unfold ScatterDims.start
  rw [dif_pos (show (0 : Fin 2) ∈ (rowScatterDims H W N wf).scatterDimsToOperandDims from List.mem_cons_self)]
  have hsi : (rowScatterDims H W N wf).siIdx (ix2 e q) ⟨List.idxOf (0 : Fin 2) (rowScatterDims H W N wf).scatterDimsToOperandDims,
      List.idxOf_lt_length_iff.2 List.mem_cons_self⟩ = ix2 e (0 : Fin 1) := by
    funext b; refine Fin.ext ?_
    match b with
    | ⟨0, _⟩ => rfl
    | ⟨1, _⟩ => rfl
  rw [hsi]

/-- The window's start on the column axis is 0: the map does not name it. -/
theorem scatter_start1 : (rowScatterDims H W N wf).start (ix2 e q) idx (1 : Fin 2) = 0 := by
  unfold ScatterDims.start
  rw [dif_neg (by decide : (1 : Fin 2) ∉ ([0] : List (Fin 2)))]

/-- The window coordinate on the row axis is 0: the axis is inserted. -/
theorem scatter_window0 : (rowScatterDims H W N wf).window (ix2 e q) (0 : Fin 2) = 0 := by
  unfold ScatterDims.window
  rw [dif_neg (by simp [Shape.kept, List.mem_filter, List.mem_finRange] : (0 : Fin 2) ∉ (⟨2, ![H, W]⟩ : Shape).kept ([0] : List (Fin 2)))]

/-- The window coordinate on the column axis is the update's column. -/
theorem scatter_window1 : (rowScatterDims H W N wf).window (ix2 e q) (1 : Fin 2) = q.val := by
  unfold ScatterDims.window
  rw [dif_pos (by simp [Shape.kept, List.mem_filter, List.mem_finRange] : (1 : Fin 2) ∈ (⟨2, ![H, W]⟩ : Shape).kept ([0] : List (Fin 2)))]
  rfl

/-- THE ROW SCATTER'S LANDING INDEX: update `(e, q)` lands at `(r, c)` exactly when scatter index `e`, read signed,
    is `r`, and `q = c`. -/
theorem scatter_rows_resultIdx_eq (r : Fin H) (c : Fin W) :
    (rowScatterDims H W N wf).resultIdx? (ix2 e q) idx = some (ix2 r c)
      ↔ (idx (ix2 e (0 : Fin 1))).toInt = (r.val : Int) ∧ q = c := by
  have h0 := scatter_start0 wf idx e q
  have h1 := scatter_start1 wf idx e q
  have w0 := scatter_window0 wf e q
  have w1 := scatter_window1 wf e q
  unfold ScatterDims.resultIdx?
  constructor
  · intro h
    split at h
    · rename_i hall
      have heq := Option.some.inj h
      have e0 := congrArg (fun f => (f (0 : Fin 2)).val) heq
      have e1 := congrArg (fun f => (f (1 : Fin 2)).val) heq
      simp only at e0 e1
      have hb0 := (hall 0).1
      rw [h0, w0] at e0 hb0
      rw [h1, w1] at e1
      refine ⟨?_, Fin.ext ?_⟩
      · have : ((idx (ix2 e (0 : Fin 1))).toInt + ((0 : Nat) : Int)).toNat = r.val := e0
        omega
      · have : ((0 : Int) + (q.val : Int)).toNat = c.val := e1
        omega
    · exact absurd h (by simp)
  · rintro ⟨hr, rfl⟩
    have hall : ∀ a : Fin 2, 0 ≤ (rowScatterDims H W N wf).start (ix2 e q) idx a + ((rowScatterDims H W N wf).window (ix2 e q) a : Int)
        ∧ (rowScatterDims H W N wf).start (ix2 e q) idx a + ((rowScatterDims H W N wf).window (ix2 e q) a : Int)
          < ((⟨2, ![H, W]⟩ : Shape).size a : Int) := by
      intro a
      match a with
      | ⟨0, _⟩ =>
        show 0 ≤ (rowScatterDims H W N wf).start (ix2 e q) idx 0 + (((rowScatterDims H W N wf).window (ix2 e q) 0 : Nat) : Int)
          ∧ (rowScatterDims H W N wf).start (ix2 e q) idx 0 + (((rowScatterDims H W N wf).window (ix2 e q) 0 : Nat) : Int) < (H : Int)
        rw [h0, w0, hr]; have := r.isLt; omega
      | ⟨1, _⟩ =>
        show 0 ≤ (rowScatterDims H W N wf).start (ix2 e q) idx 1 + (((rowScatterDims H W N wf).window (ix2 e q) 1 : Nat) : Int)
          ∧ (rowScatterDims H W N wf).start (ix2 e q) idx 1 + (((rowScatterDims H W N wf).window (ix2 e q) 1 : Nat) : Int) < (W : Int)
        rw [h1, w1]; have := q.isLt; omega
    rw [dif_pos hall]
    refine congrArg some (funext fun a => Fin.ext ?_)
    match a with
    | ⟨0, _⟩ =>
      show ((rowScatterDims H W N wf).start (ix2 e q) idx 0 + (((rowScatterDims H W N wf).window (ix2 e q) 0 : Nat) : Int)).toNat = r.val
      rw [h0, w0, hr]; omega
    | ⟨1, _⟩ =>
      show ((rowScatterDims H W N wf).start (ix2 e q) idx 1 + (((rowScatterDims H W N wf).window (ix2 e q) 1 : Nat) : Int)).toNat = q.val
      rw [h1, w1]; omega

end Scatter

/-- THE ACCUMULATING ROW SCATTER READ AT `(r, c)`, at the extended reals: the operand's element plus the sum, over
    the update rows `e` whose scatter index read signed is `r`, of update `(e, c)`. -/
theorem scatterAdd_rows_apply {H W N w : Nat}
    (wf : ScatterDims.WF ⟨2, ![H, W]⟩ ⟨2, ![N, 1]⟩ ⟨2, ![N, W]⟩ [1] [0] [0] 1)
    (x : (⟨2, ![H, W]⟩ : Shape).Idx → EReal) (idx : IVec ⟨2, ![N, 1]⟩ w)
    (upd : (⟨2, ![N, W]⟩ : Shape).Idx → EReal) (r : Fin H) (c : Fin W) :
    Ideal.hostScatterAdd (rowScatterDims H W N wf) x idx upd (ix2 r c)
      = x (ix2 r c) + ∑ e ∈ Finset.univ.filter (fun e : Fin N => (idx (ix2 e (0 : Fin 1))).toInt = (r.val : Int)),
          upd (ix2 e c) := by
  unfold Ideal.hostScatterAdd
  refine congrArg (x (ix2 r c) + ·) ?_
  rw [Finset.sum_filter, sum_idx2, Finset.sum_filter]
  refine Finset.sum_congr rfl fun e _ => ?_
  by_cases he : (idx (ix2 e (0 : Fin 1))).toInt = (r.val : Int)
  · rw [if_pos he]
    rw [Finset.sum_eq_single c]
    · rw [if_pos ((scatter_rows_resultIdx_eq wf idx e c r c).mpr ⟨he, rfl⟩)]
    · intro q _ hq
      rw [if_neg (fun h => hq ((scatter_rows_resultIdx_eq wf idx e q r c).mp h).2)]
    · intro h; exact absurd (Finset.mem_univ c) h
  · rw [if_neg he]
    refine Finset.sum_eq_zero fun q _ => ?_
    rw [if_neg (fun h => he ((scatter_rows_resultIdx_eq wf idx e q r c).mp h).1)]

end Cert.LibScatterGather

end
-- ==== Proof.LibEdge.lean ====
/-
  The edge list's columns, the gathered rows and the normalised output, read at an index.

  Both programs start from the same triplet array `[1600000, 3]` and do the same things with its first column: they
  cut it out as a column, re-lay it as a vector (`src`), lay it back as a column of scatter indices (`sidx`), and,
  with a negative id moved up by the table's height, as a column of gather start indices (`gidx`) at which they
  gather one embedding row per edge (`rows`). Both end with the same normalisation (`fin`): the weighted sums
  divided by the sums of weights, a zero sum replaced by a tiny constant, capped below at zero.

  Here these composites are written once, over literal shapes, with every shape fact an explicit hypothesis, and read at
  an index: the source id of edge `e` is the triplet array at `(e, 0)`; so is scatter index `e`; an edge whose source
  id, read signed, is a node `n` of the table gathers row `n`; and the output at `(n, j)` is Spec's `nodeOut` of the
  two sums' elements. A program's own stage is definitionally the composite here at that program's shape facts.
-/
import Idealize.ShloMosaic.PureOps
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout
import proofs.«157317_j77704548319854_2_alg».proof.Proof.Spec
import proofs.«157317_j77704548319854_2_alg».proof.Proof.LibScatterGather
import proofs.«157317_j77704548319854_2_alg».proof.Proof.LibRows
import proofs.«157317_j77704548319854_2_alg».proof.Proof.LibColumn

noncomputable section

namespace Cert.LibEdge

open Idealize.ShloMosaic Idealize.ShloMosaic.ValueIdx Cert.Attn

/-! ## A signed id that is a natural number is not negative -/

/-- A select on "`x` is negative" keeps `x` when `x`, read signed, is a natural number. -/
theorem select_slt_zero_of_toInt (x y : BitVec 32) (n : Nat) (h : x.toInt = (n : Int)) :
    Scalar.select (IntOp.cmpi .slt x 0#32) y x = x := by
  have hs : x.slt 0#32 = false := by
    rw [BitVec.slt_eq_decide, h]
    simp
  unfold IntOp.cmpi Scalar.select
  simp only [hs]
  rfl

/-! ## The first column of the triplets -/

section Edge

variable
  (hsl : (⟨2, ![1600000, 3]⟩ : Shape).Slices ![0, 0] ⟨2, ![1600000, 1]⟩)
  (hsc : (⟨2, ![1600000, 1]⟩ : Shape).ShapeCasts ⟨1, ![1600000]⟩)
  (hb0 : (⟨0, ![]⟩ : Shape).BroadcastsInDim ⟨1, ![1600000]⟩ ![])
  (hb1 : (⟨1, ![1600000]⟩ : Shape).BroadcastsInDim ⟨2, ![1600000, 1]⟩ ![0])
  (wf : GatherDims.WF ⟨2, ![100000, 64]⟩ ⟨2, ![1600000, 1]⟩ ⟨2, ![1600000, 64]⟩ [1] [0] [] [0] [] 1 ![1, 64])

/-- The source id of every edge: column 0 of the triplets, as a vector. -/
abbrev src (a0 : IVec ⟨2, ![1600000, 3]⟩ 32) : IVec ⟨1, ![1600000]⟩ 32 :=
  shapeCast ⟨1, ![1600000]⟩ (extractStridedSlice ⟨2, ![1600000, 1]⟩ ![0, 0] a0 hsl) hsc

/-- The scatter indices: the source ids as a column. -/
abbrev sidx (a0 : IVec ⟨2, ![1600000, 3]⟩ 32) : IVec ⟨2, ![1600000, 1]⟩ 32 :=
  broadcastInDim ⟨2, ![1600000, 1]⟩ ![0] hb1 (src hsl hsc a0)

/-- The gather's start indices: a negative id has the table's height added. -/
abbrev gidx (a0 : IVec ⟨2, ![1600000, 3]⟩ 32) : IVec ⟨2, ![1600000, 1]⟩ 32 :=
  broadcastInDim ⟨2, ![1600000, 1]⟩ ![0] hb1
    (select (cmpi .slt (src hsl hsc a0) (broadcastInDim ⟨1, ![1600000]⟩ ![] hb0 (constantI ⟨0, ![]⟩ 32 0#32)))
      (addi (src hsl hsc a0) (broadcastInDim ⟨1, ![1600000]⟩ ![] hb0 (constantI ⟨0, ![]⟩ 32 100000#32)))
      (src hsl hsc a0))

/-- The gathered embedding rows, one per edge. -/
abbrev rows (a0 : IVec ⟨2, ![1600000, 3]⟩ 32) (a1 : FVec Ideal ⟨2, ![100000, 64]⟩ .f32) : FVec Ideal ⟨2, ![1600000, 64]⟩ .f32 :=
  Host.gather (Cert.LibScatterGather.rowGatherDims 100000 64 1600000 wf) a1 (gidx hsl hsc hb0 hb1 a0)

/-- THE SOURCE ID of edge `e` is the triplet array at `(e, 0)`. -/
theorem src_apply (a0 : IVec ⟨2, ![1600000, 3]⟩ 32) (e : Fin 1600000) :
    src hsl hsc a0 (ix1 e) = a0 (ix2 e (0 : Fin 3)) := by
  refine (shapeCast_apply _ hsc (ix1 e) (ix2 e (0 : Fin 1)) ?_).trans ?_
  · rw [Shape.rowMajor_val_two, Shape.rowMajor_val_one]
    show e.val * 1 + 0 = e.val
    omega
  · refine extractStridedSlice_apply ![0, 0] a0 hsl (ix2 e (0 : Fin 1)) (ix2 e (0 : Fin 3)) fun a => ?_
    match a with
    | ⟨0, _⟩ => show e.val = 0 + e.val; omega
    | ⟨1, _⟩ => rfl

/-- A column laid from a vector of edges reads, at `(e, 0)`, the vector at `e`. -/
theorem column_apply {α : Type} (v : (⟨1, ![1600000]⟩ : Shape).Idx → α) (e : Fin 1600000) :
    broadcastInDim ⟨2, ![1600000, 1]⟩ ![0] hb1 v (ix2 e (0 : Fin 1)) = v (ix1 e) :=
  broadcastInDim_apply ![0] hb1 v (ix2 e (0 : Fin 1)) (ix1 e) fun a => by
    match a with
    | ⟨0, _⟩ =>
      show e.val = if (1600000 : Nat) = 1 then 0 else e.val
      exact (if_neg (by omega)).symm

/-- SCATTER INDEX `e` is the triplet array at `(e, 0)`. -/
theorem sidx_apply (a0 : IVec ⟨2, ![1600000, 3]⟩ 32) (e : Fin 1600000) :
    sidx hsl hsc hb1 a0 (ix2 e (0 : Fin 1)) = a0 (ix2 e (0 : Fin 3)) :=
  (column_apply hb1 _ e).trans (src_apply hsl hsc a0 e)

/-- GATHER START INDEX `e` of an edge whose source id, read signed, is a natural number is that id: it is not
    negative, so the table's height is not added. -/
theorem gidx_apply_of (a0 : IVec ⟨2, ![1600000, 3]⟩ 32) (e : Fin 1600000) (n : Nat)
    (h : (a0 (ix2 e (0 : Fin 3))).toInt = (n : Int)) :
    gidx hsl hsc hb0 hb1 a0 (ix2 e (0 : Fin 1)) = a0 (ix2 e (0 : Fin 3)) := by
  refine (column_apply hb1 _ e).trans ?_
  have hs := src_apply hsl hsc a0 e
  have hz : broadcastInDim ⟨1, ![1600000]⟩ ![] hb0 (constantI ⟨0, ![]⟩ 32 0#32) (ix1 e) = 0#32 :=
    Cert.Lib.Rows.scalar_apply _ hb0 (ix1 e)
  show Scalar.select (IntOp.cmpi .slt (src hsl hsc a0 (ix1 e))
      (broadcastInDim ⟨1, ![1600000]⟩ ![] hb0 (constantI ⟨0, ![]⟩ 32 0#32) (ix1 e)))
    (addi (src hsl hsc a0) (broadcastInDim ⟨1, ![1600000]⟩ ![] hb0 (constantI ⟨0, ![]⟩ 32 100000#32)) (ix1 e))
    (src hsl hsc a0 (ix1 e)) = _
  rw [hz, hs]
  exact select_slt_zero_of_toInt _ _ n h

/-- AN EDGE WHOSE SOURCE ID, read signed, IS THE NODE `n` GATHERS THE NODE'S OWN ROW: the start index is the id, and
    the clamp into the table leaves an id below the table's height alone. -/
theorem rows_apply_of (a0 : IVec ⟨2, ![1600000, 3]⟩ 32) (a1 : FVec Ideal ⟨2, ![100000, 64]⟩ .f32) (e : Fin 1600000)
    (n : Fin 100000) (h : (a0 (ix2 e (0 : Fin 3))).toInt = (n.val : Int)) (k : Fin 64) :
    rows hsl hsc hb0 hb1 wf a0 a1 (ix2 e k) = a1 (ix2 n k) := by
  refine (Cert.LibScatterGather.gather_rows_apply wf (gidx hsl hsc hb0 hb1 a0) e k (by omega) a1).trans ?_
  have hg := gidx_apply_of hsl hsc hb0 hb1 a0 e n.val h
  refine congrArg a1 (congrArg (fun r : Fin 100000 => ix2 r k) (Fin.ext ?_))
  show min (gidx hsl hsc hb0 hb1 a0 (ix2 e (0 : Fin 1))).toInt.toNat (100000 - 1) = n.val
  rw [hg, h]
  have := n.isLt
  omega

end Edge

/-! ## The normalised, rectified output -/

section Fin

variable
  (hs1 : (⟨0, ![]⟩ : Shape).BroadcastsInDim ⟨2, ![100000, 1]⟩ ![])
  (hs64 : (⟨0, ![]⟩ : Shape).BroadcastsInDim ⟨2, ![100000, 64]⟩ ![])
  (hb : (⟨2, ![100000, 1]⟩ : Shape).BroadcastsInDim ⟨2, ![100000, 64]⟩ ![0, 1])

/-- The weighted sums divided by the sums of weights (a zero sum replaced by the tiny constant), capped below at zero. -/
abbrev fin (den : FVec Ideal ⟨2, ![100000, 1]⟩ .f32) (num : FVec Ideal ⟨2, ![100000, 64]⟩ .f32) :
    FVec Ideal ⟨2, ![100000, 64]⟩ .f32 :=
  maximumf (Host.divf num (broadcastInDim ⟨2, ![100000, 64]⟩ ![0, 1] hb
      (select (cmpf .oeq den (broadcastInDim ⟨2, ![100000, 1]⟩ ![] hs1 (constant (F := Ideal) ⟨0, ![]⟩ .f32 0x00000000#32)))
        (broadcastInDim ⟨2, ![100000, 1]⟩ ![] hs1 (id (constant (F := Ideal) ⟨0, ![]⟩ .f32 0x2B8CBCCC#32)))
        den)))
    (broadcastInDim ⟨2, ![100000, 64]⟩ ![] hs64 (constant (F := Ideal) ⟨0, ![]⟩ .f32 0x00000000#32))

/-- THE OUTPUT AT `(n, j)` is the node's output feature from the node's sum of weights and its weighted sum of
    feature `j`. -/
theorem fin_apply (den : FVec Ideal ⟨2, ![100000, 1]⟩ .f32) (num : FVec Ideal ⟨2, ![100000, 64]⟩ .f32)
    (n : Fin 100000) (j : Fin 64) :
    fin hs1 hs64 hb den num (ix2 n j) = nodeOut (den (ix2 n (0 : Fin 1))) (num (ix2 n j)) := by
  have hcol : ∀ v : (⟨2, ![100000, 1]⟩ : Shape).Idx → EReal,
      broadcastInDim ⟨2, ![100000, 64]⟩ ![0, 1] hb v (ix2 n j) = v (ix2 n (0 : Fin 1)) := fun v =>
    broadcastInDim_apply ![0, 1] hb v (ix2 n j) (ix2 n (0 : Fin 1)) fun a => by
      match a with
      | ⟨0, _⟩ =>
        show n.val = if (100000 : Nat) = 1 then 0 else n.val
        exact (if_neg (by omega)).symm
      | ⟨1, _⟩ => exact (if_pos rfl).symm
  have hz1 : broadcastInDim ⟨2, ![100000, 1]⟩ ![] hs1 (constant (F := Ideal) ⟨0, ![]⟩ .f32 0x00000000#32) (ix2 n (0 : Fin 1)) = c0 :=
    Cert.Lib.Rows.scalar_apply _ hs1 _
  have ht1 : broadcastInDim ⟨2, ![100000, 1]⟩ ![] hs1 (id (constant (F := Ideal) ⟨0, ![]⟩ .f32 0x2B8CBCCC#32)) (ix2 n (0 : Fin 1)) = cTiny :=
    Cert.Lib.Rows.scalar_apply _ hs1 _
  have hz64 : broadcastInDim ⟨2, ![100000, 64]⟩ ![] hs64 (constant (F := Ideal) ⟨0, ![]⟩ .f32 0x00000000#32) (ix2 n j) = c0 :=
    Cert.Lib.Rows.scalar_apply _ hs64 _
  show max (Ideal.div (num (ix2 n j)) (broadcastInDim (s := ⟨2, ![100000, 1]⟩) ⟨2, ![100000, 64]⟩ ![0, 1] hb _ (ix2 n j)))
      (broadcastInDim ⟨2, ![100000, 64]⟩ ![] hs64 (constant (F := Ideal) ⟨0, ![]⟩ .f32 0x00000000#32) (ix2 n j)) = _
  rw [hcol, hz64]
  show max (Ideal.div (num (ix2 n j)) (Scalar.select (Ideal.cmp .oeq (den (ix2 n (0 : Fin 1)))
      (broadcastInDim ⟨2, ![100000, 1]⟩ ![] hs1 (constant (F := Ideal) ⟨0, ![]⟩ .f32 0x00000000#32) (ix2 n (0 : Fin 1))))
      (broadcastInDim ⟨2, ![100000, 1]⟩ ![] hs1 (id (constant (F := Ideal) ⟨0, ![]⟩ .f32 0x2B8CBCCC#32)) (ix2 n (0 : Fin 1)))
      (den (ix2 n (0 : Fin 1))))) c0 = _
  rw [hz1, ht1]
  rfl

end Fin

end Cert.LibEdge

end
-- ==== Proof.KerRead.lean ====
/-
  The kernel program's host stages, read at an index, at the exact instance.

  Before the region: the transposed weight matrix at `(k, q)` is the matrix at `(q, k)`; the first bias as a one-row
  array and the second as a one-by-one array read the bias; scatter index `e` is the triplet array at `(e, 0)`; an edge
  whose source id, read signed, is a node of the table gathers that node's row. After the region: the segment sum at
  `(n, q)` is zero plus the sum over the node's edges of column `q` of the region's result; its first column is the sum of
  weights and its other 64 columns the weighted sums; and the output at `(n, j)` is Spec's `nodeOut` of the two.
-/
import proofs.«157317_j77704548319854_2_alg».proof.Proof.KerStages
import proofs.«157317_j77704548319854_2_alg».proof.Proof.Spec
import proofs.«157317_j77704548319854_2_alg».proof.Proof.LibScatterGather
import proofs.«157317_j77704548319854_2_alg».proof.Proof.LibRows
import proofs.«157317_j77704548319854_2_alg».proof.Proof.LibColumn
import proofs.«157317_j77704548319854_2_alg».proof.Proof.LibEdge
import Idealize.ShloMosaic.Lib.ValueIdx
import Idealize.ShloMosaic.Lib.Pipeline.Value
import Idealize.ShloMosaic.Lib.ValueLayout

noncomputable section

open scoped BigOperators

namespace Cert.KerRead

open Idealize.ShloMosaic Idealize.ShloMosaic.ValueIdx Cert.KernelIdeal Cert.KernelIdeal.Facts₀ Cert.KerStage Cert.Attn

variable [Cert.KernelIdeal.Facts]

/-! ## Before the region -/

/-- The transposed weight matrix at `(k, q)` is the matrix at `(q, k)`. -/
theorem wT_apply (a2 : F32 S64x64) (k q : Fin 64) : wT a2 (ix2 k q) = a2 (ix2 q k) :=
  transpose_apply [1, 0] a2 transposes_S64x64_S64x64_1_0 (ix2 k q) (ix2 q k) fun b => by
    match b with
    | ⟨0, _⟩ => rfl
    | ⟨1, _⟩ => rfl

/-- The first bias as a one-row array reads the bias. -/
theorem bRow_apply (a3 : F32 S64) (q : Fin 64) : bRow a3 (ix2 (0 : Fin 1) q) = a3 (ix1 q) :=
  Cert.Lib.Rows.shapeCast_row_apply a3 shapeCasts_S64_S1x64 q

/-- The second bias as a one-by-one array reads the bias. -/
theorem b2_apply (a5 : F32 S1) : b2 a5 (ix2 (0 : Fin 1) (0 : Fin 1)) = a5 (ix1 (0 : Fin 1)) :=
  Cert.Lib.Column.shapeCast_a_a1_apply a5 shapeCasts_S1_S1x1 (0 : Fin 1) (0 : Fin 1)

/-- Scatter index `e` is the triplet array at `(e, 0)`. -/
theorem sidx_apply (a0 : I32 S1600000x3) (e : Fin 1600000) : sidx a0 (ix2 e (0 : Fin 1)) = a0 (ix2 e (0 : Fin 3)) :=
  Cert.LibEdge.sidx_apply slices_S1600000x3_S1600000x1_0_0 shapeCasts_S1600000x1_S1600000 bcast_S1600000_S1600000x1_0 a0 e

/-- An edge whose source id, read signed, is the node `n` gathers the node's own row. -/
theorem rows_apply_of (a0 : I32 S1600000x3) (a1 : F32 S100000x64) (e : Fin 1600000) (n : Fin 100000)
    (h : (a0 (ix2 e (0 : Fin 3))).toInt = (n.val : Int)) (k : Fin 64) : rows a0 a1 (ix2 e k) = a1 (ix2 n k) :=
  Cert.LibEdge.rows_apply_of slices_S1600000x3_S1600000x1_0_0 shapeCasts_S1600000x1_S1600000 bcast_S_S1600000
    bcast_S1600000_S1600000x1_0 gather_S100000x64_S1600000x1_S1600000x64_1_0_n_n_0_1_164_wf a0 a1 e n h k

/-! ## After the region -/

/-! ## After the region -/

/-- The program's scatter record is the row scatter of updates `[1600000, 65]` into `[100000, 65]`: the same four fields. -/
theorem scatter_eq : scatter_S100000x65_S1600000x1_S1600000x65_1_0_0_1
    = Cert.LibScatterGather.rowScatterDims 100000 65 1600000 scatter_S100000x65_S1600000x1_S1600000x65_1_0_0_1_wf := by
  unfold scatter_S100000x65_S1600000x1_S1600000x65_1_0_0_1 Cert.LibScatterGather.rowScatterDims
  congr

/-- The array the segment sum starts from is zero everywhere. -/
theorem agg_init_apply (n : Fin 100000) (q : Fin 65) :
    splat S100000x65 bcast_S_S100000x65 0x00000000#32 (ix2 n q) = c0 :=
  Cert.Lib.Rows.scalar_apply _ bcast_S_S100000x65 _

/-- The edges whose scatter index, read signed, is `n` are the edges of node `n`. -/
theorem filter_sidx_eq (a0 : I32 S1600000x3) (n : Fin 100000) :
    Finset.univ.filter (fun e : Fin 1600000 => (sidx a0 (ix2 e (0 : Fin 1))).toInt = (n.val : Int)) = edgesOf a0 n := by
  unfold edgesOf
  refine Finset.filter_congr fun e _ => ?_
  rw [sidx_apply]

/-- The segment sum is the exact accumulating row scatter of the region's result into the zero array. -/
theorem agg_eq (a0 : I32 S1600000x3) (comb : F32 S1600000x65) :
    agg a0 comb = Ideal.hostScatterAdd
      (Cert.LibScatterGather.rowScatterDims 100000 65 1600000 scatter_S100000x65_S1600000x1_S1600000x65_1_0_0_1_wf)
      (splat S100000x65 bcast_S_S100000x65 0x00000000#32) (sidx a0) comb := by
  show Ideal.hostScatterAdd scatter_S100000x65_S1600000x1_S1600000x65_1_0_0_1
    (splat S100000x65 bcast_S_S100000x65 0x00000000#32) (sidx a0) comb = _
  rw [scatter_eq]

/-- The segment sum at `(n, q)`: zero plus the sum, over the edges of node `n`, of column `q` of the region's result. -/
theorem agg_apply (a0 : I32 S1600000x3) (comb : F32 S1600000x65) (n : Fin 100000) (q : Fin 65) :
    agg a0 comb (ix2 n q) = c0 + ∑ e ∈ edgesOf a0 n, comb (ix2 e q) := by
  refine (congrFun (agg_eq a0 comb) (ix2 n q)).trans ?_
  refine (Cert.LibScatterGather.scatterAdd_rows_apply scatter_S100000x65_S1600000x1_S1600000x65_1_0_0_1_wf
    (splat S100000x65 bcast_S_S100000x65 0x00000000#32) (sidx a0) comb n q).trans ?_
  refine congrArg₂ (· + ·) (agg_init_apply n q) ?_
  exact Finset.sum_congr (filter_sidx_eq a0 n) fun _ _ => rfl

/-- The sum of weights of node `n`: column 0 of the segment sum. -/
theorem den_apply (ag : F32 S100000x65) (n : Fin 100000) : den ag (ix2 n (0 : Fin 1)) = ag (ix2 n (0 : Fin 65)) := by
  show extractStridedSlice S100000x1 ![0, 0] ag slices_S100000x65_S100000x1_0_0 (ix2 n (0 : Fin 1)) = _
  refine extractStridedSlice_apply ![0, 0] ag slices_S100000x65_S100000x1_0_0 (ix2 n (0 : Fin 1)) (ix2 n (0 : Fin 65)) fun a => ?_
  match a with
  | ⟨0, _⟩ => show n.val = 0 + n.val; omega
  | ⟨1, _⟩ => rfl

/-- The weighted sum of feature `j` of node `n`: column `j + 1` of the segment sum. -/
theorem num_apply (ag : F32 S100000x65) (n : Fin 100000) (j : Fin 64) :
    num ag (ix2 n j) = ag (ix2 n (⟨j.val + 1, by omega⟩ : Fin 65)) := by
  show extractStridedSlice S100000x64 ![0, 1] ag slices_S100000x65_S100000x64_0_1 (ix2 n j) = _
  refine extractStridedSlice_apply ![0, 1] ag slices_S100000x65_S100000x64_0_1 (ix2 n j)
    (ix2 n (⟨j.val + 1, by omega⟩ : Fin 65)) fun a => ?_
  match a with
  | ⟨0, _⟩ => show n.val = 0 + n.val; omega
  | ⟨1, _⟩ => show j.val + 1 = 1 + j.val; omega

/-- The output at `(n, j)` is the node's output feature from its sum of weights and its weighted sum of feature `j`. -/
theorem fin_apply (d : F32 S100000x1) (u : F32 S100000x64) (n : Fin 100000) (j : Fin 64) :
    fin d u (ix2 n j) = nodeOut (d (ix2 n (0 : Fin 1))) (u (ix2 n j)) :=
  Cert.LibEdge.fin_apply bcast_S_S100000x1 bcast_S_S100000x64 bcast_S100000x1_S100000x64_0_1 d u n j

/-- Everything after the region, at `(n, j)`: the node's output feature from the sums, over its edges, of column 0
    and of column `j + 1` of the region's result. -/
theorem tail_apply (a0 : I32 S1600000x3) (comb : F32 S1600000x65) (n : Fin 100000) (j : Fin 64) :
    tail a0 comb (ix2 n j)
      = nodeOut (c0 + ∑ e ∈ edgesOf a0 n, comb (ix2 e (0 : Fin 65)))
          (c0 + ∑ e ∈ edgesOf a0 n, comb (ix2 e (⟨j.val + 1, by omega⟩ : Fin 65))) := by
  refine (fin_apply (den (agg a0 comb)) (num (agg a0 comb)) n j).trans ?_
  refine congrArg₂ nodeOut ?_ ?_
  · exact (den_apply (agg a0 comb) n).trans (agg_apply a0 comb n (0 : Fin 65))
  · exact (num_apply (agg a0 comb) n j).trans (agg_apply a0 comb n (⟨j.val + 1, by omega⟩ : Fin 65))

end Cert.KerRead

end
-- ==== Proof.LibAllReal.lean ====
/-
  Real-valued arrays over the extended reals.

  At the ideal float instance a float is an extended real. An array is REAL when every entry is (the
  coercion of) a real number: no entry is `⊤` or `⊥`. The algebra a value proof uses — distributivity,
  cancellation, the exchange of finite sums — holds for reals and fails at the infinities, so a value proof
  carries this predicate along the program. This file proves that the host operations keep it:

  * pointwise sum, difference, product, maximum, minimum, negation; a selection between two real arrays;
    the splat of a bit pattern that denotes a real (with the patterns of 0, 1, 169343 and the single-precision
    neighbour of 10⁻⁵, which is positive);
  * every re-indexing (broadcasts, reshape, slice, transpose, gather), whose entries are entries of the operand;
  * a finite sum of reals; hence the exact scatter-add, the exact sum-reduction, the exact matrix product;
  * the quotient by an array of nonzero reals and the reciprocal square root of an array of positive reals;
    and `where (d > 0) (rsqrt d) w`, which is real for every real `d`: the reciprocal square root is read
    only where `d` is positive.
-/
import Idealize.ShloMosaic.PureOps
import Idealize.ShloMosaic.PureOps.Ideal
import Idealize.ShloMosaic.PureOps.Ideal.Laws
import Idealize.ShloMosaic.Lib.ReduceAll

noncomputable section

namespace Cert.Lib.AllReal

open Idealize.ShloMosaic

/-! ## The predicates -/

/-- An extended real that is (the coercion of) a real number. -/
def IsReal (x : EReal) : Prop := ∃ r : ℝ, x = (r : EReal)

/-- An array over the extended reals every entry of which is a real number. -/
def AllReal {s : Shape} (v : s.Idx → EReal) : Prop := ∀ i, ∃ r : ℝ, v i = (r : EReal)

/-- An array is real exactly when each entry is. -/
theorem allReal_iff {s : Shape} (v : s.Idx → EReal) : AllReal v ↔ ∀ i, IsReal (v i) := Iff.rfl

/-- The entry of a real array at an index, as a real number. -/
theorem AllReal.isReal {s : Shape} {v : s.Idx → EReal} (h : AllReal v) (i : s.Idx) : IsReal (v i) := h i

/-- A real number is neither infinity. -/
theorem IsReal.ne_top {x : EReal} (h : IsReal x) : x ≠ ⊤ := by
  obtain ⟨r, rfl⟩ := h; exact EReal.coe_ne_top r

/-- A real number is neither infinity. -/
theorem IsReal.ne_bot {x : EReal} (h : IsReal x) : x ≠ ⊥ := by
  obtain ⟨r, rfl⟩ := h; exact EReal.coe_ne_bot r

/-- An extended real that is neither infinity is a real number. -/
theorem isReal_of_ne {x : EReal} (hb : x ≠ ⊥) (ht : x ≠ ⊤) : IsReal x := by
  induction x using EReal.rec with
  | bot => exact absurd rfl hb
  | coe r => exact ⟨r, rfl⟩
  | top => exact absurd rfl ht

/-- An extended real of absolute value below `⊤` is a real number. -/
theorem isReal_of_abs_lt_top {x : EReal} (h : max x (-x) < ⊤) : IsReal x := by
  induction x using EReal.rec with
  | bot => exact absurd h (by simp)
  | coe r => exact ⟨r, rfl⟩
  | top => exact absurd h (by simp)

/-! ## Scalars -/

/-- A coerced real is real. -/
theorem isReal_coe (r : ℝ) : IsReal (r : EReal) := ⟨r, rfl⟩

/-- Zero is real. -/
theorem isReal_zero : IsReal 0 := ⟨0, rfl⟩

/-- One is real. -/
theorem isReal_one : IsReal 1 := ⟨1, rfl⟩

/-- The sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negative of a real is real. -/
theorem IsReal.neg {x : EReal} (hx : IsReal x) : IsReal (-x) := by
  obtain ⟨a, rfl⟩ := hx; exact ⟨-a, (EReal.coe_neg a).symm⟩

/-- The greater of two reals is real: it is one of them. -/
theorem IsReal.max {x y : EReal} (hx : IsReal x) (hy : IsReal y) : IsReal (max x y) := by
  rcases le_total x y with h | h
  · rw [max_eq_right h]; exact hy
  · rw [max_eq_left h]; exact hx

/-- The lesser of two reals is real: it is one of them. -/
theorem IsReal.min {x y : EReal} (hx : IsReal x) (hy : IsReal y) : IsReal (min x y) := by
  rcases le_total x y with h | h
  · rw [min_eq_left h]; exact hx
  · rw [min_eq_right h]; exact hy

/-- A finite sum of reals is real. -/
theorem isReal_sum {ι : Type*} (s : Finset ι) (f : ι → EReal) (h : ∀ k ∈ s, IsReal (f k)) :
    IsReal (∑ k ∈ s, f k) := by
  classical
  induction s using Finset.induction_on with
  | empty => rw [Finset.sum_empty]; exact isReal_zero
  | insert a s ha ih =>
    rw [Finset.sum_insert ha]
    exact (h a (Finset.mem_insert_self a s)).add (ih fun k hk => h k (Finset.mem_insert_of_mem hk))

/-- The exact quotient of a real by a nonzero real is real: the product with the reciprocal. -/
theorem IsReal.div {x : EReal} (hx : IsReal x) {b : ℝ} (hb : b ≠ 0) : IsReal (Ideal.div x (b : EReal)) := by
  rw [Ideal.div_coe hb]; exact hx.mul (isReal_coe _)

/-- The reciprocal square root of a positive real is the real `(√r)⁻¹`. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

/-- The reciprocal square root of a positive real is real. -/
theorem isReal_rsqrt {r : ℝ} (hr : 0 < r) : IsReal (Ideal.rsqrt (r : EReal)) :=
  ⟨_, rsqrt_coe_of_pos hr⟩

/-! ## Bit patterns that denote reals -/

/-- The single-precision pattern of `0.0` is the real 0. -/
theorem ofBits_f32_zero : Ideal.ofBits .f32 0x00000000#32 = ((0 : ℝ) : EReal) := by
  simp [Ideal.ofBits, Ideal.ieee]

/-- The single-precision pattern of `1.0` is the real 1. -/
theorem ofBits_f32_one : Ideal.ofBits .f32 0x3F800000#32 = ((1 : ℝ) : EReal) := by
  simp [Ideal.ofBits, Ideal.ieee]
  rw [← EReal.coe_mul]; norm_num

/-- The single-precision pattern of `169343.0` is the real 169343. -/
theorem ofBits_f32_169343 : Ideal.ofBits .f32 0x48255FC0#32 = ((169343 : ℝ) : EReal) := by
  simp [Ideal.ofBits, Ideal.ieee]
  rw [← EReal.coe_mul]; norm_num

/-- The single-precision neighbour of `10⁻⁵` is the real `10995116 · 2⁻⁴⁰`. -/
theorem ofBits_f32_eps : Ideal.ofBits .f32 0x3727C5AC#32 = ((10995116 * (2 ^ 40)⁻¹ : ℝ) : EReal) := by
  simp [Ideal.ofBits, Ideal.ieee]

/-- The single-precision neighbour of `10⁻⁵` is a positive real. -/
theorem ofBits_f32_eps_pos : ∃ r : ℝ, 0 < r ∧ Ideal.ofBits .f32 0x3727C5AC#32 = (r : EReal) :=
  ⟨_, by positivity, ofBits_f32_eps⟩

/-- The real `169343` is not zero. -/
theorem ofBits_f32_169343_ne_zero : ∃ b : ℝ, b ≠ 0 ∧ Ideal.ofBits .f32 0x48255FC0#32 = (b : EReal) :=
  ⟨_, by norm_num, ofBits_f32_169343⟩

/-! ## Pointwise operations -/

section Pointwise
variable {s : Shape} {φ : FTy}

/-- The pointwise sum of two real arrays is real. -/
theorem allReal_addf (x y : FVec Ideal s φ) (hx : AllReal x) (hy : AllReal y) : AllReal (addf x y) :=
  fun i => IsReal.add (hx i) (hy i)

/-- The pointwise difference of two real arrays is real. -/
theorem allReal_subf (x y : FVec Ideal s φ) (hx : AllReal x) (hy : AllReal y) : AllReal (subf x y) :=
  fun i => IsReal.sub (hx i) (hy i)

/-- The pointwise product of two real arrays is real. -/
theorem allReal_mulf (x y : FVec Ideal s φ) (hx : AllReal x) (hy : AllReal y) : AllReal (mulf x y) :=
  fun i => IsReal.mul (hx i) (hy i)

/-- The pointwise maximum of two real arrays is real. -/
theorem allReal_maximumf (x y : FVec Ideal s φ) (hx : AllReal x) (hy : AllReal y) : AllReal (maximumf x y) :=
  fun i => IsReal.max (hx i) (hy i)

/-- The pointwise minimum of two real arrays is real. -/
theorem allReal_minimumf (x y : FVec Ideal s φ) (hx : AllReal x) (hy : AllReal y) : AllReal (minimumf x y) :=
  fun i => IsReal.min (hx i) (hy i)

/-- The pointwise negative of a real array is real. -/
theorem allReal_negf (x : FVec Ideal s φ) (hx : AllReal x) : AllReal (negf x) :=
  fun i => IsReal.neg (hx i)

/-- A selection between two arrays is real when each branch is real where it is taken. -/
theorem allReal_select_of (c : IVec s 1) (a b : s.Idx → EReal) (ha : ∀ i, c i = 1 → IsReal (a i))
    (hb : ∀ i, c i ≠ 1 → IsReal (b i)) : AllReal (select c a b) := by
  intro i
  show IsReal (if c i = 1 then a i else b i)
  split
  · exact ha i ‹_›
  · exact hb i ‹_›

/-- A selection between two real arrays is real. -/
theorem allReal_select (c : IVec s 1) (a b : s.Idx → EReal) (ha : AllReal a) (hb : AllReal b) :
    AllReal (select c a b) :=
  allReal_select_of c a b (fun i _ => ha i) (fun i _ => hb i)

/-- The splat of a bit pattern that denotes a real is a real array. -/
theorem allReal_constant (bits : BitVec φ.bits) (h : IsReal (Ideal.ofBits φ bits)) :
    AllReal (constant (F := Ideal) s φ bits) :=
  fun _ => h

/-- The splat of `0.0` is a real array. -/
theorem allReal_constant_zero : AllReal (constant (F := Ideal) s .f32 0x00000000#32) :=
  allReal_constant _ ⟨_, ofBits_f32_zero⟩

/-- The splat of `1.0` is a real array. -/
theorem allReal_constant_one : AllReal (constant (F := Ideal) s .f32 0x3F800000#32) :=
  allReal_constant _ ⟨_, ofBits_f32_one⟩

/-- The splat of `169343.0` is a real array. -/
theorem allReal_constant_169343 : AllReal (constant (F := Ideal) s .f32 0x48255FC0#32) :=
  allReal_constant _ ⟨_, ofBits_f32_169343⟩

/-- The splat of the single-precision neighbour of `10⁻⁵` is a real array. -/
theorem allReal_constant_eps : AllReal (constant (F := Ideal) s .f32 0x3727C5AC#32) :=
  allReal_constant _ ⟨_, ofBits_f32_eps⟩

end Pointwise

/-! ## Re-indexings: every entry of the result is an entry of the operand -/

section Layout
variable {s t : Shape}

/-- An array read through any map of indices is real when the array is. -/
theorem allReal_comp (x : s.Idx → EReal) (f : t.Idx → s.Idx) (hx : AllReal x) : AllReal (fun j => x (f j)) :=
  fun j => hx (f j)

/-- The splat of a real scalar is a real array. -/
theorem allReal_broadcast (x : EReal) (hx : IsReal x) : AllReal (broadcast t x) := fun _ => hx

/-- A broadcast along named axes of a real array is real. -/
theorem allReal_broadcastInDim (dims : Fin s.rank → Fin t.rank) (h : s.BroadcastsInDim t dims) (x : s.Idx → EReal)
    (hx : AllReal x) : AllReal (broadcastInDim t dims h x) :=
  fun j => hx _

/-- A broadcast along leading axes of a real array is real. -/
theorem allReal_broadcastTo (x : s.Idx → EReal) (h : s.Broadcasts t) (hx : AllReal x) :
    AllReal (broadcastTo t x h) :=
  fun j => hx _

/-- A reshape of a real array is real. -/
theorem allReal_shapeCast (x : s.Idx → EReal) (h : s.ShapeCasts t) (hx : AllReal x) : AllReal (shapeCast t x h) :=
  fun j => hx _

/-- A slice of a real array is real. -/
theorem allReal_extractStridedSlice (off : Fin s.rank → Nat) (x : s.Idx → EReal) (h : s.Slices off t)
    (hx : AllReal x) : AllReal (extractStridedSlice t off x h) :=
  fun j => hx _

/-- A transpose of a real array is real. -/
theorem allReal_transpose (perm : List (Fin s.rank)) (x : s.Idx → EReal) (h : s.Transposes perm t)
    (hx : AllReal x) : AllReal (transpose t perm x h) :=
  fun j => hx _

/-- A gather from a real array is real, whatever the start indices: each result entry is the operand's entry at
    the (clamped) operand index. -/
theorem allReal_gather {si : Shape} {w : Nat} (d : GatherDims s si t) (x : s.Idx → EReal) (idx : IVec si w)
    (hx : AllReal x) : AllReal (Host.gather d x idx) :=
  fun j => hx _

end Layout

/-! ## Finite sums: scatter-add, sum-reduction, matrix product -/

section Sums

/-- The exact scatter-add into a real array of a real array of updates is real, whatever the indices: each entry
    is the operand's plus the finite sum of the updates that land on it. -/
theorem allReal_scatterAdd {s si u : Shape} {φ : FTy} {w : Nat} (d : ScatterDims s si u) (x : FVec Ideal s φ)
    (idx : IVec si w) (upd : FVec Ideal u φ) (hx : AllReal x) (hu : AllReal upd) :
    AllReal (Host.scatterAdd d x idx upd) := by
  intro i
  show IsReal (x i + ∑ j ∈ Finset.univ.filter (fun j => d.resultIdx? j idx = some i), upd j)
  exact IsReal.add (hx i) (isReal_sum _ _ fun j _ => hu j)

/-- The exact sum-reduction of a real array from a real initial value is real: each entry is the initial value
    plus the finite sum of the entries that reduce to it. -/
theorem allReal_reduceAdd {s t u : Shape} {φ : FTy} {axes : List (Fin s.rank)} (x : FVec Ideal s φ)
    (init : u.Idx → Ideal φ) (h : s.ReducesTo axes t) (hu : 0 < u.numel) (hx : AllReal x) (hi : AllReal init) :
    AllReal (Host.reduceAdd x init h hu) := by
  intro j
  show IsReal (init (Shape.Idx.first hu) + ∑ i ∈ Finset.univ.filter (fun i => h.drop i = j), x i)
  exact IsReal.add (hi _) (isReal_sum _ _ fun i _ => hx i)

/-- The exact matrix product of two real arrays is real: each entry is a finite sum of products. -/
theorem allReal_dotGeneral {sl sr so : Shape} {φ₁ φ₂ : FTy} (d : DotDims sl sr so) (prec : Option ContractPrecision)
    (l : FVec Ideal sl φ₁) (r : FVec Ideal sr φ₂) (hl : AllReal l) (hr : AllReal r) :
    AllReal (Host.dotGeneral d prec l r) := by
  intro j
  show IsReal (FloatOps.dotGeneral d prec .single l r j)
  rw [Ideal.dotGeneral_apply]
  exact isReal_sum _ _ fun k _ => IsReal.mul (hl _) (hr _)

/-- The exact matrix product accumulated into a real array is real. -/
theorem allReal_matmul {sl sr so : Shape} {φ₁ φ₂ : FTy} (d : DotDims sl sr so) (prec : Option ContractPrecision)
    (l : FVec Ideal sl φ₁) (r : FVec Ideal sr φ₂) (acc : FVec Ideal so .f32) (hl : AllReal l) (hr : AllReal r)
    (ha : AllReal acc) : AllReal (FloatOps.matmul d prec l r acc) := by
  intro j
  rw [Ideal.matmul_apply]
  exact IsReal.add (ha j) (isReal_sum _ _ fun k _ => IsReal.mul (hl _) (hr _))

end Sums

/-! ## Quotient and reciprocal square root -/

section Corners
variable {s : Shape} {φ : FTy}

/-- The exact quotient of a real array by an array of nonzero reals is real. -/
theorem allReal_divf (x y : FVec Ideal s φ) (hx : AllReal x) (hy : ∀ i, ∃ b : ℝ, b ≠ 0 ∧ y i = (b : EReal)) :
    AllReal (Host.divf x y) := by
  intro i
  obtain ⟨b, hb, e⟩ := hy i
  show IsReal (Ideal.div (x i) (y i))
  rw [e]; exact IsReal.div (hx i) hb

/-- The reciprocal square root of an array of positive reals is real. -/
theorem allReal_rsqrt (x : FVec Ideal s φ) (hx : ∀ i, ∃ r : ℝ, 0 < r ∧ x i = (r : EReal)) :
    AllReal (Host.rsqrt x) := by
  intro i
  obtain ⟨r, hr, e⟩ := hx i
  show IsReal (Ideal.rsqrt (x i))
  rw [e]; exact isReal_rsqrt hr

/-- `where (d > z) (rsqrt d) w` is real for every real array `d`, when `z` is nowhere negative and `w` is real:
    the reciprocal square root is read only where `d` exceeds `z`, hence is positive; elsewhere the entry is `w`'s. -/
theorem allReal_select_ogt_rsqrt (d z w : FVec Ideal s φ) (hd : AllReal d) (hz : ∀ i, 0 ≤ z i) (hw : AllReal w) :
    AllReal (select (cmpf .ogt d z) (Host.rsqrt d) w) := by
  refine allReal_select_of _ _ _ (fun i hc => ?_) (fun i _ => hw i)
  obtain ⟨r, e⟩ := hd i
  have hlt : z i < d i := by
    have hc' : BitVec.ofBool (decide (z i < d i)) = 1#1 := hc
    by_contra hn
    rw [decide_eq_false hn] at hc'
    exact absurd hc' (by decide)
  have hr : 0 < r := by
    have : (0 : EReal) < (r : EReal) := e ▸ lt_of_le_of_lt (hz i) hlt
    exact_mod_cast this
  show IsReal (Ideal.rsqrt (d i))
  rw [e]; exact isReal_rsqrt hr

end Corners

/-! ## Real entries as real numbers; signs -/

section Values
variable {s t : Shape} {φ : FTy}

/-- A real extended real is the coercion of its real part. -/
theorem IsReal.coe_toReal {x : EReal} (h : IsReal x) : ((x.toReal : ℝ) : EReal) = x := by
  obtain ⟨r, rfl⟩ := h; rfl

/-- Each entry of a real array is the coercion of its real part: `fun i => (v i).toReal` is the array as reals. -/
theorem AllReal.coe_toReal {v : s.Idx → EReal} (h : AllReal v) (i : s.Idx) : (((v i).toReal : ℝ) : EReal) = v i :=
  IsReal.coe_toReal (h i)

/-- An array given entrywise by coerced reals is real. -/
theorem allReal_of_eq_coe {v : s.Idx → EReal} (f : s.Idx → ℝ) (h : ∀ i, v i = (f i : EReal)) : AllReal v :=
  fun i => ⟨f i, h i⟩

/-- An array equal to a real array is real. -/
theorem AllReal.congr {v v' : s.Idx → EReal} (h : AllReal v) (e : ∀ i, v' i = v i) : AllReal v' :=
  fun i => (e i).symm ▸ h i

/-- An array every entry of which is a positive real number. -/
def AllPos (v : s.Idx → EReal) : Prop := ∀ i, ∃ r : ℝ, 0 < r ∧ v i = (r : EReal)

/-- An array every entry of which is a nonnegative real number. -/
def AllNonneg (v : s.Idx → EReal) : Prop := ∀ i, ∃ r : ℝ, 0 ≤ r ∧ v i = (r : EReal)

/-- An array every entry of which is a nonzero real number. -/
def AllNonzero (v : s.Idx → EReal) : Prop := ∀ i, ∃ r : ℝ, r ≠ 0 ∧ v i = (r : EReal)

/-- Positive reals are reals. -/
theorem AllPos.allReal {v : s.Idx → EReal} (h : AllPos v) : AllReal v :=
  fun i => let ⟨r, _, e⟩ := h i; ⟨r, e⟩

/-- Nonnegative reals are reals. -/
theorem AllNonneg.allReal {v : s.Idx → EReal} (h : AllNonneg v) : AllReal v :=
  fun i => let ⟨r, _, e⟩ := h i; ⟨r, e⟩

/-- Positive reals are not zero. -/
theorem AllPos.allNonzero {v : s.Idx → EReal} (h : AllPos v) : AllNonzero v :=
  fun i => let ⟨r, hr, e⟩ := h i; ⟨r, hr.ne', e⟩

/-- Positive reals are nonnegative. -/
theorem AllPos.allNonneg {v : s.Idx → EReal} (h : AllPos v) : AllNonneg v :=
  fun i => let ⟨r, hr, e⟩ := h i; ⟨r, hr.le, e⟩

/-- A real array that is nowhere negative is an array of nonnegative reals. -/
theorem AllReal.allNonneg {v : s.Idx → EReal} (h : AllReal v) (h0 : ∀ i, 0 ≤ v i) : AllNonneg v := by
  intro i
  obtain ⟨r, e⟩ := h i
  refine ⟨r, ?_, e⟩
  have : (0 : EReal) ≤ (r : EReal) := e ▸ h0 i
  exact_mod_cast this

/-- A real array that is everywhere positive is an array of positive reals. -/
theorem AllReal.allPos {v : s.Idx → EReal} (h : AllReal v) (h0 : ∀ i, 0 < v i) : AllPos v := by
  intro i
  obtain ⟨r, e⟩ := h i
  refine ⟨r, ?_, e⟩
  have : (0 : EReal) < (r : EReal) := e ▸ h0 i
  exact_mod_cast this

/-- A nonnegative array plus a positive array is positive. -/
theorem allPos_addf (x y : FVec Ideal s φ) (hx : AllNonneg x) (hy : AllPos y) : AllPos (addf x y) := by
  intro i
  obtain ⟨a, ha, ea⟩ := hx i
  obtain ⟨b, hb, eb⟩ := hy i
  refine ⟨a + b, by positivity, ?_⟩
  show x i + y i = _
  rw [ea, eb, EReal.coe_add]

/-- The sum of two nonnegative arrays is nonnegative. -/
theorem allNonneg_addf (x y : FVec Ideal s φ) (hx : AllNonneg x) (hy : AllNonneg y) : AllNonneg (addf x y) := by
  intro i
  obtain ⟨a, ha, ea⟩ := hx i
  obtain ⟨b, hb, eb⟩ := hy i
  refine ⟨a + b, by positivity, ?_⟩
  show x i + y i = _
  rw [ea, eb, EReal.coe_add]

/-- The product of two nonnegative arrays is nonnegative. -/
theorem allNonneg_mulf (x y : FVec Ideal s φ) (hx : AllNonneg x) (hy : AllNonneg y) : AllNonneg (mulf x y) := by
  intro i
  obtain ⟨a, ha, ea⟩ := hx i
  obtain ⟨b, hb, eb⟩ := hy i
  refine ⟨a * b, by positivity, ?_⟩
  show x i * y i = _
  rw [ea, eb, EReal.coe_mul]

/-- The splat of a bit pattern that denotes a positive real is a positive array. -/
theorem allPos_constant (bits : BitVec φ.bits) (h : ∃ r : ℝ, 0 < r ∧ Ideal.ofBits φ bits = (r : EReal)) :
    AllPos (constant (F := Ideal) s φ bits) :=
  fun _ => h

/-- The splat of the single-precision neighbour of `10⁻⁵` is a positive array. -/
theorem allPos_constant_eps : AllPos (constant (F := Ideal) s .f32 0x3727C5AC#32) :=
  allPos_constant _ ofBits_f32_eps_pos

/-- The splat of `169343.0` is a positive array. -/
theorem allPos_constant_169343 : AllPos (constant (F := Ideal) s .f32 0x48255FC0#32) :=
  allPos_constant _ ⟨_, by norm_num, ofBits_f32_169343⟩

/-- The splat of `1.0` is a positive array. -/
theorem allPos_constant_one : AllPos (constant (F := Ideal) s .f32 0x3F800000#32) :=
  allPos_constant _ ⟨_, by norm_num, ofBits_f32_one⟩

/-- The splat of `0.0` is a nonnegative array. -/
theorem allNonneg_constant_zero : AllNonneg (constant (F := Ideal) s .f32 0x00000000#32) :=
  fun _ => ⟨0, le_refl _, ofBits_f32_zero⟩

/-- A positive array read through any map of indices is positive. -/
theorem allPos_comp (x : s.Idx → EReal) (f : t.Idx → s.Idx) (hx : AllPos x) : AllPos (fun j => x (f j)) :=
  fun j => hx (f j)

/-- A broadcast along named axes of a positive array is positive. -/
theorem allPos_broadcastInDim (dims : Fin s.rank → Fin t.rank) (h : s.BroadcastsInDim t dims) (x : s.Idx → EReal)
    (hx : AllPos x) : AllPos (broadcastInDim t dims h x) :=
  fun j => hx _

/-- A broadcast along named axes of a nonnegative array is nonnegative. -/
theorem allNonneg_broadcastInDim (dims : Fin s.rank → Fin t.rank) (h : s.BroadcastsInDim t dims) (x : s.Idx → EReal)
    (hx : AllNonneg x) : AllNonneg (broadcastInDim t dims h x) :=
  fun j => hx _

/-- A broadcast along named axes of a nonzero array is nonzero. -/
theorem allNonzero_broadcastInDim (dims : Fin s.rank → Fin t.rank) (h : s.BroadcastsInDim t dims) (x : s.Idx → EReal)
    (hx : AllNonzero x) : AllNonzero (broadcastInDim t dims h x) :=
  fun j => hx _

/-- The exact quotient of a real array by a nonzero array is real. -/
theorem allReal_divf_of_allNonzero (x y : FVec Ideal s φ) (hx : AllReal x) (hy : AllNonzero y) :
    AllReal (Host.divf x y) :=
  allReal_divf x y hx hy

/-- The reciprocal square root of a positive array is a positive array. -/
theorem allPos_rsqrt (x : FVec Ideal s φ) (hx : AllPos x) : AllPos (Host.rsqrt x) := by
  intro i
  obtain ⟨r, hr, e⟩ := hx i
  refine ⟨(Real.sqrt r)⁻¹, inv_pos.mpr (Real.sqrt_pos.mpr hr), ?_⟩
  show Ideal.rsqrt (x i) = _
  rw [e]; exact rsqrt_coe_of_pos hr

/-- The exact scatter-add of nonnegative updates into a nonnegative array is nonnegative. -/
theorem allNonneg_scatterAdd {si u : Shape} {w : Nat} (d : ScatterDims s si u) (x : FVec Ideal s φ)
    (idx : IVec si w) (upd : FVec Ideal u φ) (hx : AllNonneg x) (hu : AllNonneg upd) :
    AllNonneg (Host.scatterAdd d x idx upd) := by
  refine (allReal_scatterAdd d x idx upd hx.allReal hu.allReal).allNonneg fun i => ?_
  show 0 ≤ x i + ∑ j ∈ Finset.univ.filter (fun j => d.resultIdx? j idx = some i), upd j
  refine add_nonneg ?_ (Finset.sum_nonneg fun j _ => ?_)
  · obtain ⟨a, ha, ea⟩ := hx i; rw [ea]; exact_mod_cast ha
  · obtain ⟨b, hb, eb⟩ := hu j; rw [eb]; exact_mod_cast hb

/-- The in-kernel exact sum-reduction of a real array is real: each entry is a finite sum of entries. -/
theorem allReal_idealReduceAdd {axes : List (Fin s.rank)} (h : s.Reduces axes t) (x : s.Idx → EReal)
    (hx : AllReal x) : AllReal (Ideal.reduceAdd h x) :=
  fun j => isReal_sum _ _ fun i _ => hx i

end Values

/-! ## From a printed finiteness test to a real array -/

section Finite

/-- The single-precision pattern of `+inf` is `⊤`. -/
theorem ofBits_f32_inf : Ideal.ofBits .f32 0x7F800000#32 = ⊤ := by
  simp [Ideal.ofBits, Ideal.ieee]

/-- An entry whose absolute value is below some bound is a real number: a bound is at most `⊤`, and the
    absolute value of either infinity is `⊤`. -/
theorem isReal_of_cmpf_olt_absf {φ : FTy} (a b : Ideal φ) (h : FloatOps.cmpf .olt (FloatOps.hostAbsf a) b = 1#1) :
    IsReal a := by
  have hlt : max a (-a) < b := by
    have hc : BitVec.ofBool (decide (max a (-a) < b)) = 1#1 := h
    by_contra hn
    rw [decide_eq_false hn] at hc
    exact absurd hc (by decide)
  exact isReal_of_abs_lt_top (lt_of_lt_of_le hlt le_top)

/-- `all (|x| < y)`, an `and`-reduction over every axis of the pointwise test, came out true: then `x` is a
    real array (whatever the bound `y` is: the positive infinity in a finiteness test). -/
theorem allReal_of_reduce_andi_abs_lt {s t u : Shape} {φ : FTy} {axes : List (Fin s.rank)} [Subsingleton t.Idx]
    (x y : FVec Ideal s φ) (init : u.Idx → BitVec 1) (h : s.ReducesTo axes t) (hu : 0 < u.numel) (j : t.Idx)
    (e : Host.reduce IntOp.andi (cmpf .olt (Host.absf x) y) init h hu j = 1#1) : AllReal x :=
  fun i => isReal_of_cmpf_olt_absf (x i) (y i) (Host.reduce_andi_all _ init h hu j e i)

end Finite

end Cert.Lib.AllReal

end
-- ==== Proof.Algebra.lean ====
/-
  The real-number facts about one attention edge and one node's normalised sum.

  Every quantity of the specification is built from the inputs by sums, products, a square root of a sum of
  squares, a quotient by a positive number, minima, maxima and the exponential. On real inputs each of these
  stays real (none is an infinity), and an edge weight, being an exponential of a real, is a positive real.
  The last theorem is the cancellation the closed form rests on: when every edge of a node carries the same
  positive real weight `A` and the same real feature `C`, the weighted sum `k·A·C` over the weight sum `k·A`
  is `C`, for every number `k ≥ 1` of edges and whatever `A` is.
-/
import proofs.«157317_j77704548319854_2_alg».proof.Proof.Spec
import proofs.«157317_j77704548319854_2_alg».proof.Proof.LibAllReal
import Idealize.ShloMosaic.PureOps.Ideal.Laws

noncomputable section

open scoped BigOperators

namespace Cert.Attn

open Idealize.ShloMosaic Cert.Lib.AllReal

/-! ## The constants are real numbers -/

/-- The pattern of `0.0` is zero. -/
theorem c0_eq : c0 = 0 := Ideal.ofBits_zero_f32

/-- The pattern of `1.0` is one. -/
theorem c1_eq : c1 = ((1 : ℝ) : EReal) := ofBits_f32_one

/-- The single-precision neighbour of `10⁻⁷` is `14073749 · 2⁻⁴⁷`. -/
theorem cEps_eq : cEps = ((14073749 * (2 ^ 47)⁻¹ : ℝ) : EReal) := by
  simp [cEps, Ideal.ofBits, Ideal.ieee]

/-- The single-precision neighbour of `10⁻²` is `10737418 · 2⁻³⁰`. -/
theorem cSlope_eq : cSlope = ((10737418 * (2 ^ 30)⁻¹ : ℝ) : EReal) := by
  simp [cSlope, Ideal.ofBits, Ideal.ieee]

/-- The single-precision neighbour of `10⁻¹²` is `9223372 · 2⁻⁶³`. -/
theorem cTiny_eq : cTiny = ((9223372 * (2 ^ 63)⁻¹ : ℝ) : EReal) := by
  simp [cTiny, Ideal.ofBits, Ideal.ieee]

/-- The pattern of `80.0` is `10485760 · 2⁻¹⁷`. -/
theorem c80_eq : c80 = ((10485760 * (2 ^ 17)⁻¹ : ℝ) : EReal) := by
  simp [c80, Ideal.ofBits, Ideal.ieee]

theorem c0_isReal : IsReal c0 := c0_eq ▸ isReal_zero
theorem c1_isReal : IsReal c1 := ⟨_, c1_eq⟩
theorem cEps_isReal : IsReal cEps := ⟨_, cEps_eq⟩
theorem cSlope_isReal : IsReal cSlope := ⟨_, cSlope_eq⟩
theorem cTiny_isReal : IsReal cTiny := ⟨_, cTiny_eq⟩
theorem c80_isReal : IsReal c80 := ⟨_, c80_eq⟩

/-- The small constant added to the norm is a positive real. -/
theorem cEps_pos : ∃ r : ℝ, 0 < r ∧ cEps = (r : EReal) := ⟨_, by positivity, cEps_eq⟩

/-! ## The rescaled row and the two layers -/

/-- The sum of the squares of a real row is a nonnegative real. -/
theorem ssq_nonneg {ρ : Fin 64 → EReal} (hρ : ∀ k, IsReal (ρ k)) : ∃ r : ℝ, 0 ≤ r ∧ ssq ρ = (r : EReal) := by
  obtain ⟨r, e⟩ : IsReal (ssq ρ) := isReal_sum _ _ fun k _ => (hρ k).mul (hρ k)
  refine ⟨r, ?_, e⟩
  have h0 : (0 : EReal) ≤ ssq ρ := Finset.sum_nonneg fun k _ => by
    obtain ⟨a, ea⟩ := hρ k
    rw [ea, ← EReal.coe_mul]
    exact_mod_cast mul_self_nonneg a
  rw [e] at h0
  exact_mod_cast h0

/-- The rescaling factor of a real row is real: the norm plus the small constant is a positive real, so its
    reciprocal is real, and the lesser of it and one is one of the two. -/
theorem scale_isReal {ρ : Fin 64 → EReal} (hρ : ∀ k, IsReal (ρ k)) : IsReal (scale ρ) := by
  obtain ⟨r, hr, e⟩ := ssq_nonneg hρ
  obtain ⟨ε, hε, eε⟩ := cEps_pos
  unfold scale
  rw [e, Ideal.sqrt_coe, if_neg (not_lt.mpr hr), eε, ← EReal.coe_add]
  exact IsReal.min c1_isReal (IsReal.div c1_isReal (by positivity))

/-- The rescaled real row is real. -/
theorem hid_isReal {ρ : Fin 64 → EReal} (hρ : ∀ k, IsReal (ρ k)) (k : Fin 64) : IsReal (hid ρ k) :=
  (hρ k).mul (scale_isReal hρ)

/-- The dense layer of real weights and a real bias on a real row is real. -/
theorem crow_isReal {W : Fin 64 → Fin 64 → EReal} {b ρ : Fin 64 → EReal} (hW : ∀ k q, IsReal (W k q))
    (hb : ∀ q, IsReal (b q)) (hρ : ∀ k, IsReal (ρ k)) (q : Fin 64) : IsReal (crow W b ρ q) :=
  IsReal.add (isReal_sum _ _ fun k _ => (hid_isReal hρ k).mul (hW k q)) (hb q)

/-- The score of real weights and real biases on a real row is real. -/
theorem srow_isReal {W : Fin 64 → Fin 64 → EReal} {b w2 ρ : Fin 64 → EReal} {b2 : EReal}
    (hW : ∀ k q, IsReal (W k q)) (hb : ∀ q, IsReal (b q)) (hw2 : ∀ q, IsReal (w2 q)) (hb2 : IsReal b2)
    (hρ : ∀ k, IsReal (ρ k)) : IsReal (srow W b w2 b2 ρ) :=
  IsReal.add (isReal_sum _ _ fun q _ => (crow_isReal hW hb hρ q).mul (hw2 q)) hb2

/-! ## The edge weight is a positive real -/

/-- The leaky rectification of a real is real: it is the number or a real multiple of it. -/
theorem lreluGt_isReal {s : EReal} (hs : IsReal s) : IsReal (lreluGt s) := by
  unfold lreluGt
  split
  · exact hs
  · exact cSlope_isReal.mul hs

/-- The leaky rectification of a real is real: it is the number or a real multiple of it. -/
theorem lreluGe_isReal {s : EReal} (hs : IsReal s) : IsReal (lreluGe s) := by
  unfold lreluGe
  split
  · exact hs
  · exact cSlope_isReal.mul hs

/-- The capped edge weight of a real score is the exponential of a real, a positive real. -/
theorem wCap_pos {s : EReal} (hs : IsReal s) : ∃ a : ℝ, 0 < a ∧ wCap s = (a : EReal) := by
  obtain ⟨r, e⟩ : IsReal (min (c0 - lreluGt s) c80) :=
    IsReal.min (c0_isReal.sub (lreluGt_isReal hs)) c80_isReal
  refine ⟨Real.exp r, Real.exp_pos r, ?_⟩
  unfold wCap
  rw [e, Ideal.exp_coe]

/-- The uncapped edge weight of a real score is the exponential of a real, a positive real. -/
theorem wPlain_pos {s : EReal} (hs : IsReal s) : ∃ a : ℝ, 0 < a ∧ wPlain s = (a : EReal) := by
  obtain ⟨r, e⟩ : IsReal (-(lreluGe s)) := (lreluGe_isReal hs).neg
  refine ⟨Real.exp r, Real.exp_pos r, ?_⟩
  unfold wPlain
  rw [e, Ideal.exp_coe]

/-! ## One node: equal weights cancel -/

/-- The sum of `k` copies of a real `a` is the real `k · a`. -/
theorem sum_const_coe {ι : Type} (S : Finset ι) (a : ℝ) :
    (∑ _e ∈ S, (a : EReal)) = (((S.card : ℝ) * a : ℝ) : EReal) := by
  classical
  induction S using Finset.induction_on with
  | empty => simp
  | insert x S hx ih =>
    rw [Finset.sum_insert hx, ih, Finset.card_insert_of_notMem hx, ← EReal.coe_add]
    congr 1
    push_cast
    ring

/-- every edge of a node carries the same positive real weight A and the same real feature C: the weighted sum
    over the weight sum is C, whatever A is -/
theorem node_closed {ι : Type} (S : Finset ι) (A C : EReal) (hA : ∃ a : ℝ, 0 < a ∧ A = (a : EReal))
    (hC : IsReal C) :
    nodeOut (c0 + ∑ _e ∈ S, A) (c0 + ∑ _e ∈ S, A * C)
      = if S.Nonempty then max C c0 else nodeOut (c0 + 0) (c0 + 0) := by
  obtain ⟨a, ha, rfl⟩ := hA
  obtain ⟨c, rfl⟩ := hC
  by_cases hS : S.Nonempty
  · have hk : (0 : ℝ) < (S.card : ℝ) := by exact_mod_cast hS.card_pos
    have hden : (S.card : ℝ) * a ≠ 0 := (mul_pos hk ha).ne'
    have hden' : (((S.card : ℝ) * a : ℝ) : EReal) ≠ 0 := by exact_mod_cast hden
    have hne : ¬ Ideal.cmp .oeq (((S.card : ℝ) * a : ℝ) : EReal) 0 = 1#1 := by
      show ¬ BitVec.ofBool (decide ((((S.card : ℝ) * a : ℝ) : EReal) = 0)) = 1#1
      rw [decide_eq_false hden']
      decide
    rw [if_pos hS, ← EReal.coe_mul, sum_const_coe, sum_const_coe]
    unfold nodeOut
    rw [c0_eq, zero_add, zero_add, if_neg hne, Ideal.div_coe hden, ← EReal.coe_mul]
    congr 2
    field_simp
  · rw [if_neg hS, Finset.not_nonempty_iff_eq_empty.mp hS, Finset.sum_empty, Finset.sum_empty]

end Cert.Attn

end
-- ==== Proof.KerClosed.lean ====
/-
  The kernel program's result in closed form. Output feature `j` of node `n` is the quotient of two sums over the node's
  edges. Every edge of the node gathered the node's own embedding row, so every edge carries the same capped weight `A`
  (a positive real, the arguments being real) and the same dense-layer feature `C` (a real); the quotient of `∑ A·C` by
  `∑ A` is `C`, and the result is `max C 0`. A node with no edge gets the quotient of two empty sums.
-/
import proofs.«157317_j77704548319854_2_alg».proof.Proof.KerArray
import proofs.«157317_j77704548319854_2_alg».proof.Proof.KerRead
import proofs.«157317_j77704548319854_2_alg».proof.Proof.Algebra

noncomputable section

open scoped BigOperators

namespace Cert.KerClosed

open Idealize.ShloMosaic Idealize.ShloMosaic.ValueIdx
open Cert.KernelIdeal Cert.Attn Cert.KerArray Cert.Lib.AllReal

variable [Cert.KernelIdeal.Facts]

/-- The region's result as a function of the program's arguments. -/
abbrev combArgsK (a0 : IVec S1600000x3 32) (a1 : FVec Ideal S100000x64 .f32) (a2 : FVec Ideal S64x64 .f32) (a3 : FVec Ideal S64 .f32)
    (a4 : FVec Ideal S1x64 .f32) (a5 : FVec Ideal S1 .f32) : S1600000x65.Idx → EReal :=
  comb (Cert.KerStage.rows a0 a1) (Cert.KerStage.wT a2) (Cert.KerStage.bRow a3) a4 (Cert.KerStage.b2 a5)

/-- Column 0 of an edge's row is the edge's capped weight. -/
theorem comb_col0 (X : S1600000x64.Idx → EReal) (Wm : S64x64.Idx → EReal) (b w2 : S1x64.Idx → EReal) (bb : S1x1.Idx → EReal)
    (e : Fin 1600000) :
    comb X Wm b w2 bb (ix2 e (0 : Fin 65))
      = wCap (srow (fun k q => Wm (ix2 k q)) (fun q => b (ix2 (0 : Fin 1) q)) (fun q => w2 (ix2 (0 : Fin 1) q))
          (bb (ix2 (0 : Fin 1) (0 : Fin 1))) (fun k => X (ix2 e k))) := by
  unfold comb
  rw [dif_pos (show ((ix2 e (0 : Fin 65) : S1600000x65.Idx) 1).val = 0 from rfl)]

/-- Column `j + 1` is that weight times the edge's feature `j`. -/
theorem comb_colj (X : S1600000x64.Idx → EReal) (Wm : S64x64.Idx → EReal) (b w2 : S1x64.Idx → EReal) (bb : S1x1.Idx → EReal)
    (e : Fin 1600000) (j : Fin 64) :
    comb X Wm b w2 bb (ix2 e (⟨j.val + 1, by omega⟩ : Fin 65))
      = wCap (srow (fun k q => Wm (ix2 k q)) (fun q => b (ix2 (0 : Fin 1) q)) (fun q => w2 (ix2 (0 : Fin 1) q))
          (bb (ix2 (0 : Fin 1) (0 : Fin 1))) (fun k => X (ix2 e k)))
        * crow (fun k q => Wm (ix2 k q)) (fun q => b (ix2 (0 : Fin 1) q)) (fun k => X (ix2 e k)) j := by
  unfold comb
  rw [dif_neg (show ¬ ((ix2 e (⟨j.val + 1, by omega⟩ : Fin 65) : S1600000x65.Idx) 1).val = 0 from Nat.succ_ne_zero _)]
  have hj : (⟨((ix2 e (⟨j.val + 1, by omega⟩ : Fin 65) : S1600000x65.Idx) 1).val - 1, by
      show j.val + 1 - 1 < 64
      omega⟩ : Fin 64) = j := Fin.ext (by show j.val + 1 - 1 = j.val; omega)
  rw [hj]

/-- A node whose edges all carry the weight `A` in column 0 and `A · C` in column `j + 1`: the quotient of the sums. -/
theorem closed_of (S : Finset (Fin 1600000)) (combF : S1600000x65.Idx → EReal) (j : Fin 64) (A C : EReal)
    (h0 : ∀ e ∈ S, combF (ix2 e (0 : Fin 65)) = A)
    (hj : ∀ e ∈ S, combF (ix2 e (⟨j.val + 1, by omega⟩ : Fin 65)) = A * C)
    (hA : ∃ a : ℝ, 0 < a ∧ A = (a : EReal)) (hC : IsReal C) :
    nodeOut (c0 + ∑ e ∈ S, combF (ix2 e (0 : Fin 65))) (c0 + ∑ e ∈ S, combF (ix2 e (⟨j.val + 1, by omega⟩ : Fin 65)))
      = if S.Nonempty then max C c0 else nodeOut (c0 + 0) (c0 + 0) := by
  rw [Finset.sum_congr rfl h0, Finset.sum_congr rfl hj]
  exact node_closed S A C hA hC

section Args

variable (a0 : IVec S1600000x3 32) (a1 : FVec Ideal S100000x64 .f32) (a2 : FVec Ideal S64x64 .f32)
  (a3 : FVec Ideal S64 .f32) (a4 : FVec Ideal S1x64 .f32) (a5 : FVec Ideal S1 .f32)

/-- The weight every edge of node `n` carries. -/
abbrev wNode (n : Fin 100000) : EReal :=
  wCap (srow (fun k q => a2 (ix2 q k)) (fun q => a3 (ix1 q)) (fun q => a4 (ix2 (0 : Fin 1) q)) (a5 (ix1 (0 : Fin 1)))
    (fun k => a1 (ix2 n k)))

/-- The operands the region reads, as functions of the arguments, read at an index. -/
theorem operands_eq :
    (fun (k q : Fin 64) => Cert.KerStage.wT a2 (ix2 k q)) = (fun k q => a2 (ix2 q k))
    ∧ (fun q : Fin 64 => Cert.KerStage.bRow a3 (ix2 (0 : Fin 1) q)) = (fun q => a3 (ix1 q))
    ∧ Cert.KerStage.b2 a5 (ix2 (0 : Fin 1) (0 : Fin 1)) = a5 (ix1 (0 : Fin 1)) :=
  ⟨funext fun k => funext fun q => Cert.KerRead.wT_apply a2 k q, funext (Cert.KerRead.bRow_apply a3), Cert.KerRead.b2_apply a5⟩

/-- An edge of node `n` gathered the node's own row. -/
theorem row_eq (n : Fin 100000) (e : Fin 1600000) (he : e ∈ edgesOf a0 n) :
    (fun k : Fin 64 => Cert.KerStage.rows a0 a1 (ix2 e k)) = fun k => a1 (ix2 n k) :=
  funext fun k => Cert.KerRead.rows_apply_of a0 a1 e n (Finset.mem_filter.mp he).2 k

/-- Column 0 of an edge of node `n`. -/
theorem edge_col0 (n : Fin 100000) (e : Fin 1600000) (he : e ∈ edgesOf a0 n) :
    combArgsK a0 a1 a2 a3 a4 a5 (ix2 e (0 : Fin 65)) = wNode a1 a2 a3 a4 a5 n := by
  obtain ⟨hW, hb, hb2⟩ := operands_eq a2 a3 a5
  refine (comb_col0 _ _ _ _ _ e).trans ?_
  rw [row_eq a0 a1 n e he, hW, hb, hb2]

/-- Column `j + 1` of an edge of node `n`. -/
theorem edge_colj (n : Fin 100000) (j : Fin 64) (e : Fin 1600000) (he : e ∈ edgesOf a0 n) :
    combArgsK a0 a1 a2 a3 a4 a5 (ix2 e (⟨j.val + 1, by omega⟩ : Fin 65))
      = wNode a1 a2 a3 a4 a5 n * crow (fun k q => a2 (ix2 q k)) (fun q => a3 (ix1 q)) (fun k => a1 (ix2 n k)) j := by
  obtain ⟨hW, hb, hb2⟩ := operands_eq a2 a3 a5
  refine (comb_colj _ _ _ _ _ e j).trans ?_
  rw [row_eq a0 a1 n e he, hW, hb, hb2]

/-- THE KERNEL PROGRAM'S RESULT IN CLOSED FORM, for real arguments. -/
theorem ker_closed (h1 : AllReal a1) (h2 : AllReal a2) (h3 : AllReal a3) (h4 : AllReal a4) (h5 : AllReal a5)
    (n : Fin 100000) (j : Fin 64) :
    Cert.KerStage.tail a0 (combArgsK a0 a1 a2 a3 a4 a5) (ix2 n j)
      = closed a0 a1 (fun k q => a2 (ix2 q k)) (fun q => a3 (ix1 q)) n j := by
  have hWr : ∀ k q : Fin 64, IsReal (a2 (ix2 q k)) := fun k q => h2 _
  have hbr : ∀ q : Fin 64, IsReal (a3 (ix1 q)) := fun q => h3 _
  have hw2r : ∀ q : Fin 64, IsReal (a4 (ix2 (0 : Fin 1) q)) := fun q => h4 _
  have hρr : ∀ k : Fin 64, IsReal (a1 (ix2 n k)) := fun k => h1 _
  refine (Cert.KerRead.tail_apply a0 (combArgsK a0 a1 a2 a3 a4 a5) n j).trans ?_
  exact closed_of (edgesOf a0 n) (combArgsK a0 a1 a2 a3 a4 a5) j (wNode a1 a2 a3 a4 a5 n) _
    (edge_col0 a0 a1 a2 a3 a4 a5 n) (edge_colj a0 a1 a2 a3 a4 a5 n j)
    (wCap_pos (srow_isReal hWr hbr hw2r (h5 _) hρr)) (crow_isReal hWr hbr hρr j)

end Args

end Cert.KerClosed

end
-- ==== Proof.RefStages.lean ====
/-
  The reference program's host operations, grouped into stages: each stage is the composite of a few consecutive
  operations as one function of the stage's inputs. Source ids `src`; the gather's start indices `gidx` (a negative id
  wrapped by the table's height); the gathered rows `rows`; the rescaled rows `hid`; the dense layer `cmat`; the
  scores `svec`; the edge weights `eb`; the two segment sums `ebs`, `hs`; the normalised, rectified output `fin`;
  and the whole program `out`.
-/
import proofs.«157317_j77704548319854_2_alg».proof.ReferenceIdeal
import Idealize.ShloMosaic.PureOps.Ideal

noncomputable section

namespace Cert.RefStage

open Idealize.ShloMosaic
open Cert.ReferenceIdeal Cert.ReferenceIdeal.Facts₀

variable [Cert.ReferenceIdeal.Facts]

/-- Integer and float arrays of a shape, at the exact instance. -/
abbrev I32 (s : Shape) := IVec s 32
abbrev F32 (s : Shape) := FVec Ideal s .f32

/-- The scalar float constant of a bit pattern, broadcast to a shape. -/
abbrev splat (t : Shape) (h : S_.BroadcastsInDim t (![] : Fin 0 → Fin t.rank)) (bits : BitVec 32) : F32 t :=
  broadcastInDim t ![] h (constant (F := Ideal) S_ .f32 bits)

/-- The source id of every edge: column 0 of the triplets. -/
def src (a0 : I32 S1600000x3) : I32 S1600000 :=
  shapeCast S1600000 (extractStridedSlice S1600000x1 ![0, 0] a0 slices_S1600000x3_S1600000x1_0_0) shapeCasts_S1600000x1_S1600000

/-- The gather's start indices: a negative id has the table's height added. -/
def gidx (a0 : I32 S1600000x3) : I32 S1600000x1 :=
  broadcastInDim S1600000x1 ![0] bcast_S1600000_S1600000x1_0
    (select (cmpi .slt (src a0) (broadcastInDim S1600000 ![] bcast_S_S1600000 (constantI S_ 32 0#32)))
      (addi (src a0) (broadcastInDim S1600000 ![] bcast_S_S1600000 (constantI S_ 32 100000#32)))
      (src a0))

/-- The gathered embedding rows, one per edge. -/
def rows (a0 : I32 S1600000x3) (a1 : F32 S100000x64) : F32 S1600000x64 :=
  Host.gather gather_S100000x64_S1600000x1_S1600000x64_1_0_n_n_0_1_164 a1 (gidx a0)

/-- Each row's norm, as a column. -/
def nrm (x : F32 S1600000x64) : F32 S1600000x1 :=
  Host.sqrt (broadcastInDim S1600000x1 ![0] bcast_S1600000_S1600000x1_0
    (Host.reduceAdd (mulf x x) (constant (F := Ideal) S_ .f32 0x00000000#32) reducesTo_S1600000x64_S1600000_d1 h_S_))

/-- The rows rescaled to norm at most one. -/
def hid (x : F32 S1600000x64) : F32 S1600000x64 :=
  mulf x (broadcastInDim S1600000x64 ![0, 1] bcast_S1600000x1_S1600000x64_0_1
    (minimumf (splat S1600000x1 bcast_S_S1600000x1 0x3F800000#32)
      (Host.divf (splat S1600000x1 bcast_S_S1600000x1 0x3F800000#32)
        (addf (nrm x) (splat S1600000x1 bcast_S_S1600000x1 0x33D6BF95#32)))))

/-- The dense layer on every rescaled row. -/
def cmat (x : F32 S1600000x64) (a2 : F32 S64x64) (a3 : F32 S64) : F32 S1600000x64 :=
  addf (Host.dotGeneral dot_S1600000x64_S64x64_S1600000x64_1_0_0_1_n_n none (hid x)
      (transpose S64x64 [1, 0] a2 transposes_S64x64_S64x64_1_0))
    (broadcastInDim S1600000x64 ![0, 1] bcast_S1x64_S1600000x64_0_1 (broadcastInDim S1x64 ![1] bcast_S64_S1x64_1 a3))

/-- The score of every edge. -/
def svec (cm : F32 S1600000x64) (a4 : F32 S1x64) (a5 : F32 S1) : F32 S1600000x1 :=
  addf (Host.dotGeneral dot_S1600000x64_S64x1_S1600000x1_1_0_0_1_n_n none cm
      (transpose S64x1 [1, 0] a4 transposes_S1x64_S64x1_1_0))
    (broadcastInDim S1600000x1 ![0, 1] bcast_S1x1_S1600000x1_0_1 (broadcastInDim S1x1 ![1] bcast_S1_S1x1_1 a5))

/-- The weight of every edge: `exp` of minus the leaky rectification of its score. -/
def eb (s : F32 S1600000x1) : F32 S1600000x1 :=
  Host.exp (Host.negf (select (cmpf .oge s (splat S1600000x1 bcast_S_S1600000x1 0x00000000#32)) s
    (mulf (splat S1600000x1 bcast_S_S1600000x1 0x3C23D70A#32) s)))

/-- The scatter indices: the source ids as a column. -/
def sidx (a0 : I32 S1600000x3) : I32 S1600000x1 :=
  broadcastInDim S1600000x1 ![0] bcast_S1600000_S1600000x1_0 (src a0)

/-- Per node, the sum of its edges' weights. -/
def ebs (a0 : I32 S1600000x3) (e : F32 S1600000x1) : F32 S100000x1 :=
  Host.scatterAdd scatter_S100000x1_S1600000x1_S1600000x1_1_0_0_1 (splat S100000x1 bcast_S_S100000x1 0x00000000#32) (sidx a0) e

/-- Per node, the weighted sum of its edges' features. -/
def hs (a0 : I32 S1600000x3) (e : F32 S1600000x1) (cm : F32 S1600000x64) : F32 S100000x64 :=
  Host.scatterAdd scatter_S100000x64_S1600000x1_S1600000x64_1_0_0_1 (splat S100000x64 bcast_S_S100000x64 0x00000000#32) (sidx a0)
    (mulf (broadcastInDim S1600000x64 ![0, 1] bcast_S1600000x1_S1600000x64_0_1 e) cm)

/-- The weighted sums divided by the sums of weights (a zero sum replaced by the tiny constant), capped below at zero. -/
def fin (den : F32 S100000x1) (num : F32 S100000x64) : F32 S100000x64 :=
  maximumf (Host.divf num (broadcastInDim S100000x64 ![0, 1] bcast_S100000x1_S100000x64_0_1
      (select (cmpf .oeq den (splat S100000x1 bcast_S_S100000x1 0x00000000#32))
        (broadcastInDim S100000x1 ![] bcast_S_S100000x1 (id (constant (F := Ideal) S_ .f32 0x2B8CBCCC#32)))
        den)))
    (splat S100000x64 bcast_S_S100000x64 0x00000000#32)

/-- The whole program's result as one function of its six arguments. -/
def out (a0 : I32 S1600000x3) (a1 : F32 S100000x64) (a2 : F32 S64x64) (a3 : F32 S64) (a4 : F32 S1x64) (a5 : F32 S1) :
    F32 S100000x64 :=
  fin (ebs a0 (eb (svec (cmat (rows a0 a1) a2 a3) a4 a5)))
    (hs a0 (eb (svec (cmat (rows a0 a1) a2 a3) a4 a5)) (cmat (rows a0 a1) a2 a3))

end Cert.RefStage

end
-- ==== Proof.RefRun.lean ====
/-
  The reference program's run.

  The reference is a host program with no kernel: its @main is a straight line of array operations, four of them
  calls of functions defined beside it (the row norm; the leaky rectification, which itself calls a three-way
  selection; a selection with a scalar second operand; the rectification). A call means the callee's body on the
  operands, so @main is the line of its own operations with each callee's operations in the place of its call, over
  the buffers that call names: sixty-eight operations in all (`ops`, `main_eq`).

  A straight line of operations run from any memory with zero counters terminates, and leaves in every buffer what
  the operations, applied in order to the launch contents, compute for it (`run_main`). What they compute is read
  stretch by stretch: the line is cut into six stretches at the boundaries of the reference's stages, each stretch's
  result is its stage's function of what ANY contents hold in the buffers the stretch reads, the few buffers that
  live across a stretch are kept by it, and the stretches compose. At the result buffer that gives the composite
  `Cert.RefStage.out` of the six argument arrays (`out_eq`); no operation writes an argument buffer, so each argument
  array ends as it began (`arg0_eq` … `arg5_eq`). `run` states the two together.
-/
import proofs.«157317_j77704548319854_2_alg».proof.Proof.Gen.ReferenceIdeal
import proofs.«157317_j77704548319854_2_alg».proof.Proof.RefStages
import proofs.«157317_j77704548319854_2_alg».proof.Proof.LibStages
import Idealize.ShloMosaic.Lib.StableHlo.Run
import Idealize.ShloMosaic.PureOps.Ideal

noncomputable section

namespace Cert.RefRun

open Cert.ReferenceIdeal Cert.ReferenceIdeal.Gen Idealize.ShloMosaic Idealize.ShloMosaic.TcCoe Idealize.SL.Sem
  Idealize.ShloMosaic.StableHlo

/-- @main's sixty-eight operations in order, the calls unfolded: eleven of its own (the source ids, the gather's start
    indices, the gathered rows); the row norm's five (the squares, the zero, their sum along each row, the sum as a
    column, its square root) on the first call's buffers; twenty-one of its own (the rescaling, the dense layer,
    the scores); the leaky rectification's seven on the second call's buffers (the zero and its broadcast, the
    comparison, the slope and its broadcast, the product, and the selection its own callee makes); sixteen of its
    own (the weights, the two segment sums, the test for an empty segment, the tiny constant); the selection's three
    on the third call's buffers (the scalar as itself, its broadcast, the selection); two of its own (the broadcast
    of the denominators, the quotient); the rectification's three on the fourth call's buffers (the zero, its
    broadcast, the maximum). A callee's operation is written as the operation it is on the buffers its call names: the
    callee's body states it over references that carry their array type, which at these buffers is the buffers' own. -/
abbrev ops : List (HloOp τ sig (Elt Ideal)) :=
  [ StableHlo.unary main_arg0 main_v0 ((extractStridedSlice S1600000x1 ![0, 0] · slices_S1600000x3_S1600000x1_0_0) : (⟨S1600000x3, .i32⟩ : BufTy).Contents (Elt Ideal) → (⟨S1600000x1, .i32⟩ : BufTy).Contents (Elt Ideal)),
    StableHlo.reshape main_v0 main_v1 rfl shapeCasts_S1600000x1_S1600000,
    StableHlo.nullary main_c (constantI S_ 32 0#32),
    StableHlo.unary main_c main_v2 (broadcastInDim S1600000 ![] bcast_S_S1600000 : (⟨S_, .i32⟩ : BufTy).Contents (Elt Ideal) → (⟨S1600000, .i32⟩ : BufTy).Contents (Elt Ideal)),
    StableHlo.binary main_v1 main_v2 main_v3 (cmpi .slt : (⟨S1600000, .i32⟩ : BufTy).Contents (Elt Ideal) → (⟨S1600000, .i32⟩ : BufTy).Contents (Elt Ideal) → (⟨S1600000, .i1⟩ : BufTy).Contents (Elt Ideal)),
    StableHlo.nullary main_c_0 (constantI S_ 32 100000#32),
    StableHlo.unary main_c_0 main_v4 (broadcastInDim S1600000 ![] bcast_S_S1600000 : (⟨S_, .i32⟩ : BufTy).Contents (Elt Ideal) → (⟨S1600000, .i32⟩ : BufTy).Contents (Elt Ideal)),
    StableHlo.binary main_v1 main_v4 main_v5 (addi : (⟨S1600000, .i32⟩ : BufTy).Contents (Elt Ideal) → (⟨S1600000, .i32⟩ : BufTy).Contents (Elt Ideal) → (⟨S1600000, .i32⟩ : BufTy).Contents (Elt Ideal)),
    StableHlo.ternary main_v3 main_v5 main_v1 main_v6 (select : (⟨S1600000, .i1⟩ : BufTy).Contents (Elt Ideal) → (⟨S1600000, .i32⟩ : BufTy).Contents (Elt Ideal) → (⟨S1600000, .i32⟩ : BufTy).Contents (Elt Ideal) → (⟨S1600000, .i32⟩ : BufTy).Contents (Elt Ideal)),
    StableHlo.unary main_v6 main_v7 (broadcastInDim S1600000x1 ![0] bcast_S1600000_S1600000x1_0 : (⟨S1600000, .i32⟩ : BufTy).Contents (Elt Ideal) → (⟨S1600000x1, .i32⟩ : BufTy).Contents (Elt Ideal)),
    StableHlo.binary main_arg1 main_v7 main_v8 ((fun x i => Host.gather gather_S100000x64_S1600000x1_S1600000x64_1_0_n_n_0_1_164 x i) : (⟨S100000x64, .f32⟩ : BufTy).Contents (Elt Ideal) → (⟨S1600000x1, .i32⟩ : BufTy).Contents (Elt Ideal) → (⟨S1600000x64, .f32⟩ : BufTy).Contents (Elt Ideal)),
    StableHlo.binary main_v8 main_v8 main_call0_v0 (mulf (F := Ideal) (φ := .f32) : (⟨S1600000x64, .f32⟩ : BufTy).Contents (Elt Ideal) → (⟨S1600000x64, .f32⟩ : BufTy).Contents (Elt Ideal) → (⟨S1600000x64, .f32⟩ : BufTy).Contents (Elt Ideal)),
    StableHlo.nullary main_call0_cst (constant (F := Ideal) S_ .f32 0x00000000#32),
    StableHlo.binary main_call0_v0 main_call0_cst main_call0_v1 ((fun x v => Host.reduceAdd (F := Ideal) (φ := .f32) x v reducesTo_S1600000x64_S1600000_d1 h_S_) : (⟨S1600000x64, .f32⟩ : BufTy).Contents (Elt Ideal) → (⟨S_, .f32⟩ : BufTy).Contents (Elt Ideal) → (⟨S1600000, .f32⟩ : BufTy).Contents (Elt Ideal)),
    StableHlo.unary main_call0_v1 main_call0_v2 (broadcastInDim S1600000x1 ![0] bcast_S1600000_S1600000x1_0 : (⟨S1600000, .f32⟩ : BufTy).Contents (Elt Ideal) → (⟨S1600000x1, .f32⟩ : BufTy).Contents (Elt Ideal)),
    StableHlo.unary main_call0_v2 main_v9 (Host.sqrt (F := Ideal) (φ := .f32) : (⟨S1600000x1, .f32⟩ : BufTy).Contents (Elt Ideal) → (⟨S1600000x1, .f32⟩ : BufTy).Contents (Elt Ideal)),
    StableHlo.nullary main_cst (constant (F := Ideal) S_ .f32 0x33D6BF95#32),
    StableHlo.unary main_cst main_v10 (broadcastInDim S1600000x1 ![] bcast_S_S1600000x1 : (⟨S_, .f32⟩ : BufTy).Contents (Elt Ideal) → (⟨S1600000x1, .f32⟩ : BufTy).Contents (Elt Ideal)),
    StableHlo.binary main_v9 main_v10 main_v11 (addf (F := Ideal) (φ := .f32) : (⟨S1600000x1, .f32⟩ : BufTy).Contents (Elt Ideal) → (⟨S1600000x1, .f32⟩ : BufTy).Contents (Elt Ideal) → (⟨S1600000x1, .f32⟩ : BufTy).Contents (Elt Ideal)),
    StableHlo.nullary main_cst_1 (constant (F := Ideal) S_ .f32 0x3F800000#32),
    StableHlo.unary main_cst_1 main_v12 (broadcastInDim S1600000x1 ![] bcast_S_S1600000x1 : (⟨S_, .f32⟩ : BufTy).Contents (Elt Ideal) → (⟨S1600000x1, .f32⟩ : BufTy).Contents (Elt Ideal)),
    StableHlo.binary main_v12 main_v11 main_v13 (Host.divf (F := Ideal) (φ := .f32) : (⟨S1600000x1, .f32⟩ : BufTy).Contents (Elt Ideal) → (⟨S1600000x1, .f32⟩ : BufTy).Contents (Elt Ideal) → (⟨S1600000x1, .f32⟩ : BufTy).Contents (Elt Ideal)),
    StableHlo.nullary main_cst_2 (constant (F := Ideal) S_ .f32 0x3F800000#32),
    StableHlo.unary main_cst_2 main_v14 (broadcastInDim S1600000x1 ![] bcast_S_S1600000x1 : (⟨S_, .f32⟩ : BufTy).Contents (Elt Ideal) → (⟨S1600000x1, .f32⟩ : BufTy).Contents (Elt Ideal)),
    StableHlo.binary main_v14 main_v13 main_v15 (minimumf (F := Ideal) (φ := .f32) : (⟨S1600000x1, .f32⟩ : BufTy).Contents (Elt Ideal) → (⟨S1600000x1, .f32⟩ : BufTy).Contents (Elt Ideal) → (⟨S1600000x1, .f32⟩ : BufTy).Contents (Elt Ideal)),
    StableHlo.unary main_v15 main_v16 (broadcastInDim S1600000x64 ![0, 1] bcast_S1600000x1_S1600000x64_0_1 : (⟨S1600000x1, .f32⟩ : BufTy).Contents (Elt Ideal) → (⟨S1600000x64, .f32⟩ : BufTy).Contents (Elt Ideal)),
    StableHlo.binary main_v8 main_v16 main_v17 (mulf (F := Ideal) (φ := .f32) : (⟨S1600000x64, .f32⟩ : BufTy).Contents (Elt Ideal) → (⟨S1600000x64, .f32⟩ : BufTy).Contents (Elt Ideal) → (⟨S1600000x64, .f32⟩ : BufTy).Contents (Elt Ideal)),
    StableHlo.unary main_arg2 main_v18 ((transpose S64x64 [1, 0] · transposes_S64x64_S64x64_1_0) : (⟨S64x64, .f32⟩ : BufTy).Contents (Elt Ideal) → (⟨S64x64, .f32⟩ : BufTy).Contents (Elt Ideal)),
    StableHlo.binary main_v17 main_v18 main_v19 ((fun l r => Host.dotGeneral (F := Ideal) (φ₁ := .f32) (φ₂ := .f32) dot_S1600000x64_S64x64_S1600000x64_1_0_0_1_n_n none l r) : (⟨S1600000x64, .f32⟩ : BufTy).Contents (Elt Ideal) → (⟨S64x64, .f32⟩ : BufTy).Contents (Elt Ideal) → (⟨S1600000x64, .f32⟩ : BufTy).Contents (Elt Ideal)),
    StableHlo.unary main_arg3 main_v20 (broadcastInDim S1x64 ![1] bcast_S64_S1x64_1 : (⟨S64, .f32⟩ : BufTy).Contents (Elt Ideal) → (⟨S1x64, .f32⟩ : BufTy).Contents (Elt Ideal)),
    StableHlo.unary main_v20 main_v21 (broadcastInDim S1600000x64 ![0, 1] bcast_S1x64_S1600000x64_0_1 : (⟨S1x64, .f32⟩ : BufTy).Contents (Elt Ideal) → (⟨S1600000x64, .f32⟩ : BufTy).Contents (Elt Ideal)),
    StableHlo.binary main_v19 main_v21 main_v22 (addf (F := Ideal) (φ := .f32) : (⟨S1600000x64, .f32⟩ : BufTy).Contents (Elt Ideal) → (⟨S1600000x64, .f32⟩ : BufTy).Contents (Elt Ideal) → (⟨S1600000x64, .f32⟩ : BufTy).Contents (Elt Ideal)),
    StableHlo.unary main_arg4 main_v23 ((transpose S64x1 [1, 0] · transposes_S1x64_S64x1_1_0) : (⟨S1x64, .f32⟩ : BufTy).Contents (Elt Ideal) → (⟨S64x1, .f32⟩ : BufTy).Contents (Elt Ideal)),
    StableHlo.binary main_v22 main_v23 main_v24 ((fun l r => Host.dotGeneral (F := Ideal) (φ₁ := .f32) (φ₂ := .f32) dot_S1600000x64_S64x1_S1600000x1_1_0_0_1_n_n none l r) : (⟨S1600000x64, .f32⟩ : BufTy).Contents (Elt Ideal) → (⟨S64x1, .f32⟩ : BufTy).Contents (Elt Ideal) → (⟨S1600000x1, .f32⟩ : BufTy).Contents (Elt Ideal)),
    StableHlo.unary main_arg5 main_v25 (broadcastInDim S1x1 ![1] bcast_S1_S1x1_1 : (⟨S1, .f32⟩ : BufTy).Contents (Elt Ideal) → (⟨S1x1, .f32⟩ : BufTy).Contents (Elt Ideal)),
    StableHlo.unary main_v25 main_v26 (broadcastInDim S1600000x1 ![0, 1] bcast_S1x1_S1600000x1_0_1 : (⟨S1x1, .f32⟩ : BufTy).Contents (Elt Ideal) → (⟨S1600000x1, .f32⟩ : BufTy).Contents (Elt Ideal)),
    StableHlo.binary main_v24 main_v26 main_v27 (addf (F := Ideal) (φ := .f32) : (⟨S1600000x1, .f32⟩ : BufTy).Contents (Elt Ideal) → (⟨S1600000x1, .f32⟩ : BufTy).Contents (Elt Ideal) → (⟨S1600000x1, .f32⟩ : BufTy).Contents (Elt Ideal)),
    StableHlo.nullary main_call1_cst (constant (F := Ideal) S_ .f32 0x00000000#32),
    StableHlo.unary main_call1_cst main_call1_v0 (broadcastInDim S1600000x1 ![] bcast_S_S1600000x1 : (⟨S_, .f32⟩ : BufTy).Contents (Elt Ideal) → (⟨S1600000x1, .f32⟩ : BufTy).Contents (Elt Ideal)),
    StableHlo.binary main_v27 main_call1_v0 main_call1_v1 (cmpf (F := Ideal) (φ := .f32) .oge : (⟨S1600000x1, .f32⟩ : BufTy).Contents (Elt Ideal) → (⟨S1600000x1, .f32⟩ : BufTy).Contents (Elt Ideal) → (⟨S1600000x1, .i1⟩ : BufTy).Contents (Elt Ideal)),
    StableHlo.nullary main_call1_cst_0 (constant (F := Ideal) S_ .f32 0x3C23D70A#32),
    StableHlo.unary main_call1_cst_0 main_call1_v2 (broadcastInDim S1600000x1 ![] bcast_S_S1600000x1 : (⟨S_, .f32⟩ : BufTy).Contents (Elt Ideal) → (⟨S1600000x1, .f32⟩ : BufTy).Contents (Elt Ideal)),
    StableHlo.binary main_call1_v2 main_v27 main_call1_v3 (mulf (F := Ideal) (φ := .f32) : (⟨S1600000x1, .f32⟩ : BufTy).Contents (Elt Ideal) → (⟨S1600000x1, .f32⟩ : BufTy).Contents (Elt Ideal) → (⟨S1600000x1, .f32⟩ : BufTy).Contents (Elt Ideal)),
    StableHlo.ternary main_call1_v1 main_v27 main_call1_v3 main_v28 (select : (⟨S1600000x1, .i1⟩ : BufTy).Contents (Elt Ideal) → (⟨S1600000x1, .f32⟩ : BufTy).Contents (Elt Ideal) → (⟨S1600000x1, .f32⟩ : BufTy).Contents (Elt Ideal) → (⟨S1600000x1, .f32⟩ : BufTy).Contents (Elt Ideal)),
    StableHlo.unary main_v28 main_v29 (Host.negf (F := Ideal) (φ := .f32) : (⟨S1600000x1, .f32⟩ : BufTy).Contents (Elt Ideal) → (⟨S1600000x1, .f32⟩ : BufTy).Contents (Elt Ideal)),
    StableHlo.unary main_v29 main_v30 (Host.exp (F := Ideal) (φ := .f32) : (⟨S1600000x1, .f32⟩ : BufTy).Contents (Elt Ideal) → (⟨S1600000x1, .f32⟩ : BufTy).Contents (Elt Ideal)),
    StableHlo.nullary main_cst_3 (constant (F := Ideal) S_ .f32 0x00000000#32),
    StableHlo.unary main_cst_3 main_v31 (broadcastInDim S100000x1 ![] bcast_S_S100000x1 : (⟨S_, .f32⟩ : BufTy).Contents (Elt Ideal) → (⟨S100000x1, .f32⟩ : BufTy).Contents (Elt Ideal)),
    StableHlo.unary main_v1 main_v32 (broadcastInDim S1600000x1 ![0] bcast_S1600000_S1600000x1_0 : (⟨S1600000, .i32⟩ : BufTy).Contents (Elt Ideal) → (⟨S1600000x1, .i32⟩ : BufTy).Contents (Elt Ideal)),
    StableHlo.ternary main_v31 main_v32 main_v30 main_v33 ((fun x i u => Host.scatterAdd (F := Ideal) (φ := .f32) scatter_S100000x1_S1600000x1_S1600000x1_1_0_0_1 x i u) : (⟨S100000x1, .f32⟩ : BufTy).Contents (Elt Ideal) → (⟨S1600000x1, .i32⟩ : BufTy).Contents (Elt Ideal) → (⟨S1600000x1, .f32⟩ : BufTy).Contents (Elt Ideal) → (⟨S100000x1, .f32⟩ : BufTy).Contents (Elt Ideal)),
    StableHlo.unary main_v30 main_v34 (broadcastInDim S1600000x64 ![0, 1] bcast_S1600000x1_S1600000x64_0_1 : (⟨S1600000x1, .f32⟩ : BufTy).Contents (Elt Ideal) → (⟨S1600000x64, .f32⟩ : BufTy).Contents (Elt Ideal)),
    StableHlo.binary main_v34 main_v22 main_v35 (mulf (F := Ideal) (φ := .f32) : (⟨S1600000x64, .f32⟩ : BufTy).Contents (Elt Ideal) → (⟨S1600000x64, .f32⟩ : BufTy).Contents (Elt Ideal) → (⟨S1600000x64, .f32⟩ : BufTy).Contents (Elt Ideal)),
    StableHlo.nullary main_cst_4 (constant (F := Ideal) S_ .f32 0x00000000#32),
    StableHlo.unary main_cst_4 main_v36 (broadcastInDim S100000x64 ![] bcast_S_S100000x64 : (⟨S_, .f32⟩ : BufTy).Contents (Elt Ideal) → (⟨S100000x64, .f32⟩ : BufTy).Contents (Elt Ideal)),
    StableHlo.unary main_v1 main_v37 (broadcastInDim S1600000x1 ![0] bcast_S1600000_S1600000x1_0 : (⟨S1600000, .i32⟩ : BufTy).Contents (Elt Ideal) → (⟨S1600000x1, .i32⟩ : BufTy).Contents (Elt Ideal)),
    StableHlo.ternary main_v36 main_v37 main_v35 main_v38 ((fun x i u => Host.scatterAdd (F := Ideal) (φ := .f32) scatter_S100000x64_S1600000x1_S1600000x64_1_0_0_1 x i u) : (⟨S100000x64, .f32⟩ : BufTy).Contents (Elt Ideal) → (⟨S1600000x1, .i32⟩ : BufTy).Contents (Elt Ideal) → (⟨S1600000x64, .f32⟩ : BufTy).Contents (Elt Ideal) → (⟨S100000x64, .f32⟩ : BufTy).Contents (Elt Ideal)),
    StableHlo.nullary main_cst_5 (constant (F := Ideal) S_ .f32 0x00000000#32),
    StableHlo.unary main_cst_5 main_v39 (broadcastInDim S100000x1 ![] bcast_S_S100000x1 : (⟨S_, .f32⟩ : BufTy).Contents (Elt Ideal) → (⟨S100000x1, .f32⟩ : BufTy).Contents (Elt Ideal)),
    StableHlo.binary main_v33 main_v39 main_v40 (cmpf (F := Ideal) (φ := .f32) .oeq : (⟨S100000x1, .f32⟩ : BufTy).Contents (Elt Ideal) → (⟨S100000x1, .f32⟩ : BufTy).Contents (Elt Ideal) → (⟨S100000x1, .i1⟩ : BufTy).Contents (Elt Ideal)),
    StableHlo.nullary main_cst_6 (constant (F := Ideal) S_ .f32 0x2B8CBCCC#32),
    StableHlo.unary main_cst_6 main_call2_v0 (id : (⟨S_, .f32⟩ : BufTy).Contents (Elt Ideal) → (⟨S_, .f32⟩ : BufTy).Contents (Elt Ideal)),
    StableHlo.unary main_call2_v0 main_call2_v1 (broadcastInDim S100000x1 ![] bcast_S_S100000x1 : (⟨S_, .f32⟩ : BufTy).Contents (Elt Ideal) → (⟨S100000x1, .f32⟩ : BufTy).Contents (Elt Ideal)),
    StableHlo.ternary main_v40 main_call2_v1 main_v33 main_v41 (select : (⟨S100000x1, .i1⟩ : BufTy).Contents (Elt Ideal) → (⟨S100000x1, .f32⟩ : BufTy).Contents (Elt Ideal) → (⟨S100000x1, .f32⟩ : BufTy).Contents (Elt Ideal) → (⟨S100000x1, .f32⟩ : BufTy).Contents (Elt Ideal)),
    StableHlo.unary main_v41 main_v42 (broadcastInDim S100000x64 ![0, 1] bcast_S100000x1_S100000x64_0_1 : (⟨S100000x1, .f32⟩ : BufTy).Contents (Elt Ideal) → (⟨S100000x64, .f32⟩ : BufTy).Contents (Elt Ideal)),
    StableHlo.binary main_v38 main_v42 main_v43 (Host.divf (F := Ideal) (φ := .f32) : (⟨S100000x64, .f32⟩ : BufTy).Contents (Elt Ideal) → (⟨S100000x64, .f32⟩ : BufTy).Contents (Elt Ideal) → (⟨S100000x64, .f32⟩ : BufTy).Contents (Elt Ideal)),
    StableHlo.nullary main_call3_cst (constant (F := Ideal) S_ .f32 0x00000000#32),
    StableHlo.unary main_call3_cst main_call3_v0 (broadcastInDim S100000x64 ![] bcast_S_S100000x64 : (⟨S_, .f32⟩ : BufTy).Contents (Elt Ideal) → (⟨S100000x64, .f32⟩ : BufTy).Contents (Elt Ideal)),
    StableHlo.binary main_v43 main_call3_v0 main_v44 (maximumf (F := Ideal) (φ := .f32) : (⟨S100000x64, .f32⟩ : BufTy).Contents (Elt Ideal) → (⟨S100000x64, .f32⟩ : BufTy).Contents (Elt Ideal) → (⟨S100000x64, .f32⟩ : BufTy).Contents (Elt Ideal)) ]

set_option maxRecDepth 8192 in
set_option maxHeartbeats 1000000 in
/-- @main is that straight line: sequencing grafts the rest of the line onto the end of each callee's body, and a
    callee's operation over typed references is the plain operation on their buffers, so with the callees'
    definitions unfolded at their calls both sides are the same chain of single steps, by computation. -/
theorem main_eq (c : Dev nD) : main (F := Ideal) c = seq ops := rfl

/-- No buffer of the program is scoped to a region, and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches buffers of the compute core only. -/
theorem ops_sub : (ops : List (HloOp τ sig (Elt Ideal))).Forall fun op => op.bufs ⊆ tcRefs τ sig :=
  ⟨unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    nullary_bufs_sub .., binary_bufs_sub .., unary_bufs_sub .., unary_bufs_sub .., nullary_bufs_sub .., unary_bufs_sub ..,
    binary_bufs_sub .., nullary_bufs_sub .., unary_bufs_sub .., binary_bufs_sub .., nullary_bufs_sub .., unary_bufs_sub ..,
    binary_bufs_sub .., unary_bufs_sub .., binary_bufs_sub .., unary_bufs_sub .., binary_bufs_sub .., unary_bufs_sub ..,
    unary_bufs_sub .., binary_bufs_sub .., unary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., unary_bufs_sub .., nullary_bufs_sub .., unary_bufs_sub ..,
    unary_bufs_sub .., ternary_bufs_sub .., unary_bufs_sub .., binary_bufs_sub .., nullary_bufs_sub .., unary_bufs_sub ..,
    unary_bufs_sub .., ternary_bufs_sub .., nullary_bufs_sub .., unary_bufs_sub .., binary_bufs_sub .., nullary_bufs_sub ..,
    unary_bufs_sub .., unary_bufs_sub .., ternary_bufs_sub .., unary_bufs_sub .., binary_bufs_sub .., nullary_bufs_sub ..,
    unary_bufs_sub .., binary_bufs_sub ..⟩

/-- From any memory with zero counters, every weakly fair execution of @main terminates, and every final state has
    each buffer at what the operations, applied in order to the launch contents, leave in it. -/
theorem run_main (m : (ℓ : Loc nD τ sig) → Buf (Elt Ideal) ℓ) (ρ : Dev nD → PrngReg) :
    θ_run defs (onTc (τ := τ) (main (F := Ideal))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The line in six stretches -/

/-- The source ids, the gather's start indices and the gathered rows: operations 1 to 11. -/
def stretch1 : List (HloOp τ sig (Elt Ideal)) :=
  [ StableHlo.unary main_arg0 main_v0 ((extractStridedSlice S1600000x1 ![0, 0] · slices_S1600000x3_S1600000x1_0_0) : (⟨S1600000x3, .i32⟩ : BufTy).Contents (Elt Ideal) → (⟨S1600000x1, .i32⟩ : BufTy).Contents (Elt Ideal)),
    StableHlo.reshape main_v0 main_v1 rfl shapeCasts_S1600000x1_S1600000,
    StableHlo.nullary main_c (constantI S_ 32 0#32),
    StableHlo.unary main_c main_v2 (broadcastInDim S1600000 ![] bcast_S_S1600000 : (⟨S_, .i32⟩ : BufTy).Contents (Elt Ideal) → (⟨S1600000, .i32⟩ : BufTy).Contents (Elt Ideal)),
    StableHlo.binary main_v1 main_v2 main_v3 (cmpi .slt : (⟨S1600000, .i32⟩ : BufTy).Contents (Elt Ideal) → (⟨S1600000, .i32⟩ : BufTy).Contents (Elt Ideal) → (⟨S1600000, .i1⟩ : BufTy).Contents (Elt Ideal)),
    StableHlo.nullary main_c_0 (constantI S_ 32 100000#32),
    StableHlo.unary main_c_0 main_v4 (broadcastInDim S1600000 ![] bcast_S_S1600000 : (⟨S_, .i32⟩ : BufTy).Contents (Elt Ideal) → (⟨S1600000, .i32⟩ : BufTy).Contents (Elt Ideal)),
    StableHlo.binary main_v1 main_v4 main_v5 (addi : (⟨S1600000, .i32⟩ : BufTy).Contents (Elt Ideal) → (⟨S1600000, .i32⟩ : BufTy).Contents (Elt Ideal) → (⟨S1600000, .i32⟩ : BufTy).Contents (Elt Ideal)),
    StableHlo.ternary main_v3 main_v5 main_v1 main_v6 (select : (⟨S1600000, .i1⟩ : BufTy).Contents (Elt Ideal) → (⟨S1600000, .i32⟩ : BufTy).Contents (Elt Ideal) → (⟨S1600000, .i32⟩ : BufTy).Contents (Elt Ideal) → (⟨S1600000, .i32⟩ : BufTy).Contents (Elt Ideal)),
    StableHlo.unary main_v6 main_v7 (broadcastInDim S1600000x1 ![0] bcast_S1600000_S1600000x1_0 : (⟨S1600000, .i32⟩ : BufTy).Contents (Elt Ideal) → (⟨S1600000x1, .i32⟩ : BufTy).Contents (Elt Ideal)),
    StableHlo.binary main_arg1 main_v7 main_v8 ((fun x i => Host.gather gather_S100000x64_S1600000x1_S1600000x64_1_0_n_n_0_1_164 x i) : (⟨S100000x64, .f32⟩ : BufTy).Contents (Elt Ideal) → (⟨S1600000x1, .i32⟩ : BufTy).Contents (Elt Ideal) → (⟨S1600000x64, .f32⟩ : BufTy).Contents (Elt Ideal)) ]

/-- The row norms, the rescaling and the dense layer: operations 12 to 32. -/
def stretch2 : List (HloOp τ sig (Elt Ideal)) :=
  [ StableHlo.binary main_v8 main_v8 main_call0_v0 (mulf (F := Ideal) (φ := .f32) : (⟨S1600000x64, .f32⟩ : BufTy).Contents (Elt Ideal) → (⟨S1600000x64, .f32⟩ : BufTy).Contents (Elt Ideal) → (⟨S1600000x64, .f32⟩ : BufTy).Contents (Elt Ideal)),
    StableHlo.nullary main_call0_cst (constant (F := Ideal) S_ .f32 0x00000000#32),
    StableHlo.binary main_call0_v0 main_call0_cst main_call0_v1 ((fun x v => Host.reduceAdd (F := Ideal) (φ := .f32) x v reducesTo_S1600000x64_S1600000_d1 h_S_) : (⟨S1600000x64, .f32⟩ : BufTy).Contents (Elt Ideal) → (⟨S_, .f32⟩ : BufTy).Contents (Elt Ideal) → (⟨S1600000, .f32⟩ : BufTy).Contents (Elt Ideal)),
    StableHlo.unary main_call0_v1 main_call0_v2 (broadcastInDim S1600000x1 ![0] bcast_S1600000_S1600000x1_0 : (⟨S1600000, .f32⟩ : BufTy).Contents (Elt Ideal) → (⟨S1600000x1, .f32⟩ : BufTy).Contents (Elt Ideal)),
    StableHlo.unary main_call0_v2 main_v9 (Host.sqrt (F := Ideal) (φ := .f32) : (⟨S1600000x1, .f32⟩ : BufTy).Contents (Elt Ideal) → (⟨S1600000x1, .f32⟩ : BufTy).Contents (Elt Ideal)),
    StableHlo.nullary main_cst (constant (F := Ideal) S_ .f32 0x33D6BF95#32),
    StableHlo.unary main_cst main_v10 (broadcastInDim S1600000x1 ![] bcast_S_S1600000x1 : (⟨S_, .f32⟩ : BufTy).Contents (Elt Ideal) → (⟨S1600000x1, .f32⟩ : BufTy).Contents (Elt Ideal)),
    StableHlo.binary main_v9 main_v10 main_v11 (addf (F := Ideal) (φ := .f32) : (⟨S1600000x1, .f32⟩ : BufTy).Contents (Elt Ideal) → (⟨S1600000x1, .f32⟩ : BufTy).Contents (Elt Ideal) → (⟨S1600000x1, .f32⟩ : BufTy).Contents (Elt Ideal)),
    StableHlo.nullary main_cst_1 (constant (F := Ideal) S_ .f32 0x3F800000#32),
    StableHlo.unary main_cst_1 main_v12 (broadcastInDim S1600000x1 ![] bcast_S_S1600000x1 : (⟨S_, .f32⟩ : BufTy).Contents (Elt Ideal) → (⟨S1600000x1, .f32⟩ : BufTy).Contents (Elt Ideal)),
    StableHlo.binary main_v12 main_v11 main_v13 (Host.divf (F := Ideal) (φ := .f32) : (⟨S1600000x1, .f32⟩ : BufTy).Contents (Elt Ideal) → (⟨S1600000x1, .f32⟩ : BufTy).Contents (Elt Ideal) → (⟨S1600000x1, .f32⟩ : BufTy).Contents (Elt Ideal)),
    StableHlo.nullary main_cst_2 (constant (F := Ideal) S_ .f32 0x3F800000#32),
    StableHlo.unary main_cst_2 main_v14 (broadcastInDim S1600000x1 ![] bcast_S_S1600000x1 : (⟨S_, .f32⟩ : BufTy).Contents (Elt Ideal) → (⟨S1600000x1, .f32⟩ : BufTy).Contents (Elt Ideal)),
    StableHlo.binary main_v14 main_v13 main_v15 (minimumf (F := Ideal) (φ := .f32) : (⟨S1600000x1, .f32⟩ : BufTy).Contents (Elt Ideal) → (⟨S1600000x1, .f32⟩ : BufTy).Contents (Elt Ideal) → (⟨S1600000x1, .f32⟩ : BufTy).Contents (Elt Ideal)),
    StableHlo.unary main_v15 main_v16 (broadcastInDim S1600000x64 ![0, 1] bcast_S1600000x1_S1600000x64_0_1 : (⟨S1600000x1, .f32⟩ : BufTy).Contents (Elt Ideal) → (⟨S1600000x64, .f32⟩ : BufTy).Contents (Elt Ideal)),
    StableHlo.binary main_v8 main_v16 main_v17 (mulf (F := Ideal) (φ := .f32) : (⟨S1600000x64, .f32⟩ : BufTy).Contents (Elt Ideal) → (⟨S1600000x64, .f32⟩ : BufTy).Contents (Elt Ideal) → (⟨S1600000x64, .f32⟩ : BufTy).Contents (Elt Ideal)),
    StableHlo.unary main_arg2 main_v18 ((transpose S64x64 [1, 0] · transposes_S64x64_S64x64_1_0) : (⟨S64x64, .f32⟩ : BufTy).Contents (Elt Ideal) → (⟨S64x64, .f32⟩ : BufTy).Contents (Elt Ideal)),
    StableHlo.binary main_v17 main_v18 main_v19 ((fun l r => Host.dotGeneral (F := Ideal) (φ₁ := .f32) (φ₂ := .f32) dot_S1600000x64_S64x64_S1600000x64_1_0_0_1_n_n none l r) : (⟨S1600000x64, .f32⟩ : BufTy).Contents (Elt Ideal) → (⟨S64x64, .f32⟩ : BufTy).Contents (Elt Ideal) → (⟨S1600000x64, .f32⟩ : BufTy).Contents (Elt Ideal)),
    StableHlo.unary main_arg3 main_v20 (broadcastInDim S1x64 ![1] bcast_S64_S1x64_1 : (⟨S64, .f32⟩ : BufTy).Contents (Elt Ideal) → (⟨S1x64, .f32⟩ : BufTy).Contents (Elt Ideal)),
    StableHlo.unary main_v20 main_v21 (broadcastInDim S1600000x64 ![0, 1] bcast_S1x64_S1600000x64_0_1 : (⟨S1x64, .f32⟩ : BufTy).Contents (Elt Ideal) → (⟨S1600000x64, .f32⟩ : BufTy).Contents (Elt Ideal)),
    StableHlo.binary main_v19 main_v21 main_v22 (addf (F := Ideal) (φ := .f32) : (⟨S1600000x64, .f32⟩ : BufTy).Contents (Elt Ideal) → (⟨S1600000x64, .f32⟩ : BufTy).Contents (Elt Ideal) → (⟨S1600000x64, .f32⟩ : BufTy).Contents (Elt Ideal)) ]

/-- The scores: operations 33 to 37. -/
def stretch3 : List (HloOp τ sig (Elt Ideal)) :=
  [ StableHlo.unary main_arg4 main_v23 ((transpose S64x1 [1, 0] · transposes_S1x64_S64x1_1_0) : (⟨S1x64, .f32⟩ : BufTy).Contents (Elt Ideal) → (⟨S64x1, .f32⟩ : BufTy).Contents (Elt Ideal)),
    StableHlo.binary main_v22 main_v23 main_v24 ((fun l r => Host.dotGeneral (F := Ideal) (φ₁ := .f32) (φ₂ := .f32) dot_S1600000x64_S64x1_S1600000x1_1_0_0_1_n_n none l r) : (⟨S1600000x64, .f32⟩ : BufTy).Contents (Elt Ideal) → (⟨S64x1, .f32⟩ : BufTy).Contents (Elt Ideal) → (⟨S1600000x1, .f32⟩ : BufTy).Contents (Elt Ideal)),
    StableHlo.unary main_arg5 main_v25 (broadcastInDim S1x1 ![1] bcast_S1_S1x1_1 : (⟨S1, .f32⟩ : BufTy).Contents (Elt Ideal) → (⟨S1x1, .f32⟩ : BufTy).Contents (Elt Ideal)),
    StableHlo.unary main_v25 main_v26 (broadcastInDim S1600000x1 ![0, 1] bcast_S1x1_S1600000x1_0_1 : (⟨S1x1, .f32⟩ : BufTy).Contents (Elt Ideal) → (⟨S1600000x1, .f32⟩ : BufTy).Contents (Elt Ideal)),
    StableHlo.binary main_v24 main_v26 main_v27 (addf (F := Ideal) (φ := .f32) : (⟨S1600000x1, .f32⟩ : BufTy).Contents (Elt Ideal) → (⟨S1600000x1, .f32⟩ : BufTy).Contents (Elt Ideal) → (⟨S1600000x1, .f32⟩ : BufTy).Contents (Elt Ideal)) ]

/-- The edge weights: operations 38 to 46. -/
def stretch4 : List (HloOp τ sig (Elt Ideal)) :=
  [ StableHlo.nullary main_call1_cst (constant (F := Ideal) S_ .f32 0x00000000#32),
    StableHlo.unary main_call1_cst main_call1_v0 (broadcastInDim S1600000x1 ![] bcast_S_S1600000x1 : (⟨S_, .f32⟩ : BufTy).Contents (Elt Ideal) → (⟨S1600000x1, .f32⟩ : BufTy).Contents (Elt Ideal)),
    StableHlo.binary main_v27 main_call1_v0 main_call1_v1 (cmpf (F := Ideal) (φ := .f32) .oge : (⟨S1600000x1, .f32⟩ : BufTy).Contents (Elt Ideal) → (⟨S1600000x1, .f32⟩ : BufTy).Contents (Elt Ideal) → (⟨S1600000x1, .i1⟩ : BufTy).Contents (Elt Ideal)),
    StableHlo.nullary main_call1_cst_0 (constant (F := Ideal) S_ .f32 0x3C23D70A#32),
    StableHlo.unary main_call1_cst_0 main_call1_v2 (broadcastInDim S1600000x1 ![] bcast_S_S1600000x1 : (⟨S_, .f32⟩ : BufTy).Contents (Elt Ideal) → (⟨S1600000x1, .f32⟩ : BufTy).Contents (Elt Ideal)),
    StableHlo.binary main_call1_v2 main_v27 main_call1_v3 (mulf (F := Ideal) (φ := .f32) : (⟨S1600000x1, .f32⟩ : BufTy).Contents (Elt Ideal) → (⟨S1600000x1, .f32⟩ : BufTy).Contents (Elt Ideal) → (⟨S1600000x1, .f32⟩ : BufTy).Contents (Elt Ideal)),
    StableHlo.ternary main_call1_v1 main_v27 main_call1_v3 main_v28 (select : (⟨S1600000x1, .i1⟩ : BufTy).Contents (Elt Ideal) → (⟨S1600000x1, .f32⟩ : BufTy).Contents (Elt Ideal) → (⟨S1600000x1, .f32⟩ : BufTy).Contents (Elt Ideal) → (⟨S1600000x1, .f32⟩ : BufTy).Contents (Elt Ideal)),
    StableHlo.unary main_v28 main_v29 (Host.negf (F := Ideal) (φ := .f32) : (⟨S1600000x1, .f32⟩ : BufTy).Contents (Elt Ideal) → (⟨S1600000x1, .f32⟩ : BufTy).Contents (Elt Ideal)),
    StableHlo.unary main_v29 main_v30 (Host.exp (F := Ideal) (φ := .f32) : (⟨S1600000x1, .f32⟩ : BufTy).Contents (Elt Ideal) → (⟨S1600000x1, .f32⟩ : BufTy).Contents (Elt Ideal)) ]

/-- The two segment sums: operations 47 to 56. -/
def stretch5 : List (HloOp τ sig (Elt Ideal)) :=
  [ StableHlo.nullary main_cst_3 (constant (F := Ideal) S_ .f32 0x00000000#32),
    StableHlo.unary main_cst_3 main_v31 (broadcastInDim S100000x1 ![] bcast_S_S100000x1 : (⟨S_, .f32⟩ : BufTy).Contents (Elt Ideal) → (⟨S100000x1, .f32⟩ : BufTy).Contents (Elt Ideal)),
    StableHlo.unary main_v1 main_v32 (broadcastInDim S1600000x1 ![0] bcast_S1600000_S1600000x1_0 : (⟨S1600000, .i32⟩ : BufTy).Contents (Elt Ideal) → (⟨S1600000x1, .i32⟩ : BufTy).Contents (Elt Ideal)),
    StableHlo.ternary main_v31 main_v32 main_v30 main_v33 ((fun x i u => Host.scatterAdd (F := Ideal) (φ := .f32) scatter_S100000x1_S1600000x1_S1600000x1_1_0_0_1 x i u) : (⟨S100000x1, .f32⟩ : BufTy).Contents (Elt Ideal) → (⟨S1600000x1, .i32⟩ : BufTy).Contents (Elt Ideal) → (⟨S1600000x1, .f32⟩ : BufTy).Contents (Elt Ideal) → (⟨S100000x1, .f32⟩ : BufTy).Contents (Elt Ideal)),
    StableHlo.unary main_v30 main_v34 (broadcastInDim S1600000x64 ![0, 1] bcast_S1600000x1_S1600000x64_0_1 : (⟨S1600000x1, .f32⟩ : BufTy).Contents (Elt Ideal) → (⟨S1600000x64, .f32⟩ : BufTy).Contents (Elt Ideal)),
    StableHlo.binary main_v34 main_v22 main_v35 (mulf (F := Ideal) (φ := .f32) : (⟨S1600000x64, .f32⟩ : BufTy).Contents (Elt Ideal) → (⟨S1600000x64, .f32⟩ : BufTy).Contents (Elt Ideal) → (⟨S1600000x64, .f32⟩ : BufTy).Contents (Elt Ideal)),
    StableHlo.nullary main_cst_4 (constant (F := Ideal) S_ .f32 0x00000000#32),
    StableHlo.unary main_cst_4 main_v36 (broadcastInDim S100000x64 ![] bcast_S_S100000x64 : (⟨S_, .f32⟩ : BufTy).Contents (Elt Ideal) → (⟨S100000x64, .f32⟩ : BufTy).Contents (Elt Ideal)),
    StableHlo.unary main_v1 main_v37 (broadcastInDim S1600000x1 ![0] bcast_S1600000_S1600000x1_0 : (⟨S1600000, .i32⟩ : BufTy).Contents (Elt Ideal) → (⟨S1600000x1, .i32⟩ : BufTy).Contents (Elt Ideal)),
    StableHlo.ternary main_v36 main_v37 main_v35 main_v38 ((fun x i u => Host.scatterAdd (F := Ideal) (φ := .f32) scatter_S100000x64_S1600000x1_S1600000x64_1_0_0_1 x i u) : (⟨S100000x64, .f32⟩ : BufTy).Contents (Elt Ideal) → (⟨S1600000x1, .i32⟩ : BufTy).Contents (Elt Ideal) → (⟨S1600000x64, .f32⟩ : BufTy).Contents (Elt Ideal) → (⟨S100000x64, .f32⟩ : BufTy).Contents (Elt Ideal)) ]

/-- The quotient with its guarded denominator, rectified: operations 57 to 68. -/
def stretch6 : List (HloOp τ sig (Elt Ideal)) :=
  [ StableHlo.nullary main_cst_5 (constant (F := Ideal) S_ .f32 0x00000000#32),
    StableHlo.unary main_cst_5 main_v39 (broadcastInDim S100000x1 ![] bcast_S_S100000x1 : (⟨S_, .f32⟩ : BufTy).Contents (Elt Ideal) → (⟨S100000x1, .f32⟩ : BufTy).Contents (Elt Ideal)),
    StableHlo.binary main_v33 main_v39 main_v40 (cmpf (F := Ideal) (φ := .f32) .oeq : (⟨S100000x1, .f32⟩ : BufTy).Contents (Elt Ideal) → (⟨S100000x1, .f32⟩ : BufTy).Contents (Elt Ideal) → (⟨S100000x1, .i1⟩ : BufTy).Contents (Elt Ideal)),
    StableHlo.nullary main_cst_6 (constant (F := Ideal) S_ .f32 0x2B8CBCCC#32),
    StableHlo.unary main_cst_6 main_call2_v0 (id : (⟨S_, .f32⟩ : BufTy).Contents (Elt Ideal) → (⟨S_, .f32⟩ : BufTy).Contents (Elt Ideal)),
    StableHlo.unary main_call2_v0 main_call2_v1 (broadcastInDim S100000x1 ![] bcast_S_S100000x1 : (⟨S_, .f32⟩ : BufTy).Contents (Elt Ideal) → (⟨S100000x1, .f32⟩ : BufTy).Contents (Elt Ideal)),
    StableHlo.ternary main_v40 main_call2_v1 main_v33 main_v41 (select : (⟨S100000x1, .i1⟩ : BufTy).Contents (Elt Ideal) → (⟨S100000x1, .f32⟩ : BufTy).Contents (Elt Ideal) → (⟨S100000x1, .f32⟩ : BufTy).Contents (Elt Ideal) → (⟨S100000x1, .f32⟩ : BufTy).Contents (Elt Ideal)),
    StableHlo.unary main_v41 main_v42 (broadcastInDim S100000x64 ![0, 1] bcast_S100000x1_S100000x64_0_1 : (⟨S100000x1, .f32⟩ : BufTy).Contents (Elt Ideal) → (⟨S100000x64, .f32⟩ : BufTy).Contents (Elt Ideal)),
    StableHlo.binary main_v38 main_v42 main_v43 (Host.divf (F := Ideal) (φ := .f32) : (⟨S100000x64, .f32⟩ : BufTy).Contents (Elt Ideal) → (⟨S100000x64, .f32⟩ : BufTy).Contents (Elt Ideal) → (⟨S100000x64, .f32⟩ : BufTy).Contents (Elt Ideal)),
    StableHlo.nullary main_call3_cst (constant (F := Ideal) S_ .f32 0x00000000#32),
    StableHlo.unary main_call3_cst main_call3_v0 (broadcastInDim S100000x64 ![] bcast_S_S100000x64 : (⟨S_, .f32⟩ : BufTy).Contents (Elt Ideal) → (⟨S100000x64, .f32⟩ : BufTy).Contents (Elt Ideal)),
    StableHlo.binary main_v43 main_call3_v0 main_v44 (maximumf (F := Ideal) (φ := .f32) : (⟨S100000x64, .f32⟩ : BufTy).Contents (Elt Ideal) → (⟨S100000x64, .f32⟩ : BufTy).Contents (Elt Ideal) → (⟨S100000x64, .f32⟩ : BufTy).Contents (Elt Ideal)) ]

/-- The line is the six stretches one after the other. -/
theorem ops_split : ops = stretch1 ++ (stretch2 ++ (stretch3 ++ (stretch4 ++ (stretch5 ++ stretch6)))) := rfl

section Stretches

-- The gather, the accumulating scatters, the row sums, the square root, the exponential, the quotient and the
-- negation stay folded in this section: a stretch's equation relates whole arrays and never looks inside them.
attribute [local irreducible] Host.gather Host.scatterAdd Host.reduceAdd Host.sqrt Host.exp Host.divf Host.negf

set_option maxRecDepth 8192 in
set_option maxHeartbeats 400000 in
/-- The first stretch leaves the source ids in their buffer. -/
theorem s1_v1 (W : Valuation τ sig (Elt Ideal)) :
    after stretch1 W (main_v1 : DevRef τ sig)
      = Cert.RefStage.src (W (main_arg0 : DevRef τ sig)) := by
  reads_stretch [stretch1]

set_option maxRecDepth 8192 in
set_option maxHeartbeats 400000 in
/-- The first stretch leaves the gathered rows in their buffer. -/
theorem s1_v8 (W : Valuation τ sig (Elt Ideal)) :
    after stretch1 W (main_v8 : DevRef τ sig)
      = Cert.RefStage.rows (W (main_arg0 : DevRef τ sig)) (W (main_arg1 : DevRef τ sig)) := by
  reads_stretch [stretch1]

set_option maxRecDepth 8192 in
set_option maxHeartbeats 400000 in
/-- The second stretch leaves the dense layer of the rows it finds. -/
theorem s2_v22 (W : Valuation τ sig (Elt Ideal)) :
    after stretch2 W (main_v22 : DevRef τ sig)
      = Cert.RefStage.cmat (W (main_v8 : DevRef τ sig)) (W (main_arg2 : DevRef τ sig)) (W (main_arg3 : DevRef τ sig)) := by
  reads_stretch [stretch2]

set_option maxRecDepth 8192 in
set_option maxHeartbeats 400000 in
/-- The third stretch leaves the scores of the layer it finds. -/
theorem s3_v27 (W : Valuation τ sig (Elt Ideal)) :
    after stretch3 W (main_v27 : DevRef τ sig)
      = Cert.RefStage.svec (W (main_v22 : DevRef τ sig)) (W (main_arg4 : DevRef τ sig)) (W (main_arg5 : DevRef τ sig)) := by
  reads_stretch [stretch3]

set_option maxRecDepth 8192 in
set_option maxHeartbeats 400000 in
/-- The fourth stretch leaves the weights of the scores it finds. -/
theorem s4_v30 (W : Valuation τ sig (Elt Ideal)) :
    after stretch4 W (main_v30 : DevRef τ sig)
      = Cert.RefStage.eb (W (main_v27 : DevRef τ sig)) := by
  reads_stretch [stretch4]

set_option maxRecDepth 8192 in
set_option maxHeartbeats 400000 in
/-- The fifth stretch leaves, per node, the sum of the weights it finds, at the source ids it finds. -/
theorem s5_v33 (W : Valuation τ sig (Elt Ideal)) :
    after stretch5 W (main_v33 : DevRef τ sig)
      = Host.scatterAdd (F := Ideal) (φ := .f32) scatter_S100000x1_S1600000x1_S1600000x1_1_0_0_1 (broadcastInDim S100000x1 ![] bcast_S_S100000x1 (constant (F := Ideal) S_ .f32 0x00000000#32)) (broadcastInDim S1600000x1 ![0] bcast_S1600000_S1600000x1_0 (W (main_v1 : DevRef τ sig))) (W (main_v30 : DevRef τ sig)) := by
  simp only [stretch5]
  after_results_simp

set_option maxRecDepth 8192 in
set_option maxHeartbeats 400000 in
/-- and, per node, the weighted sum of the features it finds. -/
theorem s5_v38 (W : Valuation τ sig (Elt Ideal)) :
    after stretch5 W (main_v38 : DevRef τ sig)
      = Host.scatterAdd (F := Ideal) (φ := .f32) scatter_S100000x64_S1600000x1_S1600000x64_1_0_0_1 (broadcastInDim S100000x64 ![] bcast_S_S100000x64 (constant (F := Ideal) S_ .f32 0x00000000#32)) (broadcastInDim S1600000x1 ![0] bcast_S1600000_S1600000x1_0 (W (main_v1 : DevRef τ sig)))
        (mulf (F := Ideal) (φ := .f32) (broadcastInDim S1600000x64 ![0, 1] bcast_S1600000x1_S1600000x64_0_1 (W (main_v30 : DevRef τ sig))) (W (main_v22 : DevRef τ sig))) := by
  simp only [stretch5]
  after_results_simp

set_option maxRecDepth 8192 in
set_option maxHeartbeats 400000 in
/-- The last stretch leaves the guarded, rectified quotient of the two sums it finds. -/
theorem s6_v44 (W : Valuation τ sig (Elt Ideal)) :
    after stretch6 W (main_v44 : DevRef τ sig)
      = Cert.RefStage.fin (W (main_v33 : DevRef τ sig)) (W (main_v38 : DevRef τ sig)) := by
  reads_stretch [stretch6]

set_option maxRecDepth 8192 in
/-- No operation of stretch 1 writes this buffer. -/
theorem s1_keeps_arg2 (W : Valuation τ sig (Elt Ideal)) :
    after stretch1 W (main_arg2 : DevRef τ sig) = W (main_arg2 : DevRef τ sig) := by
  keeps_stretch [stretch1]

set_option maxRecDepth 8192 in
/-- No operation of stretch 1 writes this buffer. -/
theorem s1_keeps_arg3 (W : Valuation τ sig (Elt Ideal)) :
    after stretch1 W (main_arg3 : DevRef τ sig) = W (main_arg3 : DevRef τ sig) := by
  keeps_stretch [stretch1]

set_option maxRecDepth 8192 in
/-- No operation of stretch 1 writes this buffer. -/
theorem s1_keeps_arg4 (W : Valuation τ sig (Elt Ideal)) :
    after stretch1 W (main_arg4 : DevRef τ sig) = W (main_arg4 : DevRef τ sig) := by
  keeps_stretch [stretch1]

set_option maxRecDepth 8192 in
/-- No operation of stretch 1 writes this buffer. -/
theorem s1_keeps_arg5 (W : Valuation τ sig (Elt Ideal)) :
    after stretch1 W (main_arg5 : DevRef τ sig) = W (main_arg5 : DevRef τ sig) := by
  keeps_stretch [stretch1]

set_option maxRecDepth 8192 in
/-- No operation of stretch 2 writes this buffer. -/
theorem s2_keeps_v1 (W : Valuation τ sig (Elt Ideal)) :
    after stretch2 W (main_v1 : DevRef τ sig) = W (main_v1 : DevRef τ sig) := by
  keeps_stretch [stretch2]

set_option maxRecDepth 8192 in
/-- No operation of stretch 2 writes this buffer. -/
theorem s2_keeps_arg4 (W : Valuation τ sig (Elt Ideal)) :
    after stretch2 W (main_arg4 : DevRef τ sig) = W (main_arg4 : DevRef τ sig) := by
  keeps_stretch [stretch2]

set_option maxRecDepth 8192 in
/-- No operation of stretch 2 writes this buffer. -/
theorem s2_keeps_arg5 (W : Valuation τ sig (Elt Ideal)) :
    after stretch2 W (main_arg5 : DevRef τ sig) = W (main_arg5 : DevRef τ sig) := by
  keeps_stretch [stretch2]

set_option maxRecDepth 8192 in
/-- No operation of stretch 3 writes this buffer. -/
theorem s3_keeps_v1 (W : Valuation τ sig (Elt Ideal)) :
    after stretch3 W (main_v1 : DevRef τ sig) = W (main_v1 : DevRef τ sig) := by
  keeps_stretch [stretch3]

set_option maxRecDepth 8192 in
/-- No operation of stretch 3 writes this buffer. -/
theorem s3_keeps_v22 (W : Valuation τ sig (Elt Ideal)) :
    after stretch3 W (main_v22 : DevRef τ sig) = W (main_v22 : DevRef τ sig) := by
  keeps_stretch [stretch3]

set_option maxRecDepth 8192 in
/-- No operation of stretch 4 writes this buffer. -/
theorem s4_keeps_v1 (W : Valuation τ sig (Elt Ideal)) :
    after stretch4 W (main_v1 : DevRef τ sig) = W (main_v1 : DevRef τ sig) := by
  keeps_stretch [stretch4]

set_option maxRecDepth 8192 in
/-- No operation of stretch 4 writes this buffer. -/
theorem s4_keeps_v22 (W : Valuation τ sig (Elt Ideal)) :
    after stretch4 W (main_v22 : DevRef τ sig) = W (main_v22 : DevRef τ sig) := by
  keeps_stretch [stretch4]

end Stretches

/-! ## The result and the arguments -/

/-- What the line leaves in the result buffer is the stages' composite of the six argument arrays: the line is its
    six stretches in turn, each leaves its stage's function of what the stretch before it left, and the source ids,
    the dense layer and the last four arguments pass through the stretches that do not write them. -/
theorem out_eq (V : Valuation τ sig (Elt Ideal)) :
    after ops V (main_v44 : DevRef τ sig)
      = Cert.RefStage.out (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  rw [ops_split, Cert.LibStages.after_append, Cert.LibStages.after_append, Cert.LibStages.after_append,
    Cert.LibStages.after_append, Cert.LibStages.after_append,
    s6_v44, s5_v33, s5_v38, s4_v30, s4_keeps_v1, s4_keeps_v22,
    s3_v27, s3_keeps_v1, s3_keeps_v22,
    s2_v22, s2_keeps_v1, s2_keeps_arg4, s2_keeps_arg5,
    s1_v8, s1_v1, s1_keeps_arg2, s1_keeps_arg3, s1_keeps_arg4, s1_keeps_arg5]
  rfl

set_option maxRecDepth 8192 in
set_option maxHeartbeats 1000000 in
/-- No operation of the line writes argument 0's buffer: it ends as it began. -/
theorem arg0_eq (V : Valuation τ sig (Elt Ideal)) :
    after ops V (main_arg0 : DevRef τ sig) = V (main_arg0 : DevRef τ sig) := by
  after_results_simp

set_option maxRecDepth 8192 in
set_option maxHeartbeats 1000000 in
/-- No operation of the line writes argument 1's buffer: it ends as it began. -/
theorem arg1_eq (V : Valuation τ sig (Elt Ideal)) :
    after ops V (main_arg1 : DevRef τ sig) = V (main_arg1 : DevRef τ sig) := by
  after_results_simp

set_option maxRecDepth 8192 in
set_option maxHeartbeats 1000000 in
/-- No operation of the line writes argument 2's buffer: it ends as it began. -/
theorem arg2_eq (V : Valuation τ sig (Elt Ideal)) :
    after ops V (main_arg2 : DevRef τ sig) = V (main_arg2 : DevRef τ sig) := by
  after_results_simp

set_option maxRecDepth 8192 in
set_option maxHeartbeats 1000000 in
/-- No operation of the line writes argument 3's buffer: it ends as it began. -/
theorem arg3_eq (V : Valuation τ sig (Elt Ideal)) :
    after ops V (main_arg3 : DevRef τ sig) = V (main_arg3 : DevRef τ sig) := by
  after_results_simp

set_option maxRecDepth 8192 in
set_option maxHeartbeats 1000000 in
/-- No operation of the line writes argument 4's buffer: it ends as it began. -/
theorem arg4_eq (V : Valuation τ sig (Elt Ideal)) :
    after ops V (main_arg4 : DevRef τ sig) = V (main_arg4 : DevRef τ sig) := by
  after_results_simp

set_option maxRecDepth 8192 in
set_option maxHeartbeats 1000000 in
/-- No operation of the line writes argument 5's buffer: it ends as it began. -/
theorem arg5_eq (V : Valuation τ sig (Elt Ideal)) :
    after ops V (main_arg5 : DevRef τ sig) = V (main_arg5 : DevRef τ sig) := by
  after_results_simp

attribute [local irreducible] Cert.RefStage.out in
/-- From any memory with zero counters, every weakly fair execution of @main terminates with the result buffer at
    the stages' composite of the six argument arrays as the launch left them, and the argument arrays unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v44)
        = Cert.RefStage.out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨(h c main_v44).trans (out_eq (launchContents m c)),
      (h c main_arg0).trans (arg0_eq (launchContents m c)), (h c main_arg1).trans (arg1_eq (launchContents m c)),
      (h c main_arg2).trans (arg2_eq (launchContents m c)), (h c main_arg3).trans (arg3_eq (launchContents m c)),
      (h c main_arg4).trans (arg4_eq (launchContents m c)), (h c main_arg5).trans (arg5_eq (launchContents m c))⟩)
    (run_main m ρ)

end Cert.RefRun

end
-- ==== Proof.RefRead.lean ====
/-
  The reference program's stages read at an index, in terms of one edge's and one node's functions.

  Every stage of the reference is a composite of elementwise operations, layout operations, two matrix products, a row
  gather and two accumulating row scatters. Read at an index, each is the matching function of Spec applied to the
  elements its operands hold at that row: the source id and the scatter index of edge `e` are the triplet array at
  `(e, 0)`; an edge whose source id is a node of the table gathers that node's row; the dense layer at `(e, q)` is
  `crow` of row `e`, the score at `e` is `srow` of it, the weight is `wPlain` of the score; the two segment sums at a
  node are sums over the node's edges `edgesOf`; and the output at `(n, j)` is `nodeOut` of the two sums there.
-/
import proofs.«157317_j77704548319854_2_alg».proof.Proof.RefStages
import proofs.«157317_j77704548319854_2_alg».proof.Proof.Spec
import proofs.«157317_j77704548319854_2_alg».proof.Proof.LibScatterGather
import proofs.«157317_j77704548319854_2_alg».proof.Proof.LibDot2
import proofs.«157317_j77704548319854_2_alg».proof.Proof.LibRows
import proofs.«157317_j77704548319854_2_alg».proof.Proof.LibColumn
import proofs.«157317_j77704548319854_2_alg».proof.Proof.LibEdge
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.RefRead

open Idealize.ShloMosaic Idealize.ShloMosaic.ValueIdx Cert.ReferenceIdeal Cert.ReferenceIdeal.Facts₀ Cert.RefStage Cert.Attn

variable [Cert.ReferenceIdeal.Facts]

/-! ## The first column of the triplets, the gathered rows, the output -/

/-- The source id of edge `e` is the triplet array at `(e, 0)`. -/
theorem src_apply (a0 : I32 S1600000x3) (e : Fin 1600000) : src a0 (ix1 e) = a0 (ix2 e (0 : Fin 3)) :=
  Cert.LibEdge.src_apply slices_S1600000x3_S1600000x1_0_0 shapeCasts_S1600000x1_S1600000 a0 e

/-- Scatter index `e` is the triplet array at `(e, 0)`. -/
theorem sidx_apply (a0 : I32 S1600000x3) (e : Fin 1600000) : sidx a0 (ix2 e (0 : Fin 1)) = a0 (ix2 e (0 : Fin 3)) :=
  Cert.LibEdge.sidx_apply slices_S1600000x3_S1600000x1_0_0 shapeCasts_S1600000x1_S1600000 bcast_S1600000_S1600000x1_0 a0 e

/-- an edge whose source id, read signed, is the node n gathers the node's own row -/
theorem rows_apply_of (a0 : I32 S1600000x3) (a1 : F32 S100000x64) (e : Fin 1600000) (n : Fin 100000)
    (h : (a0 (ix2 e (0 : Fin 3))).toInt = (n.val : Int)) (k : Fin 64) : rows a0 a1 (ix2 e k) = a1 (ix2 n k) :=
  Cert.LibEdge.rows_apply_of slices_S1600000x3_S1600000x1_0_0 shapeCasts_S1600000x1_S1600000 bcast_S_S1600000
    bcast_S1600000_S1600000x1_0 gather_S100000x64_S1600000x1_S1600000x64_1_0_n_n_0_1_164_wf a0 a1 e n h k

/-- The output at `(n, j)` is the node's output feature from its two sums. -/
theorem fin_apply (den : F32 S100000x1) (num : F32 S100000x64) (n : Fin 100000) (j : Fin 64) :
    fin den num (ix2 n j) = nodeOut (den (ix2 n (0 : Fin 1))) (num (ix2 n j)) :=
  Cert.LibEdge.fin_apply bcast_S_S100000x1 bcast_S_S100000x64 bcast_S100000x1_S100000x64_0_1 den num n j

/-! ## The host's elementwise operations and its accumulating row scatter, at an index

Stated for arbitrary operands, so that each is read off the definitions without any arithmetic being evaluated. -/

/-- The host's square root at an index. -/
theorem sqrtH_apply {s : Shape} (v : FVec Ideal s .f32) (i : s.Idx) : Host.sqrt v i = Ideal.sqrt (v i) := rfl

/-- The host's exponential at an index. -/
theorem expH_apply {s : Shape} (v : FVec Ideal s .f32) (i : s.Idx) : Host.exp v i = Ideal.exp (v i) := rfl

/-- The host's negation at an index. -/
theorem negH_apply {s : Shape} (v : FVec Ideal s .f32) (i : s.Idx) : Host.negf v i = -(v i) := rfl

/-- The host's quotient at an index. -/
theorem divH_apply {s : Shape} (u v : FVec Ideal s .f32) (i : s.Idx) : Host.divf u v i = Ideal.div (u i) (v i) := rfl

/-- The host's accumulating row scatter at `(r, c)`: the operand's element plus the sum, over the update rows whose
    scatter index read signed is `r`, of update `(e, c)`. -/
theorem scatterH_apply {H W N w : Nat}
    (wf : ScatterDims.WF ⟨2, ![H, W]⟩ ⟨2, ![N, 1]⟩ ⟨2, ![N, W]⟩ [1] [0] [0] 1)
    (x : FVec Ideal ⟨2, ![H, W]⟩ .f32) (idx : IVec ⟨2, ![N, 1]⟩ w) (upd : FVec Ideal ⟨2, ![N, W]⟩ .f32) (r : Fin H) (c : Fin W) :
    Host.scatterAdd (Cert.LibScatterGather.rowScatterDims H W N wf) x idx upd (ix2 r c)
      = x (ix2 r c) + ∑ e ∈ Finset.univ.filter (fun e : Fin N => (idx (ix2 e (0 : Fin 1))).toInt = (r.val : Int)),
          upd (ix2 e c) :=
  Cert.LibScatterGather.scatterAdd_rows_apply wf x idx upd r c

/-! ## Columns and constants under the edge arrays -/

/-- A column of per-edge values laid under the 64 features reads, at `(e, k)`, the column at `e`. -/
theorem col64_apply (v : F32 S1600000x1) (e : Fin 1600000) (k : Fin 64) :
    broadcastInDim S1600000x64 ![0, 1] bcast_S1600000x1_S1600000x64_0_1 v (ix2 e k) = v (ix2 e (0 : Fin 1)) :=
  broadcastInDim_apply ![0, 1] bcast_S1600000x1_S1600000x64_0_1 v (ix2 e k) (ix2 e (0 : Fin 1)) fun a => by
    match a with
    | ⟨0, _⟩ =>
      show e.val = if (1600000 : Nat) = 1 then 0 else e.val
      exact (if_neg (by omega)).symm
    | ⟨1, _⟩ => exact (if_pos rfl).symm

/-- A constant laid as a column of per-edge values reads the constant. -/
theorem splat_col_apply (bits : BitVec 32) (e : Fin 1600000) :
    splat S1600000x1 bcast_S_S1600000x1 bits (ix2 e (0 : Fin 1)) = Ideal.ofBits .f32 bits :=
  Cert.Lib.Rows.scalar_apply _ bcast_S_S1600000x1 _

/-! ## The rescaled rows -/

/-- The sum of row `e`'s squares. -/
theorem sumsq_apply (x : F32 S1600000x64) (e : Fin 1600000) :
    Host.reduceAdd (mulf x x) (constant (F := Ideal) S_ .f32 0x00000000#32) reducesTo_S1600000x64_S1600000_d1 h_S_ (ix1 e)
      = ssq (fun k => x (ix2 e k)) := by
  have hR : S1600000x64.Reduces [1] S1600000 :=
    ⟨reducesTo_S1600000x64_S1600000_d1.1, Nat.one_pos, reducesTo_S1600000x64_S1600000_d1.2⟩
  show Ideal.hostReduceAdd reducesTo_S1600000x64_S1600000_d1 (mulf x x) (Ideal.ofBits .f32 0x00000000#32) (ix1 e) = _
  rw [Ideal.hostReduceAdd_single reducesTo_S1600000x64_S1600000_d1 hR, Ideal.ofBits_zero_f32, zero_add]
  show (∑ kk : Fin 64, mulf x x (hR.lift (ix1 e) kk)) = ∑ kk : Fin 64, x (ix2 e kk) * x (ix2 e kk)
  refine Finset.sum_congr rfl fun kk _ => ?_
  have hl : hR.lift (ix1 e) kk = ix2 e kk := funext fun a => Fin.ext (by
    match a with
    | ⟨0, _⟩ => rfl
    | ⟨1, _⟩ => rfl)
  rw [hl]
  rfl

/-- Row `e`'s norm. -/
theorem nrm_apply (x : F32 S1600000x64) (e : Fin 1600000) :
    nrm x (ix2 e (0 : Fin 1)) = Ideal.sqrt (ssq (fun k => x (ix2 e k))) := by
  unfold nrm
  rw [sqrtH_apply, Cert.LibEdge.column_apply, sumsq_apply]
/-- The rescaled rows at `(e, k)`: row `e`'s element times the row's factor. -/
theorem hid_apply (x : F32 S1600000x64) (e : Fin 1600000) (k : Fin 64) :
    RefStage.hid x (ix2 e k) = Attn.hid (fun k => x (ix2 e k)) k := by
  have h1 : splat S1600000x1 bcast_S_S1600000x1 0x3F800000#32 (ix2 e (0 : Fin 1)) = c1 := splat_col_apply _ e
  have hE : splat S1600000x1 bcast_S_S1600000x1 0x33D6BF95#32 (ix2 e (0 : Fin 1)) = cEps := splat_col_apply _ e
  unfold RefStage.hid Attn.hid scale
  rw [mulf_apply, col64_apply, minimumf_apply, divH_apply, addf_apply, h1, hE, nrm_apply]
/-! ## The dense layer, the score, the weight -/

/-- THE DENSE LAYER at `(e, q)` is `crow` of row `e`: the weight from input feature `k` to output feature `q` is the
    weight array at `(q, k)`. -/
theorem cmat_apply (x : F32 S1600000x64) (a2 : F32 S64x64) (a3 : F32 S64) (e : Fin 1600000) (q : Fin 64) :
    cmat x a2 a3 (ix2 e q) = crow (fun k q => a2 (ix2 q k)) (fun q => a3 (ix1 q)) (fun k => x (ix2 e k)) q := by
  have hdot : Host.dotGeneral dot_S1600000x64_S64x64_S1600000x64_1_0_0_1_n_n none (RefStage.hid x)
        (transpose S64x64 [1, 0] a2 transposes_S64x64_S64x64_1_0) (ix2 e q)
      = ∑ kk : Fin 64, RefStage.hid x (ix2 e kk) * transpose S64x64 [1, 0] a2 transposes_S64x64_S64x64_1_0 (ix2 kk q) :=
    Cert.Lib.DotSum.dotGeneral_at dot_S1600000x64_S64x64_S1600000x64_1_0_0_1_n_n rfl rfl rfl rfl rfl rfl none .single _ _ e q
  have hb : broadcastInDim S1600000x64 ![0, 1] bcast_S1x64_S1600000x64_0_1 (broadcastInDim S1x64 ![1] bcast_S64_S1x64_1 a3) (ix2 e q)
      = a3 (ix1 q) :=
    Cert.Lib.Rows.rows_apply a3 bcast_S64_S1x64_1 bcast_S1x64_S1600000x64_0_1 e q
  show Host.dotGeneral dot_S1600000x64_S64x64_S1600000x64_1_0_0_1_n_n none (RefStage.hid x)
        (transpose S64x64 [1, 0] a2 transposes_S64x64_S64x64_1_0) (ix2 e q)
      + broadcastInDim S1600000x64 ![0, 1] bcast_S1x64_S1600000x64_0_1 (broadcastInDim S1x64 ![1] bcast_S64_S1x64_1 a3) (ix2 e q) = _
  rw [hdot, hb]
  refine congrArg (· + a3 (ix1 q)) (Finset.sum_congr rfl fun kk _ => ?_)
  rw [hid_apply]
  refine congrArg (Attn.hid (fun k => x (ix2 e k)) kk * ·) ?_
  exact transpose_apply [1, 0] a2 transposes_S64x64_S64x64_1_0 (ix2 kk q) (ix2 q kk) fun b => by
    match b with
    | ⟨0, _⟩ => rfl
    | ⟨1, _⟩ => rfl

/-- THE SCORE of edge `e` is `srow` of row `e`. -/
theorem svec_apply (x : F32 S1600000x64) (a2 : F32 S64x64) (a3 : F32 S64) (a4 : F32 S1x64) (a5 : F32 S1) (e : Fin 1600000) :
    svec (cmat x a2 a3) a4 a5 (ix2 e (0 : Fin 1))
      = srow (fun k q => a2 (ix2 q k)) (fun q => a3 (ix1 q)) (fun q => a4 (ix2 (0 : Fin 1) q)) (a5 (ix1 (0 : Fin 1)))
          (fun k => x (ix2 e k)) := by
  have hdot : Host.dotGeneral dot_S1600000x64_S64x1_S1600000x1_1_0_0_1_n_n none (cmat x a2 a3)
        (transpose S64x1 [1, 0] a4 transposes_S1x64_S64x1_1_0) (ix2 e (0 : Fin 1))
      = ∑ qq : Fin 64, cmat x a2 a3 (ix2 e qq) * transpose S64x1 [1, 0] a4 transposes_S1x64_S64x1_1_0 (ix2 qq (0 : Fin 1)) :=
    Cert.Lib.DotSum.dotGeneral_at dot_S1600000x64_S64x1_S1600000x1_1_0_0_1_n_n rfl rfl rfl rfl rfl rfl none .single _ _ e (0 : Fin 1)
  have hb : broadcastInDim S1600000x1 ![0, 1] bcast_S1x1_S1600000x1_0_1 (broadcastInDim S1x1 ![1] bcast_S1_S1x1_1 a5) (ix2 e (0 : Fin 1))
      = a5 (ix1 (0 : Fin 1)) :=
    Cert.Lib.Rows.rows_apply a5 bcast_S1_S1x1_1 bcast_S1x1_S1600000x1_0_1 e (0 : Fin 1)
  show Host.dotGeneral dot_S1600000x64_S64x1_S1600000x1_1_0_0_1_n_n none (cmat x a2 a3)
        (transpose S64x1 [1, 0] a4 transposes_S1x64_S64x1_1_0) (ix2 e (0 : Fin 1))
      + broadcastInDim S1600000x1 ![0, 1] bcast_S1x1_S1600000x1_0_1 (broadcastInDim S1x1 ![1] bcast_S1_S1x1_1 a5) (ix2 e (0 : Fin 1)) = _
  rw [hdot, hb]
  refine congrArg (· + a5 (ix1 (0 : Fin 1))) (Finset.sum_congr rfl fun qq _ => ?_)
  rw [cmat_apply]
  refine congrArg (crow (fun k q => a2 (ix2 q k)) (fun q => a3 (ix1 q)) (fun k => x (ix2 e k)) qq * ·) ?_
  exact transpose_apply [1, 0] a4 transposes_S1x64_S64x1_1_0 (ix2 qq (0 : Fin 1)) (ix2 (0 : Fin 1) qq) fun b => by
    match b with
    | ⟨0, _⟩ => rfl
    | ⟨1, _⟩ => rfl

/-- THE WEIGHT of edge `e` is `wPlain` of its score. -/
theorem eb_apply (s : F32 S1600000x1) (e : Fin 1600000) : eb s (ix2 e (0 : Fin 1)) = wPlain (s (ix2 e (0 : Fin 1))) := by
  have h0 : splat S1600000x1 bcast_S_S1600000x1 0x00000000#32 (ix2 e (0 : Fin 1)) = c0 := splat_col_apply _ e
  have hS : splat S1600000x1 bcast_S_S1600000x1 0x3C23D70A#32 (ix2 e (0 : Fin 1)) = cSlope := splat_col_apply _ e
  unfold eb wPlain lreluGe
  rw [expH_apply, negH_apply, select_apply, cmpf_apply, mulf_apply, h0, hS]
  rfl
/-! ## The two segment sums -/

/-- The edges whose scatter index is node `n` are the node's edges. -/
theorem filter_sidx (a0 : I32 S1600000x3) (n : Fin 100000) :
    (Finset.univ.filter fun e : Fin 1600000 => (sidx a0 (ix2 e (0 : Fin 1))).toInt = (n.val : Int)) = edgesOf a0 n := by
  unfold edgesOf
  exact Finset.filter_congr fun e _ => by rw [sidx_apply]
/-- THE SUM OF WEIGHTS at node `n`: over the node's edges. -/
theorem ebs_apply (a0 : I32 S1600000x3) (w : F32 S1600000x1) (n : Fin 100000) :
    ebs a0 w (ix2 n (0 : Fin 1)) = c0 + ∑ e ∈ edgesOf a0 n, w (ix2 e (0 : Fin 1)) := by
  have hx : splat S100000x1 bcast_S_S100000x1 0x00000000#32 (ix2 n (0 : Fin 1)) = c0 :=
    Cert.Lib.Rows.scalar_apply _ bcast_S_S100000x1 _
  unfold ebs
  refine (scatterH_apply scatter_S100000x1_S1600000x1_S1600000x1_1_0_0_1_wf _ _ _ n (0 : Fin 1)).trans ?_
  rw [filter_sidx, hx]
/-- THE WEIGHTED SUM OF FEATURE `j` at node `n`: over the node's edges. -/
theorem hs_apply (a0 : I32 S1600000x3) (w : F32 S1600000x1) (cm : F32 S1600000x64) (n : Fin 100000) (j : Fin 64) :
    hs a0 w cm (ix2 n j) = c0 + ∑ e ∈ edgesOf a0 n, w (ix2 e (0 : Fin 1)) * cm (ix2 e j) := by
  have hx : splat S100000x64 bcast_S_S100000x64 0x00000000#32 (ix2 n j) = c0 :=
    Cert.Lib.Rows.scalar_apply _ bcast_S_S100000x64 _
  unfold hs
  refine (scatterH_apply scatter_S100000x64_S1600000x1_S1600000x64_1_0_0_1_wf _ _ _ n j).trans ?_
  rw [filter_sidx, hx]
  refine congrArg (c0 + ·) (Finset.sum_congr rfl fun e _ => ?_)
  rw [mulf_apply, col64_apply]end Cert.RefRead

end
-- ==== Proof.RefClosed.lean ====
/-
  The reference program's result in closed form. Output feature `j` of node `n` is the quotient of the node's weighted
  feature sum by its weight sum. Every edge of the node gathered the node's own embedding row, so every edge carries the
  same weight `A` (a positive real, the arguments being real) and the same dense-layer feature `C` (a real); the quotient
  of `∑ A·C` by `∑ A` is `C`, and the result is `max C 0`. A node with no edge gets the quotient of two empty sums.
-/
import proofs.«157317_j77704548319854_2_alg».proof.Proof.RefRead
import proofs.«157317_j77704548319854_2_alg».proof.Proof.Algebra

noncomputable section

open scoped BigOperators

namespace Cert.RefClosed

open Idealize.ShloMosaic Idealize.ShloMosaic.ValueIdx
open Cert.ReferenceIdeal Cert.Attn Cert.RefStage Cert.Lib.AllReal

variable [Cert.ReferenceIdeal.Facts]

/-- A node whose edges all carry the weight `A` and the feature `C`: the quotient of the weighted sum of the features
    by the sum of the weights. -/
theorem closed_of (S : Finset (Fin 1600000)) (w : FVec Ideal S1600000x1 .f32) (f : FVec Ideal S1600000x64 .f32) (j : Fin 64)
    (A C : EReal) (hw : ∀ e ∈ S, w (ix2 e (0 : Fin 1)) = A) (hf : ∀ e ∈ S, f (ix2 e j) = C)
    (hA : ∃ a : ℝ, 0 < a ∧ A = (a : EReal)) (hC : IsReal C) :
    nodeOut (c0 + ∑ e ∈ S, w (ix2 e (0 : Fin 1))) (c0 + ∑ e ∈ S, w (ix2 e (0 : Fin 1)) * f (ix2 e j))
      = if S.Nonempty then max C c0 else nodeOut (c0 + 0) (c0 + 0) := by
  have hwf : ∀ e ∈ S, w (ix2 e (0 : Fin 1)) * f (ix2 e j) = A * C := fun e he => by rw [hw e he, hf e he]
  rw [Finset.sum_congr rfl hw, Finset.sum_congr rfl hwf]
  exact node_closed S A C hA hC

section Args

variable (a0 : IVec S1600000x3 32) (a1 : FVec Ideal S100000x64 .f32) (a2 : FVec Ideal S64x64 .f32)
  (a3 : FVec Ideal S64 .f32) (a4 : FVec Ideal S1x64 .f32) (a5 : FVec Ideal S1 .f32)

/-- The weight every edge of node `n` carries. -/
abbrev wNode (n : Fin 100000) : EReal :=
  wPlain (srow (fun k q => a2 (ix2 q k)) (fun q => a3 (ix1 q)) (fun q => a4 (ix2 (0 : Fin 1) q)) (a5 (ix1 (0 : Fin 1)))
    (fun k => a1 (ix2 n k)))

/-- An edge of node `n` gathered the node's own row. -/
theorem row_eq (n : Fin 100000) (e : Fin 1600000) (he : e ∈ edgesOf a0 n) :
    (fun k : Fin 64 => rows a0 a1 (ix2 e k)) = fun k => a1 (ix2 n k) :=
  funext fun k => Cert.RefRead.rows_apply_of a0 a1 e n (Finset.mem_filter.mp he).2 k

/-- The weight of an edge of node `n`. -/
theorem edge_weight (n : Fin 100000) (e : Fin 1600000) (he : e ∈ edgesOf a0 n) :
    eb (svec (cmat (rows a0 a1) a2 a3) a4 a5) (ix2 e (0 : Fin 1)) = wNode a1 a2 a3 a4 a5 n := by
  rw [Cert.RefRead.eb_apply, Cert.RefRead.svec_apply, row_eq a0 a1 n e he]

/-- Feature `j` of an edge of node `n`. -/
theorem edge_feature (n : Fin 100000) (j : Fin 64) (e : Fin 1600000) (he : e ∈ edgesOf a0 n) :
    cmat (rows a0 a1) a2 a3 (ix2 e j)
      = crow (fun k q => a2 (ix2 q k)) (fun q => a3 (ix1 q)) (fun k => a1 (ix2 n k)) j := by
  rw [Cert.RefRead.cmat_apply, row_eq a0 a1 n e he]

/-- THE REFERENCE PROGRAM'S RESULT IN CLOSED FORM, for real arguments. -/
theorem ref_closed (h1 : AllReal a1) (h2 : AllReal a2) (h3 : AllReal a3) (h4 : AllReal a4) (h5 : AllReal a5)
    (n : Fin 100000) (j : Fin 64) :
    Cert.RefStage.out a0 a1 a2 a3 a4 a5 (ix2 n j) = Cert.Attn.closed a0 a1 (fun k q => a2 (ix2 q k)) (fun q => a3 (ix1 q)) n j := by
  have hWr : ∀ k q : Fin 64, IsReal (a2 (ix2 q k)) := fun k q => h2 _
  have hbr : ∀ q : Fin 64, IsReal (a3 (ix1 q)) := fun q => h3 _
  have hw2r : ∀ q : Fin 64, IsReal (a4 (ix2 (0 : Fin 1) q)) := fun q => h4 _
  have hρr : ∀ k : Fin 64, IsReal (a1 (ix2 n k)) := fun k => h1 _
  unfold Cert.RefStage.out Cert.Attn.closed
  refine (Cert.RefRead.fin_apply _ _ n j).trans ?_
  rw [Cert.RefRead.ebs_apply, Cert.RefRead.hs_apply]
  exact closed_of (edgesOf a0 n) (eb (svec (cmat (rows a0 a1) a2 a3) a4 a5)) (cmat (rows a0 a1) a2 a3) j
    (wNode a1 a2 a3 a4 a5 n) (crow (fun k q => a2 (ix2 q k)) (fun q => a3 (ix1 q)) (fun k => a1 (ix2 n k)) j)
    (edge_weight a0 a1 a2 a3 a4 a5 n) (edge_feature a0 a1 a2 a3 n j)
    (wPlain_pos (srow_isReal hWr hbr hw2r (h5 _) hρr)) (crow_isReal hWr hbr hρr j)

end Args

end Cert.RefClosed

end
-- ==== Proof.PreReal.lean ====
/-
  The finiteness precondition, decoded.

  The precondition is the conjunction of five tests `all (|x| < +inf)`, one per floating-point input; each
  `all` is an and-reduction over every axis of the pointwise test, and the conjunction is the `and` of the five
  rank-0 results. When the whole comes out true each of the five tests did, and an entry whose absolute value is
  below a bound is neither infinity: every floating-point input is an array of real numbers.
-/
import proofs.«157317_j77704548319854_2_alg».proof.Pre_finite_inputs
import proofs.«157317_j77704548319854_2_alg».proof.Proof.LibAllReal
import Idealize.ShloMosaic.Lib.ReduceAll
import Idealize.ShloMosaic.Lib.ValueIdx

noncomputable section

namespace Cert.PreReal

open Idealize.ShloMosaic Cert.Lib.AllReal

/-- A rank-0 array has one index. -/
instance : Subsingleton Cert.Pre_finite_inputs.S_.Idx := ⟨fun a b => funext fun d => d.elim0⟩

/-- When the precondition holds, each of the five floating-point inputs is an array of real numbers. -/
theorem allReal_of_pre [Cert.Pre_finite_inputs.Facts] (a0 : IVec Cert.Pre_finite_inputs.S1600000x3 32)
    (a1 : FVec Ideal Cert.Pre_finite_inputs.S100000x64 .f32) (a2 : FVec Ideal Cert.Pre_finite_inputs.S64x64 .f32)
    (a3 : FVec Ideal Cert.Pre_finite_inputs.S64 .f32) (a4 : FVec Ideal Cert.Pre_finite_inputs.S1x64 .f32)
    (a5 : FVec Ideal Cert.Pre_finite_inputs.S1 .f32)
    (h : Cert.Pre_finite_inputs.fn (F := Ideal) a0 a1 a2 a3 a4 a5 = fun _ => 1#1) :
    AllReal a1 ∧ AllReal a2 ∧ AllReal a3 ∧ AllReal a4 ∧ AllReal a5 := by
  have h0 := congrFun h ValueIdx.ix0
  dsimp only [Cert.Pre_finite_inputs.fn, Cert.Pre_finite_inputs.fn_part1] at h0
  -- the outermost `and` first: ((((t₁ ∧ t₂) ∧ t₃) ∧ t₄) ∧ t₅)
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  exact ⟨allReal_of_reduce_andi_abs_lt _ _ _ _ _ _ h1, allReal_of_reduce_andi_abs_lt _ _ _ _ _ _ h2,
    allReal_of_reduce_andi_abs_lt _ _ _ _ _ _ h3, allReal_of_reduce_andi_abs_lt _ _ _ _ _ _ h4,
    allReal_of_reduce_andi_abs_lt _ _ _ _ _ _ h5⟩

end Cert.PreReal

end
-- ==== Proof.lean ====
/-
  The certificate of the attention-message kernel against its reference.

  Both programs gather one embedding row per edge, rescale it to norm at most one, send it through a dense layer of 64
  features and a second layer of width one, and weight the edge by `exp` of minus the leaky rectification of that score;
  per source node they sum the weights and the weighted features over the node's edges, divide, and cap below at zero.
  They differ in how they compute it — the kernel works on blocks of 4000 edges, multiplies in a narrower format
  (the identity on extended reals), sums weights and weighted features in one scatter of rows of 65 — and in one value:
  the kernel caps the exponent at 80, the reference does not. The results agree all the same: every edge of a node reads
  the node's own row, so all of a node's edges carry one weight, and a quotient of `∑ A·C` by `∑ A` does not depend on
  the positive real `A`. Both results are the closed form `Cert.Attn.closed`: with real (finite) arguments, `max C 0` for
  the node's dense-layer feature `C` when the node has an edge, the quotient of two empty sums otherwise.

  The two kernel frames are the generated ones; the reference's frame is its run with the result dropped; the ideal
  pass rewrote nothing, so `preserves` is trivial.
-/
import proofs.«157317_j77704548319854_2_alg».proof.Defs
import proofs.«157317_j77704548319854_2_alg».proof.Proof.Gen.Kernel
import proofs.«157317_j77704548319854_2_alg».proof.Proof.Gen.Kernel.Skeleton
import proofs.«157317_j77704548319854_2_alg».proof.Proof.Gen.Kernel.Launch
import proofs.«157317_j77704548319854_2_alg».proof.Proof.Gen.Kernel.Points
import proofs.«157317_j77704548319854_2_alg».proof.Proof.Gen.Kernel.Frame
import proofs.«157317_j77704548319854_2_alg».proof.Proof.Gen.KernelIdeal
import proofs.«157317_j77704548319854_2_alg».proof.Proof.Gen.KernelIdeal.Skeleton
import proofs.«157317_j77704548319854_2_alg».proof.Proof.Gen.KernelIdeal.Launch
import proofs.«157317_j77704548319854_2_alg».proof.Proof.Gen.KernelIdeal.Points
import proofs.«157317_j77704548319854_2_alg».proof.Proof.Gen.KernelIdeal.Frame
import proofs.«157317_j77704548319854_2_alg».proof.Proof.Gen.ReferenceIdeal
import proofs.«157317_j77704548319854_2_alg».proof.Proof.Gen.Pre_finite_inputs
import proofs.«157317_j77704548319854_2_alg».proof.Proof.KerTail
import proofs.«157317_j77704548319854_2_alg».proof.Proof.KerClosed
import proofs.«157317_j77704548319854_2_alg».proof.Proof.RefRun
import proofs.«157317_j77704548319854_2_alg».proof.Proof.RefClosed
import proofs.«157317_j77704548319854_2_alg».proof.Proof.PreReal
import Idealize.ShloMosaic.Adequacy
import Idealize.ShloMosaic.Init

noncomputable section

namespace Cert.Proof

open Idealize.ShloMosaic Idealize.ShloMosaic.ValueIdx Idealize.SL.Sem

/-- The kernel program runs and keeps its arguments: the generated frame. -/
theorem frame_k : Cert.frame_Kernel (hKernel := Cert.Kernel.Gen.facts) (hPre_finite_inputs := Cert.Pre_finite_inputs.Gen.facts) :=
  fun m ρ _ => Cert.Kernel.Gen.frame m ρ

/-- The idealized kernel program runs and keeps its arguments: the generated frame. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.RefRun.run m ρ)

/-- At the exact instance the two programs, run from memories that agree on the (finite) arguments, end with equal
    results: each result is the closed form of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KerArray.run m ρ, ?_⟩
  refine (θ_run Cert.ReferenceIdeal.defs _ _).mono (fun _ h c => ⟨(h c).1.trans ?_, (h c).2⟩) (Cert.RefRun.run m' ρ')
  obtain ⟨e0, e1, e2, e3, e4, e5⟩ := hagree c
  obtain ⟨h1, h2, h3, h4, h5⟩ := Cert.PreReal.allReal_of_pre _ _ _ _ _ _ (hpre c)
  rw [e0, e1, e2, e3, e4, e5]
  funext i
  obtain ⟨n, j, rfl⟩ : ∃ (n : Fin 100000) (j : Fin 64), i = ix2 n j := ⟨i 0, i 1, eq_ix2 i⟩
  exact (Cert.RefClosed.ref_closed _ _ _ _ _ _ h1 h2 h3 h4 h5 n j).trans
    (Cert.KerClosed.ker_closed _ _ _ _ _ _ h1 h2 h3 h4 h5 n j).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
